-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := mulf main_arg0 main_arg0
  let main_cst_0 : FVec F S_ .f32 := constant S_ .f32 0x00000000#32
  let main_v5 : FVec F S8192 .f32 := (fun x v => Host.reduceAdd x v reducesTo_S8192x256_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S_, .f32⟩
  | .hbm, ⟨14, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  natLt_1_32 : 1 < 32
  iota_S1024x1024_d0_w32 : S1024x1024.Iotas .tc 32 [0]
  iota_S1024x1024_d1_w32 : S1024x1024.Iotas .tc 32 [1]
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v3) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S8192x8192, .i32⟩
  | .hbm, ⟨39, _⟩ => ⟨S_, .i32⟩
  | .hbm, ⟨40, _⟩ => ⟨S8192, .i32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .f32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  natLt_1_32 : 1 < 32
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBody.lean ====
import proofs.«116435_j54296976556236_2_alg».proof.Proof.Gen.Kernel.Launch
import proofs.«116435_j54296976556236_2_alg».proof.Proof.Gen.Kernel.Skeleton
import proofs.«116435_j54296976556236_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev condReset (i : grid0.Coords) : Prop := (Scalar.cmpi .ne (Scalar.extui (Scalar.cmpi .eq (BitVec.ofNat 32 (i 1).val) 0#32)) 0#32) = 1#1
abbrev condDiag (i : grid0.Coords) : Prop := (Scalar.cmpi .ne (Scalar.extui (Scalar.cmpi .eq (BitVec.ofNat 32 (i 0).val) (BitVec.ofNat 32 (i 1).val))) 0#32) = 1#1
abbrev condLast (i : grid0.Coords) : Prop := k0_cond3 i = 1#1

theorem hz2 : (![0, 0] : Fin 2 → ℕ) = fun _ => 0 := by funext a; fin_cases a <;> rfl

/-- A load of the whole block of a whole memref, through the full-shape rectangle at zero offsets, reads the contents. -/
theorem readAt_whole {sp : Space} {S : Shape} {e : EltTy} (M : Memref sig .tc sp S e) (h : M.IsWhole) (X : S.Idx → Elt F e)
    (off : Fin S.rank → ℕ) (hoff : off = fun _ => 0) (inb : ∀ a, off a + S.size a ≤ S.size a) :
    M.view.readAt (Elt F) (Rect.unit off S.size inb).toLoadRect (h.unread X) = X := by
  rw [View.readAt_eq_ld, h.read_unread, View.ld_unit_zero hoff]

/-- A load of the whole block after stores whose LAST one wrote the whole block reads that store's value. -/
theorem readCov_cons_whole {sp : Space} {S : Shape} {e : EltTy} (v : View sig .tc sp S e)
    (off : Fin S.rank → ℕ) (hoff : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What a buffer holds after stores whose LAST one wrote the whole block: that store's value. -/
theorem read_writes_whole {sp : Space} {S : Shape} {e : EltTy} (v : View sig .tc sp S e) (f : v.ty.Contents (Elt F))
    (off : Fin S.rank → ℕ) (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩), View.canon_cons_unit_zero hoff]

set_option hygiene false in
/-- The contents a case lemma's run leaves in one of its four written buffers: the last store's value, every load inside
    it read through — the loads of the eight memrefs of the case lemma, by name, and the loads that follow a store in
    the same buffer. -/
macro "piece_read_Kernel" : tactic => `(tactic| (
  (try sl_unfold_run_names)
  (try (first
    | rw [read_writes_whole arg6.view _ _ hz2] | rw [read_writes_whole arg7.view _ _ hz2]
    | rw [read_writes_whole arg8.view _ _ hz2] | rw [read_writes_whole arg9.view _ _ hz2]))
  (try simp only [readAt_whole arg2 harg2 x2 _ hz2, readAt_whole arg3 harg3 x3 _ hz2, readAt_whole arg4 harg4 x4 _ hz2,
      readAt_whole arg5 harg5 x5 _ hz2, readAt_whole arg6 harg6 xi6 _ hz2, readAt_whole arg7 harg7 xs7 _ hz2,
      readAt_whole arg8 harg8 xs8 _ hz2, readAt_whole arg9 harg9 xs9 _ hz2])
  (repeat (first
    | rw [readCov_cons_whole arg7.view _ hz2] | rw [readCov_cons_whole arg8.view _ hz2]
    | rw [readCov_cons_whole arg9.view _ hz2] | rw [readCov_cons_whole arg6.view _ hz2]))
  (try assumption)
  (try rfl)))

end Cert.Kernel.Hand

end
-- ==== Proof.KRun0.lean ====
import proofs.«116435_j54296976556236_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : ¬condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay14 x2 x3 xs7)
            ∗ owns (c : Thread nD τ) arg8 fullShare (k0_pay1 (k0_pay15 x2 x3 x4 x5 xs8))
            ∗ owns (c : Thread nD τ) arg9 fullShare (k0_pay2 (k0_pay12 x4 x5) xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

set_option maxHeartbeats 4000000 in
theorem run_TFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : ¬condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay14 x2 x3 (k0_pay8 (F := F)))
            ∗ owns (c : Thread nD τ) arg8 fullShare (k0_pay1 (k0_pay15 x2 x3 x4 x5 (k0_pay9 (F := F))))
            ∗ owns (c : Thread nD τ) arg9 fullShare (k0_pay2 (k0_pay12 x4 x5) (k0_pay10 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

end Cert.Kernel.Hand

end
-- ==== Proof.KRun1.lean ====
import proofs.«116435_j54296976556236_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay4 (k0_pay13 x2 x3) (k0_pay14 x2 x3 xs7))
            ∗ owns (c : Thread nD τ) arg8 fullShare (k0_pay5 (k0_pay11 x2 x3) (k0_pay1 (k0_pay15 x2 x3 x4 x5 xs8)))
            ∗ owns (c : Thread nD τ) arg9 fullShare (k0_pay6 (k0_pay2 (k0_pay12 x4 x5) xs9))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

set_option maxHeartbeats 4000000 in
theorem run_TTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay4 (k0_pay13 x2 x3) (k0_pay14 x2 x3 (k0_pay8 (F := F))))
            ∗ owns (c : Thread nD τ) arg8 fullShare (k0_pay5 (k0_pay11 x2 x3) (k0_pay1 (k0_pay15 x2 x3 x4 x5 (k0_pay9 (F := F)))))
            ∗ owns (c : Thread nD τ) arg9 fullShare (k0_pay6 (k0_pay2 (k0_pay12 x4 x5) (k0_pay10 (F := F))))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

end Cert.Kernel.Hand

end
-- ==== Proof.KRun2.lean ====
import proofs.«116435_j54296976556236_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : ¬condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay2 (k0_pay12 x4 x5) xs9) (k0_pay1 (k0_pay15 x2 x3 x4 x5 xs8)) (k0_pay14 x2 x3 xs7))
            ∗ owns (c : Thread nD τ) arg7 fullShare (k0_pay14 x2 x3 xs7)
            ∗ owns (c : Thread nD τ) arg8 fullShare (k0_pay1 (k0_pay15 x2 x3 x4 x5 xs8))
            ∗ owns (c : Thread nD τ) arg9 fullShare (k0_pay2 (k0_pay12 x4 x5) xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

set_option maxHeartbeats 4000000 in
theorem run_FTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay6 (k0_pay2 (k0_pay12 x4 x5) xs9)) (k0_pay5 (k0_pay11 x2 x3) (k0_pay1 (k0_pay15 x2 x3 x4 x5 xs8))) (k0_pay4 (k0_pay13 x2 x3) (k0_pay14 x2 x3 xs7)))
            ∗ owns (c : Thread nD τ) arg7 fullShare (k0_pay4 (k0_pay13 x2 x3) (k0_pay14 x2 x3 xs7))
            ∗ owns (c : Thread nD τ) arg8 fullShare (k0_pay5 (k0_pay11 x2 x3) (k0_pay1 (k0_pay15 x2 x3 x4 x5 xs8)))
            ∗ owns (c : Thread nD τ) arg9 fullShare (k0_pay6 (k0_pay2 (k0_pay12 x4 x5) xs9))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

end Cert.Kernel.Hand

end
-- ==== Proof.KRun3.lean ====
import proofs.«116435_j54296976556236_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_TFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : ¬condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay2 (k0_pay12 x4 x5) (k0_pay10 (F := F))) (k0_pay1 (k0_pay15 x2 x3 x4 x5 (k0_pay9 (F := F)))) (k0_pay14 x2 x3 (k0_pay8 (F := F))))
            ∗ owns (c : Thread nD τ) arg7 fullShare (k0_pay14 x2 x3 (k0_pay8 (F := F)))
            ∗ owns (c : Thread nD τ) arg8 fullShare (k0_pay1 (k0_pay15 x2 x3 x4 x5 (k0_pay9 (F := F))))
            ∗ owns (c : Thread nD τ) arg9 fullShare (k0_pay2 (k0_pay12 x4 x5) (k0_pay10 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

set_option maxHeartbeats 4000000 in
theorem run_TTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay6 (k0_pay2 (k0_pay12 x4 x5) (k0_pay10 (F := F)))) (k0_pay5 (k0_pay11 x2 x3) (k0_pay1 (k0_pay15 x2 x3 x4 x5 (k0_pay9 (F := F))))) (k0_pay4 (k0_pay13 x2 x3) (k0_pay14 x2 x3 (k0_pay8 (F := F)))))
            ∗ owns (c : Thread nD τ) arg7 fullShare (k0_pay4 (k0_pay13 x2 x3) (k0_pay14 x2 x3 (k0_pay8 (F := F))))
            ∗ owns (c : Thread nD τ) arg8 fullShare (k0_pay5 (k0_pay11 x2 x3) (k0_pay1 (k0_pay15 x2 x3 x4 x5 (k0_pay9 (F := F)))))
            ∗ owns (c : Thread nD τ) arg9 fullShare (k0_pay6 (k0_pay2 (k0_pay12 x4 x5) (k0_pay10 (F := F))))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_Kernel
  isplitl [H7]
  · iexists _; isplitr; swap; (· iexact H7)
    ipureintro
    piece_read_Kernel
  isplitl [H8]
  · iexists _; isplitr; swap; (· iexact H8)
    ipureintro
    piece_read_Kernel
  · iexists _; isplitr; swap; (· iexact H9)
    ipureintro
    piece_read_Kernel

end Cert.Kernel.Hand

end
-- ==== Proof.KStep.lean ====
import proofs.«116435_j54296976556236_2_alg».proof.Proof.KRun0
import proofs.«116435_j54296976556236_2_alg».proof.Proof.KRun1
import proofs.«116435_j54296976556236_2_alg».proof.Proof.KRun2
import proofs.«116435_j54296976556236_2_alg».proof.Proof.KRun3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One grid point as a function of what it finds

At the point with coordinates `i = (qi, ki)` the body reads the query block `q`, the key block `k`, the query labels `a`
(a column) and the key labels `b` (a row), and three columns it carries from point to point: the row sums of
`exp s` (`r`), the row sums of `s` over equal labels (`p`) and the row counts of equal labels (`n`), where
`s = 2 · q kᵀ`. Each column is reset to zero where `ki = 0`, then gains this tile's row sum, then — on the tile that
holds the diagonal, `qi = ki` — loses the diagonal entry's share. Where `ki = 7` the output block is written from the
three columns; elsewhere it is left as found. -/

/-- The column of row sums of `exp s` after the point. -/
def nextR (i : grid0.Coords) (q k : Vec F S1024x256 .bf16) (r : Vec F S1024x1 .f32) : Vec F S1024x1 .f32 :=
  if condDiag i then k0_pay4 (k0_pay13 q k) (k0_pay14 q k (if condReset i then k0_pay8 else r))
  else k0_pay14 q k (if condReset i then k0_pay8 else r)

/-- The column of row sums of `s` over equal labels after the point. -/
def nextP (i : grid0.Coords) (q k : Vec F S1024x256 .bf16) (a : Vec F S1024x1 .i32) (b : Vec F S1x1024 .i32)
    (p : Vec F S1024x1 .f32) : Vec F S1024x1 .f32 :=
  if condDiag i then k0_pay5 (k0_pay11 q k) (k0_pay1 (k0_pay15 q k a b (if condReset i then k0_pay9 else p)))
  else k0_pay1 (k0_pay15 q k a b (if condReset i then k0_pay9 else p))

/-- The column of row counts of equal labels after the point. -/
def nextN (i : grid0.Coords) (a : Vec F S1024x1 .i32) (b : Vec F S1x1024 .i32) (n : Vec F S1024x1 .f32) : Vec F S1024x1 .f32 :=
  if condDiag i then k0_pay6 (k0_pay2 (k0_pay12 a b) (if condReset i then k0_pay10 else n))
  else k0_pay2 (k0_pay12 a b) (if condReset i then k0_pay10 else n)

/-- The output block after the point: written from the three columns on the last tile of a row of tiles, else kept. -/
def nextO (i : grid0.Coords) (q k : Vec F S1024x256 .bf16) (a : Vec F S1024x1 .i32) (b : Vec F S1x1024 .i32)
    (r p n o : Vec F S1024x1 .f32) : Vec F S1024x1 .f32 :=
  if condLast i then k0_pay7 (nextN i a b n) (nextP i q k a b p) (nextR i q k r) else o

/-- The body at any point, on whole memrefs at any contents: it returns with the inputs as they were, the three
    carried columns and the output block at `nextR`, `nextP`, `nextN`, `nextO` of what it found. By cases on the three
    conditions, each case one symbolic run of the body. -/
theorem bodyRun (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (nextO i x2 x3 x4 x5 xs7 xs8 xs9 xi6)
            ∗ owns (c : Thread nD τ) arg7 fullShare (nextR i x2 x3 xs7)
            ∗ owns (c : Thread nD τ) arg8 fullShare (nextP i x2 x3 x4 x5 xs8)
            ∗ owns (c : Thread nD τ) arg9 fullShare (nextN i x4 x5 xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  by_cases hc1 : condReset i <;> by_cases hc2 : condDiag i <;> by_cases hc3 : condLast i
  · simp only [nextO, nextR, nextP, nextN, if_pos hc1, if_pos hc2, if_pos hc3]
    exact run_TTT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_pos hc2, if_neg hc3]
    exact run_TTF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_neg hc2, if_pos hc3]
    exact run_TFT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_neg hc2, if_neg hc3]
    exact run_TFF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_pos hc2, if_pos hc3]
    exact run_FTT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_pos hc2, if_neg hc3]
    exact run_FTF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_neg hc2, if_pos hc3]
    exact run_FFT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_neg hc2, if_neg hc3]
    exact run_FFF c i arg2 harg2 arg3 harg3 arg4 harg4 arg5 harg5 arg6 harg6 arg7 harg7 arg8 harg8 arg9 harg9 hc1 hc2 hc3 x2 x3 x4 x5 xs7 xs8 xs9 xi6 E K

end Cert.Kernel.Hand

end
-- ==== Proof.KData.lean ====
import proofs.«116435_j54296976556236_2_alg».proof.Proof.KStep
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => m ((c : Dev nD), b)
/-- after the row norms (the five operations of the norm), -/
abbrev Vn (c : Dev nD) : Valuation τ sig (Elt F) := StableHlo.after hostOps0 (V₀ m c)
/-- and when the region is entered: the rows divided by their norms, the labels as a column and as a row. -/
abbrev V₁ (c : Dev nD) : Valuation τ sig (Elt F) := StableHlo.after hostOps0_1 (Vn m c)
/-- The same read at a TensorCore reference. -/
abbrev Vr (c : Dev nD) (b : Ref sig .tc) : Buf (Elt F) ((c : Thread nD τ).loc b) := V₁ m c b

/-- Window `w`'s block at point `t`: the rows `1024·qi …` of the normalized embedding (windows 0, 2, 4), the rows
    `1024·ki …` (windows 1, 3). -/
def iblk (c : Dev nD) (w : Fin cfg0.W) (t : Fin cfg0.N) : ((cfg0.win w).xblock (cfg0.grid.coords t)).Idx → Elt F (cfg0.win w).elt :=
  ((cfg0.win w).blk t).view.read (Elt F) (Vr m c (Pipeline.arrRef spec0 w))

/-! ## Where the three conditions hold, decided over the grid of 8 × 8 points (point `t` is `qi = t / 8`, `ki = t % 8`) -/

theorem hReset : ∀ t : Fin cfg0.N, condReset (grid0.coords t) ↔ t.val % 8 = 0 :=
  (by decide +kernel : ∀ t : Fin grid0.N, condReset (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)
/-- The output block is idle exactly where it is not written: off the last tile of a row of tiles; -/
theorem idleOut : ∀ t : Fin cfg0.N, ¬condLast (grid0.coords t) → cfg0.idle 4 (grid0.coords t) = true := by decide +kernel
theorem liveOut : ∀ t : Fin cfg0.N, condLast (grid0.coords t) → cfg0.idle 4 (grid0.coords t) = false := by decide +kernel
/-- and is written back exactly there. -/
theorem noFlushOut : ∀ t : Fin cfg0.N, ¬condLast (grid0.coords t) → (cfg0.win 4).flush t = false := by decide +kernel

/-! ## The carried columns after each point -/

/-- The three carried columns after the body at position `n`: one step from what position `n - 1` left (from zeros at
    the first position, where the step resets them anyway). -/
def scrAt (c : Dev nD) : (n : ℕ) → n < cfg0.N → Vec F S1024x1 .f32 × Vec F S1024x1 .f32 × Vec F S1024x1 .f32
  | 0, hn =>
    (nextR (grid0.coords ⟨0, hn⟩) (iblk m c 0 ⟨0, hn⟩) (iblk m c 1 ⟨0, hn⟩) k0_pay8,
     nextP (grid0.coords ⟨0, hn⟩) (iblk m c 0 ⟨0, hn⟩) (iblk m c 1 ⟨0, hn⟩) (iblk m c 2 ⟨0, hn⟩) (iblk m c 3 ⟨0, hn⟩) k0_pay9,
     nextN (grid0.coords ⟨0, hn⟩) (iblk m c 2 ⟨0, hn⟩) (iblk m c 3 ⟨0, hn⟩) k0_pay10)
  | n + 1, hn =>
    (nextR (grid0.coords ⟨n + 1, hn⟩) (iblk m c 0 ⟨n + 1, hn⟩) (iblk m c 1 ⟨n + 1, hn⟩) (scrAt c n (Nat.lt_of_succ_lt hn)).1,
     nextP (grid0.coords ⟨n + 1, hn⟩) (iblk m c 0 ⟨n + 1, hn⟩) (iblk m c 1 ⟨n + 1, hn⟩) (iblk m c 2 ⟨n + 1, hn⟩) (iblk m c 3 ⟨n + 1, hn⟩) (scrAt c n (Nat.lt_of_succ_lt hn)).2.1,
     nextN (grid0.coords ⟨n + 1, hn⟩) (iblk m c 2 ⟨n + 1, hn⟩) (iblk m c 3 ⟨n + 1, hn⟩) (scrAt c n (Nat.lt_of_succ_lt hn)).2.2)

/-- What the output block holds where it is written (the last tile of a row of tiles): the loss of each row from
    the three finished columns. -/
def outAt (c : Dev nD) (t : Fin cfg0.N) : Vec F S1024x1 .f32 :=
  k0_pay7 (scrAt m c t.val t.isLt).2.2 (scrAt m c t.val t.isLt).2.1 (scrAt m c t.val t.isLt).1

/-- Where the columns are reset the step does not read what it found. -/
theorem nextR_reset {i : grid0.Coords} (h : condReset i) (q k : Vec F S1024x256 .bf16) (r r' : Vec F S1024x1 .f32) :
    nextR i q k r = nextR i q k r' := by unfold nextR; simp only [if_pos h]
theorem nextP_reset {i : grid0.Coords} (h : condReset i) (q k : Vec F S1024x256 .bf16) (a : Vec F S1024x1 .i32) (b : Vec F S1x1024 .i32)
    (p p' : Vec F S1024x1 .f32) : nextP i q k a b p = nextP i q k a b p' := by unfold nextP; simp only [if_pos h]
theorem nextN_reset {i : grid0.Coords} (h : condReset i) (a : Vec F S1024x1 .i32) (b : Vec F S1x1024 .i32)
    (n n' : Vec F S1024x1 .f32) : nextN i a b n = nextN i a b n' := by unfold nextN; simp only [if_pos h]

/-! ## The invariant: the three scratch columns -/

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- Before the first point the scratch columns hold anything (the scoped buffers no window stages); before any later
    point what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (scrAt m c n hn).1
      ∗ owns (c : Thread nD τ) scM1 fullShare (scrAt m c n hn).2.1
      ∗ owns (c : Thread nD τ) scM2 fullShare (scrAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (scrAt m c n hn).1
      ∗ owns (c : Thread nD τ) scM1 fullShare (scrAt m c n hn).2.1
      ∗ owns (c : Thread nD τ) scM2 fullShare (scrAt m c n hn).2.2) := rfl

theorem PhiS_pos (c : Dev nD) (n : ℕ) (h : n ≤ cfg0.N) (hz : n ≠ 0) :
    PhiS m c n h = iprop(owns (c : Thread nD τ) scM0 fullShare (scrAt m c (n - 1) (by omega)).1
      ∗ owns (c : Thread nD τ) scM1 fullShare (scrAt m c (n - 1) (by omega)).2.1
      ∗ owns (c : Thread nD τ) scM2 fullShare (scrAt m c (n - 1) (by omega)).2.2) := by
  cases n with
  | zero => exact absurd rfl hz
  | succ n => rfl

/-- The scoped buffers no window stages, as the three scratch memrefs each at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-! ## The pipeline's proof data -/

/-- The shares of the windows' arrays: the normalized embedding is handed to the query window and to the key window,
    each at half; every other array whole. -/
def qOf : Fin cfg0.W → PosShare TreeShare := fun w =>
  match w with
  | ⟨0, _⟩ => fullShare.left
  | ⟨1, _⟩ => fullShare.right
  | ⟨2, _⟩ => fullShare
  | ⟨3, _⟩ => fullShare
  | ⟨4, _⟩ => fullShare

/-- The proof data on core `c`: the arrays as the region finds them; after the body at point `t` each input's buffer
    at its block, the output's at `outAt`; the invariant `PhiS`; nothing owed. -/
def dats (_ : Fin 1) (c : Dev nD) : Dat τ (Elt F) Unit ℕ (UR sig nD τ) ℕ cfg0 c where
  A w := Vr m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q := qOf
  owed _ := 0

theorem A_eq (c : Dev nD) (w : Fin cfg0.W) : (dats m 0 c).A w = Vr m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- An input's current staging buffer holds its block at every point, fetched there or not: unfetched, the block
    index has not moved (the windows are uncut and never idle). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Hand

end
-- ==== Proof.KOblig.lean ====
import proofs.«116435_j54296976556236_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, each window's current buffer; -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after3]
theorem leaves4_last (c : Dev nD) (t : Fin cfg0.N) (h : condLast (grid0.coords t)) :
    (dats m 0 c).leavesExact 4 t = owns (c : Thread nD τ) (win0_4.stage (cfg0.slots t 4)) fullShare (outAt m c t) := by
  unfold Dat.leavesExact; rw [liveOut t h, after4]

set_option maxHeartbeats 4000000 in
/-- The body at any point. The inputs' buffers hold their blocks; the carried columns are what the point before left
    (anything at the first point, where they are reset); the step `bodyRun` applies; the output block is written on
    the last tile of a row of tiles and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases hz : t.val = 0
  · have hR : condReset (grid0.coords t) := (hReset t).mpr (by omega)
    have hL : ¬condLast (grid0.coords t) := fun h => by have := (hLast t).mp h; omega
    have hs : scrAt m c t.val t.isLt
        = (nextR (grid0.coords t) (iblk m c 0 t) (iblk m c 1 t) k0_pay8,
           nextP (grid0.coords t) (iblk m c 0 t) (iblk m c 1 t) (iblk m c 2 t) (iblk m c 3 t) k0_pay9,
           nextN (grid0.coords t) (iblk m c 2 t) (iblk m c 3 t) k0_pay10) := by
      obtain ⟨n, hn⟩ := t; cases n with
      | zero => rfl
      | succ n => exact absurd hz (Nat.succ_ne_zero n)
    rw [PhiS_castSucc m c t, PhiS_zero m c _ _ hz, scopedRest_scratch, hs]
    rw [Dat.leavesExact_idle (dats m 0 c) 4 t (idleOut t hL) (noFlushOut t hL)]
    iintro ⟨⟨⟨%d7, H7⟩, ⟨%d8, H8⟩, ⟨%d9, H9⟩⟩, Ho, ⟨%e0, H0⟩, ⟨%e1, H1⟩, ⟨%e2, H2⟩, ⟨%e3, H3⟩, ⟨%e4, H4⟩⟩
    iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
      (iblk m c 0 t) (iblk m c 1 t) (iblk m c 2 t) (iblk m c 3 t) d7 d8 d9 ((dats m 0 c).before 4 t e4) Set.univ _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    rw [nextR_reset hR _ _ d7 k0_pay8, nextP_reset hR _ _ _ _ d8 k0_pay9, nextN_reset hR _ _ d9 k0_pay10]
    unfold nextO; rw [if_neg hL]
    isplitl [H7 H8 H9]
    · isplitl [H7]; · iexact H7
      isplitl [H8]; · iexact H8
      iexact H9
    isplitl [Ho]; · iexact Ho
    isplitl [H0]; · iexact H0
    isplitl [H1]; · iexact H1
    isplitl [H2]; · iexact H2
    isplitl [H3]; · iexact H3
    iexists _; iexact H4
  · have hs : scrAt m c t.val t.isLt
        = (nextR (grid0.coords t) (iblk m c 0 t) (iblk m c 1 t) (scrAt m c (t.val - 1) (by omega)).1,
           nextP (grid0.coords t) (iblk m c 0 t) (iblk m c 1 t) (iblk m c 2 t) (iblk m c 3 t) (scrAt m c (t.val - 1) (by omega)).2.1,
           nextN (grid0.coords t) (iblk m c 2 t) (iblk m c 3 t) (scrAt m c (t.val - 1) (by omega)).2.2) := by
      obtain ⟨n, hn⟩ := t; cases n with
      | zero => exact absurd rfl hz
      | succ n => rfl
    rw [PhiS_castSucc m c t, PhiS_pos m c _ _ hz]
    by_cases hL : condLast (grid0.coords t)
    · rw [leaves4_last m c t hL]
      unfold outAt
      rw [hs]
      iintro ⟨⟨H7, H8, H9⟩, Ho, ⟨%e0, H0⟩, ⟨%e1, H1⟩, ⟨%e2, H2⟩, ⟨%e3, H3⟩, ⟨%e4, H4⟩⟩
      iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
        (iblk m c 0 t) (iblk m c 1 t) (iblk m c 2 t) (iblk m c 3 t) _ _ _ ((dats m 0 c).before 4 t e4) Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      unfold nextO; rw [if_pos hL]
      isplitl [H7 H8 H9]
      · isplitl [H7]; · iexact H7
        isplitl [H8]; · iexact H8
        iexact H9
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleOut t hL) (noFlushOut t hL)]
      rw [hs]
      iintro ⟨⟨H7, H8, H9⟩, Ho, ⟨%e0, H0⟩, ⟨%e1, H1⟩, ⟨%e2, H2⟩, ⟨%e3, H3⟩, ⟨%e4, H4⟩⟩
      iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
        (iblk m c 0 t) (iblk m c 1 t) (iblk m c 2 t) (iblk m c 3 t) _ _ _ ((dats m 0 c).before 4 t e4) Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      unfold nextO; rw [if_neg hL]
      isplitl [H7 H8 H9]
      · isplitl [H7]; · iexact H7
        isplitl [H8]; · iexact H8
        iexact H9
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrame.lean ====
import proofs.«116435_j54296976556236_2_alg».proof.Proof.KOblig

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev Lh : GSem nD τ sig → Finset Unit := fun _ => ∅
abbrev lvh : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev Rw (c : Dev nD) : sProp 𝕄 := iprop(∃ W, owes (c : Thread nD τ) (0 : CellTallies nD τ sig Unit) W)
/-- The launch element: the pipeline library's at the staging cells. -/
def u₀ : UR sig nD τ := initOf (Pipeline.cells cfgs cellOf_inj) (Pipeline.launchToks cfgs cellOf_inj)

/-! ## The host operations before the region -/

/-- The five operations of the row norm, over the unscoped buffers. -/
def seg0 : Pipeline.HostSeg (Name := ℕ) (U := UR sig nD τ) (pcfgs (F := F)) defs₀ 𝒱₀ Lh lvh :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) Rw

/-- The division by the norms, the change of format, the two reshapes of the labels. -/
def seg1 : Pipeline.HostSeg (Name := ℕ) (U := UR sig nD τ) (pcfgs (F := F)) defs₀ 𝒱₀ Lh lvh :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (Vn m) Rw

/-! ## The region -/

/-- The output array after the region, as the library computes it from the proof data. -/
def finalOut (c : Dev nD) : Buf (Elt F) ((c : Thread nD τ).loc main_v6) := (dats m 0 c).arrAt 4 cfg0.N

/-- The buffers the two operations after the region touch: the output array, the zero constant, the sum. -/
def tailRefs : Finset (DevRef τ sig) := [(main_v6 : DevRef τ sig), (main_cst : DevRef τ sig), (main_v7 : DevRef τ sig)].toFinset

/-- Their contents when the region is left: the output array at `finalOut`, the others as the region found them. -/
def V₃ (c : Dev nD) : Valuation τ sig (Elt F) := Function.update (V₁ m c) (main_v6 : DevRef τ sig) (finalOut m c)

/-- What bypasses the region: the two arguments, and the two buffers the later operations write. -/
abbrev Zb (c : Dev nD) : sProp 𝕄 :=
  iprop((((c : Thread nD τ).loc main_arg0) ↦{fullShare} Vr m c main_arg0) ∗ (((c : Thread nD τ).loc main_arg1) ↦{fullShare} Vr m c main_arg1)
    ∗ (((c : Thread nD τ).loc main_cst) ↦{fullShare} Vr m c main_cst) ∗ (((c : Thread nD τ).loc main_v7) ↦{fullShare} Vr m c main_v7))

/-- The arguments, as they ride from the region to the end. -/
abbrev Args (c : Dev nD) : sProp 𝕄 :=
  iprop((((c : Thread nD τ).loc main_arg0) ↦{fullShare} Vr m c main_arg0) ∗ (((c : Thread nD τ).loc main_arg1) ↦{fullShare} Vr m c main_arg1))

/-! ## What the host operations leave untouched -/

theorem nw0 (b : Ref sig .tc) (hb : b ≠ main_call0_v0 ∧ b ≠ main_call0_cst ∧ b ≠ main_call0_v1 ∧ b ≠ main_call0_v2 ∧ b ≠ main_v0) :
    ∀ op ∈ (hostOps0 (F := F)), (b : DevRef τ sig) ∉ op.writes := by
  obtain ⟨h0, h1, h2, h3, h4⟩ := hb
  intro op hop
  simp only [List.mem_cons, List.mem_nil_iff, or_false] at hop
  rcases hop with rfl | rfl | rfl | rfl | rfl <;>
    simp only [StableHlo.TRef.binary, StableHlo.TRef.unary, StableHlo.TRef.nullary, StableHlo.unary_writes, StableHlo.binary_writes, StableHlo.nullary_writes, Finset.mem_singleton] <;>
    exact StableHlo.devRef_ne_of_ne ‹_›

theorem nw1 (b : Ref sig .tc) (hb : b ≠ main_v1 ∧ b ≠ main_v2 ∧ b ≠ main_v3 ∧ b ≠ main_v4 ∧ b ≠ main_v5) :
    ∀ op ∈ (hostOps0_1 (F := F)), (b : DevRef τ sig) ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.reshape_writes, Finset.mem_singleton] <;>
    exact StableHlo.devRef_ne_of_ne ‹_›

/-- Neither argument is written before the region: each reaches it as launched. -/
theorem Vr_arg0 (c : Dev nD) : Vr m c main_arg0 = m ((c : Thread nD τ).loc main_arg0) :=
  (StableHlo.after_of_forall_not_mem (b := (main_arg0 : DevRef τ sig)) hostOps0_1 (Vn m c) (nw1 main_arg0 (by decide))).trans
    (StableHlo.after_of_forall_not_mem (b := (main_arg0 : DevRef τ sig)) hostOps0 (V₀ m c) (nw0 main_arg0 (by decide)))
theorem Vr_arg1 (c : Dev nD) : Vr m c main_arg1 = m ((c : Thread nD τ).loc main_arg1) :=
  (StableHlo.after_of_forall_not_mem (b := (main_arg1 : DevRef τ sig)) hostOps0_1 (Vn m c) (nw1 main_arg1 (by decide))).trans
    (StableHlo.after_of_forall_not_mem (b := (main_arg1 : DevRef τ sig)) hostOps0 (V₀ m c) (nw0 main_arg1 (by decide)))

/-! ## The region's four entailments -/

/-- The four buffers behind the five windows' arrays, listed. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v6) ↦{fullShare} V main_v6)) := by
  unfold Pipeline.arrBufs
  exact bigSep_eq_bigSepL_of_eq [main_v3, main_v4, main_v5, main_v6] (by decide) (by decide) _

/-- The windows' arrays, each a whole buffer, at the proof data's shares. -/
theorem arrays_eq' (c : Dev nD) (Fm : (w : Fin cfg0.W) → Buf (Elt F) ((cfg0.win w).arr.view.loc (c : Thread nD τ))) :
    (dats m 0 c).arrays Fm
      = bigSep Finset.univ fun w : Fin cfg0.W => ((((c : Thread nD τ).loc (Pipeline.arrRef spec0 w)) ↦{(dats m 0 c).share w} Fm w : sProp 𝕄)) := by
  unfold Dat.arrays
  exact bigSep_congr fun w _ => by rw [(arr_whole0 w).set_eq_univ]

/-- ENTRY, the arrays: the normalized embedding split in halves between the query window and the key window, the
    two label arrays and the output array whole. -/
theorem entry_arrays (c : Dev nD) :
    (Pipeline.arrBufs (Ix := Unit) (Name := ℕ) (U := UR sig nD τ) (Lvl := ℕ) spec0 c (Vr m c) : sProp 𝕄)
      ⊢ (dats m 0 c).arrays ((dats m 0 c).arrAt · 0) := by
  rw [arrBufs_list, arrays_eq', bigSep_W0]
  refine (sep_mono (pointsTo_share (PosShare.mem_left_op_right fullShare)).1 .rfl).trans ?_
  iintro ⟨⟨H3l, H3r⟩, H4, H5, H6⟩
  isplitl [H3l]; · iexact H3l
  isplitl [H3r]; · iexact H3r
  isplitl [H4]; · iexact H4
  isplitl [H5]; · iexact H5
  iexact H6

theorem hentry0 (c : Dev nD) :
    iprop(iprop(StableHlo.held (c : Thread nD τ) (Pipeline.ucRefs τ sig) (V₁ m c) ∗ Rw c) ∗ Pipeline.ownSems0 (fun k : PEmpty => k.elim) c ∗ levAts Lh lvh)
      ⊢ (|={Set.univ}=> iprop((dats m 0 c).arrays ((dats m 0 c).arrAt · 0) ∗ Pipeline.prefHeld (pcfgs (F := F) 0).pre c (fun _ => fullShare) (adm (F := F) 0).1
          ∗ (dats m 0 c).owesAt () 0 ∗ (BI.emp : sProp 𝕄) ∗ Zb m c) : sProp 𝕄) := by
  rw [show StableHlo.held (c : Thread nD τ) (Pipeline.ucRefs τ sig) (V₁ m c) = unscopedBufs c (Vr m c) from (Pipeline.unscopedBufs_held c _).symm]
  rw [Pipeline.unscopedBufs_split₀ cfgs 0 (fun w => by fin_cases w <;> rfl) c (Vr m c), unscopedRest0_eq]
  iintro ⟨⟨⟨Ha, Ha0, Ha1, -, -, -, -, -, -, -, Hcst, H7⟩, HO⟩, -, -⟩
  have hsplit := entry_arrays m c
  ihave Harr := hsplit $$ Ha
  imodintro
  isplitl [Harr]; · iexact Harr
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Ha0]; · iexact Ha0
  isplitl [Ha1]; · iexact Ha1
  isplitl [Hcst]; · iexact Hcst
  iexact H7

theorem hin0 (c : Dev nD) :
    iprop((BI.emp : sProp 𝕄) ∗ Pipeline.prefHeld (pcfgs (F := F) 0).pre c (fun _ => fullShare) (adm (F := F) 0).1 ∗ Pipeline.scopedRest spec0 c)
      ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, -, Hr⟩; iexact Hr

theorem hout0 (c : Dev nD) :
    (dats m 0 c).Φ (Fin.last cfg0.N)
      ⊢ iprop((BI.emp : sProp 𝕄) ∗ Pipeline.ownSems0 (fun k : PEmpty => k.elim) c ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), Pipeline.ownSems0_none, scopedRest_scratch]
  iintro ⟨H0, H1, H2⟩
  isplitr; · iempintro
  isplitr; · iempintro
  isplitl [H0]; · iexists _; iexact H0
  isplitl [H1]; · iexists _; iexact H1
  iexists _; iexact H2

theorem V₃_v6 (c : Dev nD) : V₃ m c (main_v6 : DevRef τ sig) = finalOut m c := Function.update_self _ _ _
theorem V₃_cst (c : Dev nD) : V₃ m c (main_cst : DevRef τ sig) = V₁ m c main_cst :=
  Function.update_of_ne (StableHlo.devRef_ne_of_ne (by decide)) _ _
theorem V₃_v7 (c : Dev nD) : V₃ m c (main_v7 : DevRef τ sig) = V₁ m c main_v7 :=
  Function.update_of_ne (StableHlo.devRef_ne_of_ne (by decide)) _ _

/-- The three buffers of the operations after the region, listed at their contents when the region is left. -/
theorem held_tail (c : Dev nD) :
    (StableHlo.held (c : Thread nD τ) tailRefs (V₃ m c) : sProp 𝕄)
      = iprop(((((c : Thread nD τ).1, (main_v6 : DevRef τ sig)) ↦{fullShare} finalOut m c)) ∗ ((((c : Thread nD τ).1, (main_cst : DevRef τ sig)) ↦{fullShare} V₁ m c main_cst))
          ∗ ((((c : Thread nD τ).1, (main_v7 : DevRef τ sig)) ↦{fullShare} V₁ m c main_v7))) := by
  have h1 : (main_v6 : DevRef τ sig) ≠ main_cst := StableHlo.devRef_ne_of_ne (by decide)
  have h2 : (main_v6 : DevRef τ sig) ≠ main_v7 := StableHlo.devRef_ne_of_ne (by decide)
  have h3 : (main_cst : DevRef τ sig) ≠ main_v7 := StableHlo.devRef_ne_of_ne (by decide)
  have hnd : [(main_v6 : DevRef τ sig), (main_cst : DevRef τ sig), (main_v7 : DevRef τ sig)].Nodup := by
    simp only [List.nodup_cons, List.mem_cons, List.mem_nil_iff, or_false, not_or, List.nodup_nil, List.not_mem_nil, not_false_eq_true, and_true]
    exact ⟨⟨h1, h2⟩, h3⟩
  unfold StableHlo.held tailRefs
  rw [bigSep_eq_bigSepL_of_eq [(main_v6 : DevRef τ sig), (main_cst : DevRef τ sig), (main_v7 : DevRef τ sig)] rfl hnd]
  show (iprop(((((c : Thread nD τ).1, (main_v6 : DevRef τ sig)) ↦{fullShare} V₃ m c main_v6)) ∗ ((((c : Thread nD τ).1, (main_cst : DevRef τ sig)) ↦{fullShare} V₃ m c main_cst))
      ∗ ((((c : Thread nD τ).1, (main_v7 : DevRef τ sig)) ↦{fullShare} V₃ m c main_v7))) : sProp 𝕄) = _
  rw [V₃_v6, V₃_cst, V₃_v7]

theorem hexit0 (c : Dev nD) :
    iprop((dats m 0 c).arrays ((dats m 0 c).arrAt · cfg0.N) ∗ (dats m 0 c).owesAt () (Fin.last cfg0.N) ∗ (BI.emp : sProp 𝕄) ∗ Zb m c)
      ⊢ (|={Set.univ}=> iprop(StableHlo.held (c : Thread nD τ) tailRefs (V₃ m c) ∗ (Args m c ∗ Rw c)) : sProp 𝕄) := by
  rw [arrays_eq', bigSep_W0, held_tail]
  iintro ⟨⟨-, -, -, -, H6⟩, HO, -, ⟨Ha0, Ha1, Hcst, H7⟩⟩
  imodintro
  isplitl [H6 Hcst H7]
  · isplitl [H6]; · iexact H6
    isplitl [Hcst]; · iexact Hcst
    iexact H7
  isplitl [Ha0 Ha1]
  · isplitl [Ha0]; · iexact Ha0
    iexact Ha1
  unfold Pipeline.Dat.owesAt Pipeline.owesWithin
  icases HO with ⟨%W, -, HO⟩; iexists W; iexact HO

/-- The two operations after the region touch the output array, the zero constant and the sum only. -/
theorem tail_sub : ∀ op ∈ (hostOps1 (F := F)), op.bufs ⊆ tailRefs := by
  intro op hop
  simp only [List.mem_cons, List.mem_nil_iff, or_false] at hop
  rcases hop with rfl | rfl
  · rw [StableHlo.nullary_bufs]; decide
  · rw [StableHlo.binary_bufs]; decide

/-! ## The launch's ends -/

theorem hu₀0 : (ownU (u₀ : UR sig nD τ) : sProp 𝕄)
    ⊢ (|={Set.univ}=> iprop(BI.own (EP (F := F) (initOf (Pipeline.cells cfgs cellOf_inj) (Pipeline.launchToks cfgs cellOf_inj)))
        ∗ bigSep Finset.univ (fun _ : Dev nD => (iprop(emp) : sProp 𝕄))) : sProp 𝕄) := by
  unfold u₀
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

theorem hinit0 :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lh lvh)
      ⊢ (|={Set.univ}=> bigSep Finset.univ fun c : Dev nD => iprop(StableHlo.held (c : Thread nD τ) (Pipeline.ucRefs τ sig) (V₀ m c) ∗ Rw c) : sProp 𝕄) := by
  refine Pipeline.initEach Lh lvh fun c => ?_
  rw [show unscopedBufs c (fun b => m ((c : Thread nD τ).loc b)) = StableHlo.held (c : Thread nD τ) (Pipeline.ucRefs τ sig) (V₀ m c) from Pipeline.unscopedBufs_held c (V₀ m c)]
  iintro ⟨⟨Hh, -, HO, -, -, -⟩, -⟩
  imodintro
  isplitl [Hh]; · iexact Hh
  iexists ∅; iexact HO

theorem hfin0 (c : Dev nD) (s' : Phys nD τ sig (Elt F)) :
    iprop(Args m c ∗ SI s') ⊢ (|={Set.univ}=> iprop(⌜s'.mem.mem ((c : Thread nD τ).loc main_arg0) = Vr m c main_arg0 ∧ s'.mem.mem ((c : Thread nD τ).loc main_arg1) = Vr m c main_arg1⌝ ∗ SI s') : sProp 𝕄) := by
  iintro ⟨⟨H0, H1⟩, HSI⟩
  icombine HSI H0 gives %h0
  icombine HSI H1 gives %h1
  imodintro
  isplitr; · ipureintro; exact ⟨Buf.eq_of_forall_mem_univ h0, Buf.eq_of_forall_mem_univ h1⟩
  iexact HSI

set_option backward.isDefEq.respectTransparency.types false in
/-- THE REGION: the decided layout (two windows on one array), no semaphore of the kernel's own, the body obligation;
    entered from what the host operations left — the four arrays into the pipeline, the normalized embedding split in
    halves between the query and the key window —, left with the output array at its final contents. -/
def reg0 : Pipeline.RegionSeg (pcfgs (F := F)) adm (dats m) () defs₀ 𝒱₀ Lh lvh 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lh lvh 0 fun _ _ => rfl
  pre c := iprop(StableHlo.held (c : Thread nD τ) (Pipeline.ucRefs τ sig) (V₁ m c) ∗ Rw c)
  post c := iprop(StableHlo.held (c : Thread nD τ) tailRefs (V₃ m c) ∗ (Args m c ∗ Rw c))
  X c := BI.emp
  Y c := BI.emp
  Z c := Zb m c
  hentry c := by exact hentry0 m c
  hin c := by exact hin0 m c
  hout c := by exact hout0 m c
  hexit c := by exact hexit0 m c

/-! ## The two operations after the region: the zero constant, the sum of the output array -/

def seg3 : Pipeline.HostSeg (Name := ℕ) (U := UR sig nD τ) (pcfgs (F := F)) defs₀ 𝒱₀ Lh lvh :=
  Pipeline.HostSeg.ofOps _ _ _ _ _ tailRefs hostOps1 (by exact tail_sub)
    (by intro _ h; (repeat (cases h with | head => rfl | tail _ h => ?_)); exact nomatch h) (V₃ m) (fun c => iprop(Args m c ∗ Rw c))

/-- @main as the list of the four. -/
abbrev segs : List (Pipeline.Seg (pcfgs (F := F)) adm (dats m) () defs₀ 𝒱₀ Lh lvh) :=
  [.host (seg0 m), .host (seg1 m), .region (reg0 m), .host (seg3 m)]

/-- The last thread state: the two arguments as the host operations left them. -/
abbrev Tₙ (c : Dev nD) : sProp 𝕄 := Args m c

set_option backward.isDefEq.respectTransparency.types false in
/-- At the compiled mesh, for any float values, from any memory with zero counters: every weakly fair execution of
    @main on the TensorCores terminates, nothing faulting, and every final state has both arguments as the host
    operations left them. -/
theorem run_main : θ_run defs (onTc (τ := τ) (main (F := F))) (s₀ m ρ) (fun r => ∀ c : Dev nD,
      r.2.mem ((c : Thread nD τ).loc main_arg0) = Vr m c main_arg0 ∧ r.2.mem ((c : Thread nD τ).loc main_arg1) = Vr m c main_arg1) :=
  Pipeline.θ_run_regions_kit (pcfgs (F := F)) adm (dats m) () cellOf_inj EP defs₀ 𝒱₀ Lh lvh m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by exact hu₀0)
    (T₀ := fun c => iprop(StableHlo.held (c : Thread nD τ) (Pipeline.ucRefs τ sig) (V₀ m c) ∗ Rw c)) (Tₙ := Tₙ m)
    (hch := ⟨fun _ => .rfl, fun _ => .rfl, fun _ => .rfl, fun _ => .rfl, fun c => by
      show iprop(StableHlo.held _ _ _ ∗ (Args m c ∗ Rw c)) ⊢ _
      iintro ⟨-, Ha, HR⟩
      isplitl [Ha]; · iexact Ha
      iexact HR⟩)
    (hinit := by exact hinit0 m ρ)
    (QY := fun c s => s.mem ((c : Thread nD τ).loc main_arg0) = Vr m c main_arg0 ∧ s.mem ((c : Thread nD τ).loc main_arg1) = Vr m c main_arg1)
    (hfin := fun c s' => by exact hfin0 m c s')
    (hQ := fun _ h => h)

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Vr_arg0 m c), (h c).2.trans (Vr_arg1 m c)⟩) (run_main m ρ)

end Cert.Kernel.Hand

end
-- ==== Proof.KIBody.lean ====
import proofs.«116435_j54296976556236_2_alg».proof.Proof.Gen.KernelIdeal.Launch
import proofs.«116435_j54296976556236_2_alg».proof.Proof.Gen.KernelIdeal.Skeleton
import proofs.«116435_j54296976556236_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev condReset (i : grid0.Coords) : Prop := (Scalar.cmpi .ne (Scalar.extui (Scalar.cmpi .eq (BitVec.ofNat 32 (i 1).val) 0#32)) 0#32) = 1#1
abbrev condDiag (i : grid0.Coords) : Prop := (Scalar.cmpi .ne (Scalar.extui (Scalar.cmpi .eq (BitVec.ofNat 32 (i 0).val) (BitVec.ofNat 32 (i 1).val))) 0#32) = 1#1
abbrev condLast (i : grid0.Coords) : Prop := k0_cond3 i = 1#1

theorem hz2 : (![0, 0] : Fin 2 → ℕ) = fun _ => 0 := by funext a; fin_cases a <;> rfl

/-- A load of the whole block of a whole memref, through the full-shape rectangle at zero offsets, reads the contents. -/
theorem readAt_whole {sp : Space} {S : Shape} {e : EltTy} (M : Memref sig .tc sp S e) (h : M.IsWhole) (X : S.Idx → Elt F e)
    (off : Fin S.rank → ℕ) (hoff : off = fun _ => 0) (inb : ∀ a, off a + S.size a ≤ S.size a) :
    M.view.readAt (Elt F) (Rect.unit off S.size inb).toLoadRect (h.unread X) = X := by
  rw [View.readAt_eq_ld, h.read_unread, View.ld_unit_zero hoff]

/-- A load of the whole block after stores whose LAST one wrote the whole block reads that store's value. -/
theorem readCov_cons_whole {sp : Space} {S : Shape} {e : EltTy} (v : View sig .tc sp S e)
    (off : Fin S.rank → ℕ) (hoff : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  subst hoff
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What a buffer holds after stores whose LAST one wrote the whole block: that store's value. -/
theorem read_writes_whole {sp : Space} {S : Shape} {e : EltTy} (v : View sig .tc sp S e) (f : v.ty.Contents (Elt F))
    (off : Fin S.rank → ℕ) (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩), View.canon_cons_unit_zero hoff]

set_option hygiene false in
/-- The contents a case lemma's run leaves in one of its four written buffers: the last store's value, every load inside
    it read through — the loads of the eight memrefs of the case lemma, by name, and the loads that follow a store in
    the same buffer. -/
macro "piece_read_KernelIdeal" : tactic => `(tactic| (
  (try sl_unfold_run_names)
  (try (first
    | rw [read_writes_whole arg6.view _ _ hz2] | rw [read_writes_whole arg7.view _ _ hz2]
    | rw [read_writes_whole arg8.view _ _ hz2] | rw [read_writes_whole arg9.view _ _ hz2]))
  (try simp only [readAt_whole arg2 harg2 x2 _ hz2, readAt_whole arg3 harg3 x3 _ hz2, readAt_whole arg4 harg4 x4 _ hz2,
      readAt_whole arg5 harg5 x5 _ hz2, readAt_whole arg6 harg6 xi6 _ hz2, readAt_whole arg7 harg7 xs7 _ hz2,
      readAt_whole arg8 harg8 xs8 _ hz2, readAt_whole arg9 harg9 xs9 _ hz2])
  (repeat (first
    | rw [readCov_cons_whole arg7.view _ hz2] | rw [readCov_cons_whole arg8.view _ hz2]
    | rw [readCov_cons_whole arg9.view _ hz2] | rw [readCov_cons_whole arg6.view _ hz2]))
  (try assumption)
  (try rfl)))

end Cert.KernelIdeal.Hand

end
-- ==== Proof.KIRun0.lean ====
import proofs.«116435_j54296976556236_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : ¬condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay14 x2 x3 xs7)
            ∗ owns (c : Thread nD τ) arg8 fullShare (k0_pay1 (k0_pay15 x2 x3 x4 x5 xs8))
            ∗ owns (c : Thread nD τ) arg9 fullShare (k0_pay2 (k0_pay12 x4 x5) xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

set_option maxHeartbeats 4000000 in
theorem run_TFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : ¬condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay14 x2 x3 (k0_pay8 (F := F)))
            ∗ owns (c : Thread nD τ) arg8 fullShare (k0_pay1 (k0_pay15 x2 x3 x4 x5 (k0_pay9 (F := F))))
            ∗ owns (c : Thread nD τ) arg9 fullShare (k0_pay2 (k0_pay12 x4 x5) (k0_pay10 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

end Cert.KernelIdeal.Hand

end
-- ==== Proof.KIRun1.lean ====
import proofs.«116435_j54296976556236_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay4 (k0_pay13 x2 x3) (k0_pay14 x2 x3 xs7))
            ∗ owns (c : Thread nD τ) arg8 fullShare (k0_pay5 (k0_pay11 x2 x3) (k0_pay1 (k0_pay15 x2 x3 x4 x5 xs8)))
            ∗ owns (c : Thread nD τ) arg9 fullShare (k0_pay6 (k0_pay2 (k0_pay12 x4 x5) xs9))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

set_option maxHeartbeats 4000000 in
theorem run_TTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : condDiag i) (hc3 : ¬condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6
            ∗ owns (c : Thread nD τ) arg7 fullShare (k0_pay4 (k0_pay13 x2 x3) (k0_pay14 x2 x3 (k0_pay8 (F := F))))
            ∗ owns (c : Thread nD τ) arg8 fullShare (k0_pay5 (k0_pay11 x2 x3) (k0_pay1 (k0_pay15 x2 x3 x4 x5 (k0_pay9 (F := F)))))
            ∗ owns (c : Thread nD τ) arg9 fullShare (k0_pay6 (k0_pay2 (k0_pay12 x4 x5) (k0_pay10 (F := F))))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

end Cert.KernelIdeal.Hand

end
-- ==== Proof.KIRun2.lean ====
import proofs.«116435_j54296976556236_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_FFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : ¬condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay2 (k0_pay12 x4 x5) xs9) (k0_pay1 (k0_pay15 x2 x3 x4 x5 xs8)) (k0_pay14 x2 x3 xs7))
            ∗ owns (c : Thread nD τ) arg7 fullShare (k0_pay14 x2 x3 xs7)
            ∗ owns (c : Thread nD τ) arg8 fullShare (k0_pay1 (k0_pay15 x2 x3 x4 x5 xs8))
            ∗ owns (c : Thread nD τ) arg9 fullShare (k0_pay2 (k0_pay12 x4 x5) xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

set_option maxHeartbeats 4000000 in
theorem run_FTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬condReset i) (hc2 : condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay6 (k0_pay2 (k0_pay12 x4 x5) xs9)) (k0_pay5 (k0_pay11 x2 x3) (k0_pay1 (k0_pay15 x2 x3 x4 x5 xs8))) (k0_pay4 (k0_pay13 x2 x3) (k0_pay14 x2 x3 xs7)))
            ∗ owns (c : Thread nD τ) arg7 fullShare (k0_pay4 (k0_pay13 x2 x3) (k0_pay14 x2 x3 xs7))
            ∗ owns (c : Thread nD τ) arg8 fullShare (k0_pay5 (k0_pay11 x2 x3) (k0_pay1 (k0_pay15 x2 x3 x4 x5 xs8)))
            ∗ owns (c : Thread nD τ) arg9 fullShare (k0_pay6 (k0_pay2 (k0_pay12 x4 x5) xs9))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

end Cert.KernelIdeal.Hand

end
-- ==== Proof.KIRun3.lean ====
import proofs.«116435_j54296976556236_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem run_TFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : ¬condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay2 (k0_pay12 x4 x5) (k0_pay10 (F := F))) (k0_pay1 (k0_pay15 x2 x3 x4 x5 (k0_pay9 (F := F)))) (k0_pay14 x2 x3 (k0_pay8 (F := F))))
            ∗ owns (c : Thread nD τ) arg7 fullShare (k0_pay14 x2 x3 (k0_pay8 (F := F)))
            ∗ owns (c : Thread nD τ) arg8 fullShare (k0_pay1 (k0_pay15 x2 x3 x4 x5 (k0_pay9 (F := F))))
            ∗ owns (c : Thread nD τ) arg9 fullShare (k0_pay2 (k0_pay12 x4 x5) (k0_pay10 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

set_option maxHeartbeats 4000000 in
theorem run_TTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : condReset i) (hc2 : condDiag i) (hc3 : condLast i)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay7 (k0_pay6 (k0_pay2 (k0_pay12 x4 x5) (k0_pay10 (F := F)))) (k0_pay5 (k0_pay11 x2 x3) (k0_pay1 (k0_pay15 x2 x3 x4 x5 (k0_pay9 (F := F))))) (k0_pay4 (k0_pay13 x2 x3) (k0_pay14 x2 x3 (k0_pay8 (F := F)))))
            ∗ owns (c : Thread nD τ) arg7 fullShare (k0_pay4 (k0_pay13 x2 x3) (k0_pay14 x2 x3 (k0_pay8 (F := F))))
            ∗ owns (c : Thread nD τ) arg8 fullShare (k0_pay5 (k0_pay11 x2 x3) (k0_pay1 (k0_pay15 x2 x3 x4 x5 (k0_pay9 (F := F)))))
            ∗ owns (c : Thread nD τ) arg9 fullShare (k0_pay6 (k0_pay2 (k0_pay12 x4 x5) (k0_pay10 (F := F))))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; (· iexact H6)
    ipureintro
    piece_read_KernelIdeal
  isplitl [H7]
  · iexists _; isplitr; swap; (· iexact H7)
    ipureintro
    piece_read_KernelIdeal
  isplitl [H8]
  · iexists _; isplitr; swap; (· iexact H8)
    ipureintro
    piece_read_KernelIdeal
  · iexists _; isplitr; swap; (· iexact H9)
    ipureintro
    piece_read_KernelIdeal

end Cert.KernelIdeal.Hand

end
-- ==== Proof.KIStep.lean ====
import proofs.«116435_j54296976556236_2_alg».proof.Proof.KIRun0
import proofs.«116435_j54296976556236_2_alg».proof.Proof.KIRun1
import proofs.«116435_j54296976556236_2_alg».proof.Proof.KIRun2
import proofs.«116435_j54296976556236_2_alg».proof.Proof.KIRun3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One grid point as a function of what it finds

At the point with coordinates `i = (qi, ki)` the body reads the query block `q`, the key block `k`, the query labels `a`
(a column) and the key labels `b` (a row), and three columns it carries from point to point: the row sums of
`exp s` (`r`), the row sums of `s` over equal labels (`p`) and the row counts of equal labels (`n`), where
`s = 2 · q kᵀ`. Each column is reset to zero where `ki = 0`, then gains this tile's row sum, then — on the tile that
holds the diagonal, `qi = ki` — loses the diagonal entry's share. Where `ki = 7` the output block is written from the
three columns; elsewhere it is left as found. -/

/-- The column of row sums of `exp s` after the point. -/
def nextR (i : grid0.Coords) (q k : Vec F S1024x256 .bf16) (r : Vec F S1024x1 .f32) : Vec F S1024x1 .f32 :=
  if condDiag i then k0_pay4 (k0_pay13 q k) (k0_pay14 q k (if condReset i then k0_pay8 else r))
  else k0_pay14 q k (if condReset i then k0_pay8 else r)

/-- The column of row sums of `s` over equal labels after the point. -/
def nextP (i : grid0.Coords) (q k : Vec F S1024x256 .bf16) (a : Vec F S1024x1 .i32) (b : Vec F S1x1024 .i32)
    (p : Vec F S1024x1 .f32) : Vec F S1024x1 .f32 :=
  if condDiag i then k0_pay5 (k0_pay11 q k) (k0_pay1 (k0_pay15 q k a b (if condReset i then k0_pay9 else p)))
  else k0_pay1 (k0_pay15 q k a b (if condReset i then k0_pay9 else p))

/-- The column of row counts of equal labels after the point. -/
def nextN (i : grid0.Coords) (a : Vec F S1024x1 .i32) (b : Vec F S1x1024 .i32) (n : Vec F S1024x1 .f32) : Vec F S1024x1 .f32 :=
  if condDiag i then k0_pay6 (k0_pay2 (k0_pay12 a b) (if condReset i then k0_pay10 else n))
  else k0_pay2 (k0_pay12 a b) (if condReset i then k0_pay10 else n)

/-- The output block after the point: written from the three columns on the last tile of a row of tiles, else kept. -/
def nextO (i : grid0.Coords) (q k : Vec F S1024x256 .bf16) (a : Vec F S1024x1 .i32) (b : Vec F S1x1024 .i32)
    (r p n o : Vec F S1024x1 .f32) : Vec F S1024x1 .f32 :=
  if condLast i then k0_pay7 (nextN i a b n) (nextP i q k a b p) (nextR i q k r) else o

/-- The body at any point, on whole memrefs at any contents: it returns with the inputs as they were, the three
    carried columns and the output block at `nextR`, `nextP`, `nextN`, `nextO` of what it found. By cases on the three
    conditions, each case one symbolic run of the body. -/
theorem bodyRun (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (x2 x3 : Vec F S1024x256 .bf16) (x4 : Vec F S1024x1 .i32) (x5 : Vec F S1x1024 .i32) (xs7 xs8 xs9 xi6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare xi6
        ∗ owns (c : Thread nD τ) arg7 fullShare xs7 ∗ owns (c : Thread nD τ) arg8 fullShare xs8 ∗ owns (c : Thread nD τ) arg9 fullShare xs9
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (nextO i x2 x3 x4 x5 xs7 xs8 xs9 xi6)
            ∗ owns (c : Thread nD τ) arg7 fullShare (nextR i x2 x3 xs7)
            ∗ owns (c : Thread nD τ) arg8 fullShare (nextP i x2 x3 x4 x5 xs8)
            ∗ owns (c : Thread nD τ) arg9 fullShare (nextN i x4 x5 xs9)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  by_cases hc1 : condReset i <;> by_cases hc2 : condDiag i <;> by_cases hc3 : condLast i
  · simp only [nextO, nextR, nextP, nextN, if_pos hc1, if_pos hc2, if_pos hc3]
    exact run_TTT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_pos hc2, if_neg hc3]
    exact run_TTF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_neg hc2, if_pos hc3]
    exact run_TFT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_pos hc1, if_neg hc2, if_neg hc3]
    exact run_TFF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_pos hc2, if_pos hc3]
    exact run_FTT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_pos hc2, if_neg hc3]
    exact run_FTF c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_neg hc2, if_pos hc3]
    exact run_FFT c i arg2 harg2 arg3 harg3 arg4 harg4 arg5 harg5 arg6 harg6 arg7 harg7 arg8 harg8 arg9 harg9 hc1 hc2 hc3 x2 x3 x4 x5 xs7 xs8 xs9 xi6 E K
  · simp only [nextO, nextR, nextP, nextN, if_neg hc1, if_neg hc2, if_neg hc3]
    exact run_FFF c i arg2 harg2 arg3 harg3 arg4 harg4 arg5 harg5 arg6 harg6 arg7 harg7 arg8 harg8 arg9 harg9 hc1 hc2 hc3 x2 x3 x4 x5 xs7 xs8 xs9 xi6 E K

end Cert.KernelIdeal.Hand

end
-- ==== Proof.KIData.lean ====
import proofs.«116435_j54296976556236_2_alg».proof.Proof.KIStep
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, -/
abbrev V₀ (c : Dev nD) : Valuation τ sig (Elt F) := fun b => m ((c : Dev nD), b)
/-- after the row norms (the five operations of the norm), -/
abbrev Vn (c : Dev nD) : Valuation τ sig (Elt F) := StableHlo.after hostOps0 (V₀ m c)
/-- and when the region is entered: the rows divided by their norms, the labels as a column and as a row. -/
abbrev V₁ (c : Dev nD) : Valuation τ sig (Elt F) := StableHlo.after hostOps0_1 (Vn m c)
/-- The same read at a TensorCore reference. -/
abbrev Vr (c : Dev nD) (b : Ref sig .tc) : Buf (Elt F) ((c : Thread nD τ).loc b) := V₁ m c b

/-- Window `w`'s block at point `t`: the rows `1024·qi …` of the normalized embedding (windows 0, 2, 4), the rows
    `1024·ki …` (windows 1, 3). -/
def iblk (c : Dev nD) (w : Fin cfg0.W) (t : Fin cfg0.N) : ((cfg0.win w).xblock (cfg0.grid.coords t)).Idx → Elt F (cfg0.win w).elt :=
  ((cfg0.win w).blk t).view.read (Elt F) (Vr m c (Pipeline.arrRef spec0 w))

/-! ## Where the three conditions hold, decided over the grid of 8 × 8 points (point `t` is `qi = t / 8`, `ki = t % 8`) -/

theorem hReset : ∀ t : Fin cfg0.N, condReset (grid0.coords t) ↔ t.val % 8 = 0 :=
  (by decide +kernel : ∀ t : Fin grid0.N, condReset (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)
/-- The output block is idle exactly where it is not written: off the last tile of a row of tiles; -/
theorem idleOut : ∀ t : Fin cfg0.N, ¬condLast (grid0.coords t) → cfg0.idle 4 (grid0.coords t) = true := by decide +kernel
theorem liveOut : ∀ t : Fin cfg0.N, condLast (grid0.coords t) → cfg0.idle 4 (grid0.coords t) = false := by decide +kernel
/-- and is written back exactly there. -/
theorem noFlushOut : ∀ t : Fin cfg0.N, ¬condLast (grid0.coords t) → (cfg0.win 4).flush t = false := by decide +kernel

/-! ## The carried columns after each point -/

/-- The three carried columns after the body at position `n`: one step from what position `n - 1` left (from zeros at
    the first position, where the step resets them anyway). -/
def scrAt (c : Dev nD) : (n : ℕ) → n < cfg0.N → Vec F S1024x1 .f32 × Vec F S1024x1 .f32 × Vec F S1024x1 .f32
  | 0, hn =>
    (nextR (grid0.coords ⟨0, hn⟩) (iblk m c 0 ⟨0, hn⟩) (iblk m c 1 ⟨0, hn⟩) k0_pay8,
     nextP (grid0.coords ⟨0, hn⟩) (iblk m c 0 ⟨0, hn⟩) (iblk m c 1 ⟨0, hn⟩) (iblk m c 2 ⟨0, hn⟩) (iblk m c 3 ⟨0, hn⟩) k0_pay9,
     nextN (grid0.coords ⟨0, hn⟩) (iblk m c 2 ⟨0, hn⟩) (iblk m c 3 ⟨0, hn⟩) k0_pay10)
  | n + 1, hn =>
    (nextR (grid0.coords ⟨n + 1, hn⟩) (iblk m c 0 ⟨n + 1, hn⟩) (iblk m c 1 ⟨n + 1, hn⟩) (scrAt c n (Nat.lt_of_succ_lt hn)).1,
     nextP (grid0.coords ⟨n + 1, hn⟩) (iblk m c 0 ⟨n + 1, hn⟩) (iblk m c 1 ⟨n + 1, hn⟩) (iblk m c 2 ⟨n + 1, hn⟩) (iblk m c 3 ⟨n + 1, hn⟩) (scrAt c n (Nat.lt_of_succ_lt hn)).2.1,
     nextN (grid0.coords ⟨n + 1, hn⟩) (iblk m c 2 ⟨n + 1, hn⟩) (iblk m c 3 ⟨n + 1, hn⟩) (scrAt c n (Nat.lt_of_succ_lt hn)).2.2)

/-- What the output block holds where it is written (the last tile of a row of tiles): the loss of each row from
    the three finished columns. -/
def outAt (c : Dev nD) (t : Fin cfg0.N) : Vec F S1024x1 .f32 :=
  k0_pay7 (scrAt m c t.val t.isLt).2.2 (scrAt m c t.val t.isLt).2.1 (scrAt m c t.val t.isLt).1

/-- Where the columns are reset the step does not read what it found. -/
theorem nextR_reset {i : grid0.Coords} (h : condReset i) (q k : Vec F S1024x256 .bf16) (r r' : Vec F S1024x1 .f32) :
    nextR i q k r = nextR i q k r' := by unfold nextR; simp only [if_pos h]
theorem nextP_reset {i : grid0.Coords} (h : condReset i) (q k : Vec F S1024x256 .bf16) (a : Vec F S1024x1 .i32) (b : Vec F S1x1024 .i32)
    (p p' : Vec F S1024x1 .f32) : nextP i q k a b p = nextP i q k a b p' := by unfold nextP; simp only [if_pos h]
theorem nextN_reset {i : grid0.Coords} (h : condReset i) (a : Vec F S1024x1 .i32) (b : Vec F S1x1024 .i32)
    (n n' : Vec F S1024x1 .f32) : nextN i a b n = nextN i a b n' := by unfold nextN; simp only [if_pos h]

/-! ## The invariant: the three scratch columns -/

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- Before the first point the scratch columns hold anything (the scoped buffers no window stages); before any later
    point what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (scrAt m c n hn).1
      ∗ owns (c : Thread nD τ) scM1 fullShare (scrAt m c n hn).2.1
      ∗ owns (c : Thread nD τ) scM2 fullShare (scrAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (scrAt m c n hn).1
      ∗ owns (c : Thread nD τ) scM1 fullShare (scrAt m c n hn).2.1
      ∗ owns (c : Thread nD τ) scM2 fullShare (scrAt m c n hn).2.2) := rfl

theorem PhiS_pos (c : Dev nD) (n : ℕ) (h : n ≤ cfg0.N) (hz : n ≠ 0) :
    PhiS m c n h = iprop(owns (c : Thread nD τ) scM0 fullShare (scrAt m c (n - 1) (by omega)).1
      ∗ owns (c : Thread nD τ) scM1 fullShare (scrAt m c (n - 1) (by omega)).2.1
      ∗ owns (c : Thread nD τ) scM2 fullShare (scrAt m c (n - 1) (by omega)).2.2) := by
  cases n with
  | zero => exact absurd rfl hz
  | succ n => rfl

/-- The scoped buffers no window stages, as the three scratch memrefs each at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-! ## The pipeline's proof data -/

/-- The shares of the windows' arrays: the normalized embedding is handed to the query window and to the key window,
    each at half; every other array whole. -/
def qOf : Fin cfg0.W → PosShare TreeShare := fun w =>
  match w with
  | ⟨0, _⟩ => fullShare.left
  | ⟨1, _⟩ => fullShare.right
  | ⟨2, _⟩ => fullShare
  | ⟨3, _⟩ => fullShare
  | ⟨4, _⟩ => fullShare

/-- The proof data on core `c`: the arrays as the region finds them; after the body at point `t` each input's buffer
    at its block, the output's at `outAt`; the invariant `PhiS`; nothing owed. -/
def dats (_ : Fin 1) (c : Dev nD) : Dat τ (Elt F) Unit ℕ (UR sig nD τ) ℕ cfg0 c where
  A w := Vr m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q := qOf
  owed _ := 0

theorem A_eq (c : Dev nD) (w : Fin cfg0.W) : (dats m 0 c).A w = Vr m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- An input's current staging buffer holds its block at every point, fetched there or not: unfetched, the block
    index has not moved (the windows are uncut and never idle). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Hand

end
-- ==== Proof.KIOblig.lean ====
import proofs.«116435_j54296976556236_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, each window's current buffer; -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl, after3]
theorem leaves4_last (c : Dev nD) (t : Fin cfg0.N) (h : condLast (grid0.coords t)) :
    (dats m 0 c).leavesExact 4 t = owns (c : Thread nD τ) (win0_4.stage (cfg0.slots t 4)) fullShare (outAt m c t) := by
  unfold Dat.leavesExact; rw [liveOut t h, after4]

set_option maxHeartbeats 4000000 in
/-- The body at any point. The inputs' buffers hold their blocks; the carried columns are what the point before left
    (anything at the first point, where they are reset); the step `bodyRun` applies; the output block is written on
    the last tile of a row of tiles and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases hz : t.val = 0
  · have hR : condReset (grid0.coords t) := (hReset t).mpr (by omega)
    have hL : ¬condLast (grid0.coords t) := fun h => by have := (hLast t).mp h; omega
    have hs : scrAt m c t.val t.isLt
        = (nextR (grid0.coords t) (iblk m c 0 t) (iblk m c 1 t) k0_pay8,
           nextP (grid0.coords t) (iblk m c 0 t) (iblk m c 1 t) (iblk m c 2 t) (iblk m c 3 t) k0_pay9,
           nextN (grid0.coords t) (iblk m c 2 t) (iblk m c 3 t) k0_pay10) := by
      obtain ⟨n, hn⟩ := t; cases n with
      | zero => rfl
      | succ n => exact absurd hz (Nat.succ_ne_zero n)
    rw [PhiS_castSucc m c t, PhiS_zero m c _ _ hz, scopedRest_scratch, hs]
    rw [Dat.leavesExact_idle (dats m 0 c) 4 t (idleOut t hL) (noFlushOut t hL)]
    iintro ⟨⟨⟨%d7, H7⟩, ⟨%d8, H8⟩, ⟨%d9, H9⟩⟩, Ho, ⟨%e0, H0⟩, ⟨%e1, H1⟩, ⟨%e2, H2⟩, ⟨%e3, H3⟩, ⟨%e4, H4⟩⟩
    iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
      (iblk m c 0 t) (iblk m c 1 t) (iblk m c 2 t) (iblk m c 3 t) d7 d8 d9 ((dats m 0 c).before 4 t e4) Set.univ _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    rw [nextR_reset hR _ _ d7 k0_pay8, nextP_reset hR _ _ _ _ d8 k0_pay9, nextN_reset hR _ _ d9 k0_pay10]
    unfold nextO; rw [if_neg hL]
    isplitl [H7 H8 H9]
    · isplitl [H7]; · iexact H7
      isplitl [H8]; · iexact H8
      iexact H9
    isplitl [Ho]; · iexact Ho
    isplitl [H0]; · iexact H0
    isplitl [H1]; · iexact H1
    isplitl [H2]; · iexact H2
    isplitl [H3]; · iexact H3
    iexists _; iexact H4
  · have hs : scrAt m c t.val t.isLt
        = (nextR (grid0.coords t) (iblk m c 0 t) (iblk m c 1 t) (scrAt m c (t.val - 1) (by omega)).1,
           nextP (grid0.coords t) (iblk m c 0 t) (iblk m c 1 t) (iblk m c 2 t) (iblk m c 3 t) (scrAt m c (t.val - 1) (by omega)).2.1,
           nextN (grid0.coords t) (iblk m c 2 t) (iblk m c 3 t) (scrAt m c (t.val - 1) (by omega)).2.2) := by
      obtain ⟨n, hn⟩ := t; cases n with
      | zero => exact absurd rfl hz
      | succ n => rfl
    rw [PhiS_castSucc m c t, PhiS_pos m c _ _ hz]
    by_cases hL : condLast (grid0.coords t)
    · rw [leaves4_last m c t hL]
      unfold outAt
      rw [hs]
      iintro ⟨⟨H7, H8, H9⟩, Ho, ⟨%e0, H0⟩, ⟨%e1, H1⟩, ⟨%e2, H2⟩, ⟨%e3, H3⟩, ⟨%e4, H4⟩⟩
      iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
        (iblk m c 0 t) (iblk m c 1 t) (iblk m c 2 t) (iblk m c 3 t) _ _ _ ((dats m 0 c).before 4 t e4) Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      unfold nextO; rw [if_pos hL]
      isplitl [H7 H8 H9]
      · isplitl [H7]; · iexact H7
        isplitl [H8]; · iexact H8
        iexact H9
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleOut t hL) (noFlushOut t hL)]
      rw [hs]
      iintro ⟨⟨H7, H8, H9⟩, Ho, ⟨%e0, H0⟩, ⟨%e1, H1⟩, ⟨%e2, H2⟩, ⟨%e3, H3⟩, ⟨%e4, H4⟩⟩
      iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) scM1 (Memref.isWhole_whole _) scM2 (Memref.isWhole_whole _)
        (iblk m c 0 t) (iblk m c 1 t) (iblk m c 2 t) (iblk m c 3 t) _ _ _ ((dats m 0 c).before 4 t e4) Set.univ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      unfold nextO; rw [if_neg hL]
      isplitl [H7 H8 H9]
      · isplitl [H7]; · iexact H7
        isplitl [H8]; · iexact H8
        iexact H9
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.lean ====
import proofs.«116435_j54296976556236_2_alg».proof.Proof.KIOblig

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev Lh : GSem nD τ sig → Finset Unit := fun _ => ∅
abbrev lvh : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev Rw (c : Dev nD) : sProp 𝕄 := iprop(∃ W, owes (c : Thread nD τ) (0 : CellTallies nD τ sig Unit) W)
/-- The launch element: the pipeline library's at the staging cells. -/
def u₀ : UR sig nD τ := initOf (Pipeline.cells cfgs cellOf_inj) (Pipeline.launchToks cfgs cellOf_inj)

/-! ## The host operations before the region -/

/-- The five operations of the row norm, over the unscoped buffers. -/
def seg0 : Pipeline.HostSeg (Name := ℕ) (U := UR sig nD τ) (pcfgs (F := F)) defs₀ 𝒱₀ Lh lvh :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) Rw

/-- The division by the norms, the change of format, the two reshapes of the labels. -/
def seg1 : Pipeline.HostSeg (Name := ℕ) (U := UR sig nD τ) (pcfgs (F := F)) defs₀ 𝒱₀ Lh lvh :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (Vn m) Rw

/-! ## The region -/

/-- The output array after the region, as the library computes it from the proof data. -/
def finalOut (c : Dev nD) : Buf (Elt F) ((c : Thread nD τ).loc main_v6) := (dats m 0 c).arrAt 4 cfg0.N

/-- The buffers the two operations after the region touch: the output array, the zero constant, the sum. -/
def tailRefs : Finset (DevRef τ sig) := [(main_v6 : DevRef τ sig), (main_cst : DevRef τ sig), (main_v7 : DevRef τ sig)].toFinset

/-- Their contents when the region is left: the output array at `finalOut`, the others as the region found them. -/
def V₃ (c : Dev nD) : Valuation τ sig (Elt F) := Function.update (V₁ m c) (main_v6 : DevRef τ sig) (finalOut m c)

/-- What bypasses the region: the two arguments, and the two buffers the later operations write. -/
abbrev Zb (c : Dev nD) : sProp 𝕄 :=
  iprop((((c : Thread nD τ).loc main_arg0) ↦{fullShare} Vr m c main_arg0) ∗ (((c : Thread nD τ).loc main_arg1) ↦{fullShare} Vr m c main_arg1)
    ∗ (((c : Thread nD τ).loc main_cst) ↦{fullShare} Vr m c main_cst) ∗ (((c : Thread nD τ).loc main_v7) ↦{fullShare} Vr m c main_v7))

/-- The arguments, as they ride from the region to the end. -/
abbrev Args (c : Dev nD) : sProp 𝕄 :=
  iprop((((c : Thread nD τ).loc main_arg0) ↦{fullShare} Vr m c main_arg0) ∗ (((c : Thread nD τ).loc main_arg1) ↦{fullShare} Vr m c main_arg1))

/-! ## What the host operations leave untouched -/

theorem nw0 (b : Ref sig .tc) (hb : b ≠ main_call0_v0 ∧ b ≠ main_call0_cst ∧ b ≠ main_call0_v1 ∧ b ≠ main_call0_v2 ∧ b ≠ main_v0) :
    ∀ op ∈ (hostOps0 (F := F)), (b : DevRef τ sig) ∉ op.writes := by
  obtain ⟨h0, h1, h2, h3, h4⟩ := hb
  intro op hop
  simp only [List.mem_cons, List.mem_nil_iff, or_false] at hop
  rcases hop with rfl | rfl | rfl | rfl | rfl <;>
    simp only [StableHlo.TRef.binary, StableHlo.TRef.unary, StableHlo.TRef.nullary, StableHlo.unary_writes, StableHlo.binary_writes, StableHlo.nullary_writes, Finset.mem_singleton] <;>
    exact StableHlo.devRef_ne_of_ne ‹_›

theorem nw1 (b : Ref sig .tc) (hb : b ≠ main_v1 ∧ b ≠ main_v2 ∧ b ≠ main_v3 ∧ b ≠ main_v4 ∧ b ≠ main_v5) :
    ∀ op ∈ (hostOps0_1 (F := F)), (b : DevRef τ sig) ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.reshape_writes, Finset.mem_singleton] <;>
    exact StableHlo.devRef_ne_of_ne ‹_›

/-- Neither argument is written before the region: each reaches it as launched. -/
theorem Vr_arg0 (c : Dev nD) : Vr m c main_arg0 = m ((c : Thread nD τ).loc main_arg0) :=
  (StableHlo.after_of_forall_not_mem (b := (main_arg0 : DevRef τ sig)) hostOps0_1 (Vn m c) (nw1 main_arg0 (by decide))).trans
    (StableHlo.after_of_forall_not_mem (b := (main_arg0 : DevRef τ sig)) hostOps0 (V₀ m c) (nw0 main_arg0 (by decide)))
theorem Vr_arg1 (c : Dev nD) : Vr m c main_arg1 = m ((c : Thread nD τ).loc main_arg1) :=
  (StableHlo.after_of_forall_not_mem (b := (main_arg1 : DevRef τ sig)) hostOps0_1 (Vn m c) (nw1 main_arg1 (by decide))).trans
    (StableHlo.after_of_forall_not_mem (b := (main_arg1 : DevRef τ sig)) hostOps0 (V₀ m c) (nw0 main_arg1 (by decide)))

/-! ## The region's four entailments -/

/-- The four buffers behind the five windows' arrays, listed. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v6) ↦{fullShare} V main_v6)) := by
  unfold Pipeline.arrBufs
  exact bigSep_eq_bigSepL_of_eq [main_v3, main_v4, main_v5, main_v6] (by decide) (by decide) _

/-- The windows' arrays, each a whole buffer, at the proof data's shares. -/
theorem arrays_eq' (c : Dev nD) (Fm : (w : Fin cfg0.W) → Buf (Elt F) ((cfg0.win w).arr.view.loc (c : Thread nD τ))) :
    (dats m 0 c).arrays Fm
      = bigSep Finset.univ fun w : Fin cfg0.W => ((((c : Thread nD τ).loc (Pipeline.arrRef spec0 w)) ↦{(dats m 0 c).share w} Fm w : sProp 𝕄)) := by
  unfold Dat.arrays
  exact bigSep_congr fun w _ => by rw [(arr_whole0 w).set_eq_univ]

/-- ENTRY, the arrays: the normalized embedding split in halves between the query window and the key window, the
    two label arrays and the output array whole. -/
theorem entry_arrays (c : Dev nD) :
    (Pipeline.arrBufs (Ix := Unit) (Name := ℕ) (U := UR sig nD τ) (Lvl := ℕ) spec0 c (Vr m c) : sProp 𝕄)
      ⊢ (dats m 0 c).arrays ((dats m 0 c).arrAt · 0) := by
  rw [arrBufs_list, arrays_eq', bigSep_W0]
  refine (sep_mono (pointsTo_share (PosShare.mem_left_op_right fullShare)).1 .rfl).trans ?_
  iintro ⟨⟨H3l, H3r⟩, H4, H5, H6⟩
  isplitl [H3l]; · iexact H3l
  isplitl [H3r]; · iexact H3r
  isplitl [H4]; · iexact H4
  isplitl [H5]; · iexact H5
  iexact H6

theorem hentry0 (c : Dev nD) :
    iprop(iprop(StableHlo.held (c : Thread nD τ) (Pipeline.ucRefs τ sig) (V₁ m c) ∗ Rw c) ∗ Pipeline.ownSems0 (fun k : PEmpty => k.elim) c ∗ levAts Lh lvh)
      ⊢ (|={Set.univ}=> iprop((dats m 0 c).arrays ((dats m 0 c).arrAt · 0) ∗ Pipeline.prefHeld (pcfgs (F := F) 0).pre c (fun _ => fullShare) (adm (F := F) 0).1
          ∗ (dats m 0 c).owesAt () 0 ∗ (BI.emp : sProp 𝕄) ∗ Zb m c) : sProp 𝕄) := by
  rw [show StableHlo.held (c : Thread nD τ) (Pipeline.ucRefs τ sig) (V₁ m c) = unscopedBufs c (Vr m c) from (Pipeline.unscopedBufs_held c _).symm]
  rw [Pipeline.unscopedBufs_split₀ cfgs 0 (fun w => by fin_cases w <;> rfl) c (Vr m c), unscopedRest0_eq]
  iintro ⟨⟨⟨Ha, Ha0, Ha1, -, -, -, -, -, -, -, Hcst, H7⟩, HO⟩, -, -⟩
  have hsplit := entry_arrays m c
  ihave Harr := hsplit $$ Ha
  imodintro
  isplitl [Harr]; · iexact Harr
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Ha0]; · iexact Ha0
  isplitl [Ha1]; · iexact Ha1
  isplitl [Hcst]; · iexact Hcst
  iexact H7

theorem hin0 (c : Dev nD) :
    iprop((BI.emp : sProp 𝕄) ∗ Pipeline.prefHeld (pcfgs (F := F) 0).pre c (fun _ => fullShare) (adm (F := F) 0).1 ∗ Pipeline.scopedRest spec0 c)
      ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, -, Hr⟩; iexact Hr

theorem hout0 (c : Dev nD) :
    (dats m 0 c).Φ (Fin.last cfg0.N)
      ⊢ iprop((BI.emp : sProp 𝕄) ∗ Pipeline.ownSems0 (fun k : PEmpty => k.elim) c ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), Pipeline.ownSems0_none, scopedRest_scratch]
  iintro ⟨H0, H1, H2⟩
  isplitr; · iempintro
  isplitr; · iempintro
  isplitl [H0]; · iexists _; iexact H0
  isplitl [H1]; · iexists _; iexact H1
  iexists _; iexact H2

theorem V₃_v6 (c : Dev nD) : V₃ m c (main_v6 : DevRef τ sig) = finalOut m c := Function.update_self _ _ _
theorem V₃_cst (c : Dev nD) : V₃ m c (main_cst : DevRef τ sig) = V₁ m c main_cst :=
  Function.update_of_ne (StableHlo.devRef_ne_of_ne (by decide)) _ _
theorem V₃_v7 (c : Dev nD) : V₃ m c (main_v7 : DevRef τ sig) = V₁ m c main_v7 :=
  Function.update_of_ne (StableHlo.devRef_ne_of_ne (by decide)) _ _

/-- The three buffers of the operations after the region, listed at their contents when the region is left. -/
theorem held_tail (c : Dev nD) :
    (StableHlo.held (c : Thread nD τ) tailRefs (V₃ m c) : sProp 𝕄)
      = iprop(((((c : Thread nD τ).1, (main_v6 : DevRef τ sig)) ↦{fullShare} finalOut m c)) ∗ ((((c : Thread nD τ).1, (main_cst : DevRef τ sig)) ↦{fullShare} V₁ m c main_cst))
          ∗ ((((c : Thread nD τ).1, (main_v7 : DevRef τ sig)) ↦{fullShare} V₁ m c main_v7))) := by
  have h1 : (main_v6 : DevRef τ sig) ≠ main_cst := StableHlo.devRef_ne_of_ne (by decide)
  have h2 : (main_v6 : DevRef τ sig) ≠ main_v7 := StableHlo.devRef_ne_of_ne (by decide)
  have h3 : (main_cst : DevRef τ sig) ≠ main_v7 := StableHlo.devRef_ne_of_ne (by decide)
  have hnd : [(main_v6 : DevRef τ sig), (main_cst : DevRef τ sig), (main_v7 : DevRef τ sig)].Nodup := by
    simp only [List.nodup_cons, List.mem_cons, List.mem_nil_iff, or_false, not_or, List.nodup_nil, List.not_mem_nil, not_false_eq_true, and_true]
    exact ⟨⟨h1, h2⟩, h3⟩
  unfold StableHlo.held tailRefs
  rw [bigSep_eq_bigSepL_of_eq [(main_v6 : DevRef τ sig), (main_cst : DevRef τ sig), (main_v7 : DevRef τ sig)] rfl hnd]
  show (iprop(((((c : Thread nD τ).1, (main_v6 : DevRef τ sig)) ↦{fullShare} V₃ m c main_v6)) ∗ ((((c : Thread nD τ).1, (main_cst : DevRef τ sig)) ↦{fullShare} V₃ m c main_cst))
      ∗ ((((c : Thread nD τ).1, (main_v7 : DevRef τ sig)) ↦{fullShare} V₃ m c main_v7))) : sProp 𝕄) = _
  rw [V₃_v6, V₃_cst, V₃_v7]

theorem hexit0 (c : Dev nD) :
    iprop((dats m 0 c).arrays ((dats m 0 c).arrAt · cfg0.N) ∗ (dats m 0 c).owesAt () (Fin.last cfg0.N) ∗ (BI.emp : sProp 𝕄) ∗ Zb m c)
      ⊢ (|={Set.univ}=> iprop(StableHlo.held (c : Thread nD τ) tailRefs (V₃ m c) ∗ (Args m c ∗ Rw c)) : sProp 𝕄) := by
  rw [arrays_eq', bigSep_W0, held_tail]
  iintro ⟨⟨-, -, -, -, H6⟩, HO, -, ⟨Ha0, Ha1, Hcst, H7⟩⟩
  imodintro
  isplitl [H6 Hcst H7]
  · isplitl [H6]; · iexact H6
    isplitl [Hcst]; · iexact Hcst
    iexact H7
  isplitl [Ha0 Ha1]
  · isplitl [Ha0]; · iexact Ha0
    iexact Ha1
  unfold Pipeline.Dat.owesAt Pipeline.owesWithin
  icases HO with ⟨%W, -, HO⟩; iexists W; iexact HO

/-- The two operations after the region touch the output array, the zero constant and the sum only. -/
theorem tail_sub : ∀ op ∈ (hostOps1 (F := F)), op.bufs ⊆ tailRefs := by
  intro op hop
  simp only [List.mem_cons, List.mem_nil_iff, or_false] at hop
  rcases hop with rfl | rfl
  · rw [StableHlo.nullary_bufs]; decide
  · rw [StableHlo.binary_bufs]; decide

/-! ## The launch's ends -/

theorem hu₀0 : (ownU (u₀ : UR sig nD τ) : sProp 𝕄)
    ⊢ (|={Set.univ}=> iprop(BI.own (EP (F := F) (initOf (Pipeline.cells cfgs cellOf_inj) (Pipeline.launchToks cfgs cellOf_inj)))
        ∗ bigSep Finset.univ (fun _ : Dev nD => (iprop(emp) : sProp 𝕄))) : sProp 𝕄) := by
  unfold u₀
  rw [ownU_emb₁]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

theorem hinit0 :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lh lvh)
      ⊢ (|={Set.univ}=> bigSep Finset.univ fun c : Dev nD => iprop(StableHlo.held (c : Thread nD τ) (Pipeline.ucRefs τ sig) (V₀ m c) ∗ Rw c) : sProp 𝕄) := by
  refine Pipeline.initEach Lh lvh fun c => ?_
  rw [show unscopedBufs c (fun b => m ((c : Thread nD τ).loc b)) = StableHlo.held (c : Thread nD τ) (Pipeline.ucRefs τ sig) (V₀ m c) from Pipeline.unscopedBufs_held c (V₀ m c)]
  iintro ⟨⟨Hh, -, HO, -, -, -⟩, -⟩
  imodintro
  isplitl [Hh]; · iexact Hh
  iexists ∅; iexact HO

theorem hfin0 (c : Dev nD) (s' : Phys nD τ sig (Elt F)) :
    iprop(Args m c ∗ SI s') ⊢ (|={Set.univ}=> iprop(⌜s'.mem.mem ((c : Thread nD τ).loc main_arg0) = Vr m c main_arg0 ∧ s'.mem.mem ((c : Thread nD τ).loc main_arg1) = Vr m c main_arg1⌝ ∗ SI s') : sProp 𝕄) := by
  iintro ⟨⟨H0, H1⟩, HSI⟩
  icombine HSI H0 gives %h0
  icombine HSI H1 gives %h1
  imodintro
  isplitr; · ipureintro; exact ⟨Buf.eq_of_forall_mem_univ h0, Buf.eq_of_forall_mem_univ h1⟩
  iexact HSI

set_option backward.isDefEq.respectTransparency.types false in
/-- THE REGION: the decided layout (two windows on one array), no semaphore of the kernel's own, the body obligation;
    entered from what the host operations left — the four arrays into the pipeline, the normalized embedding split in
    halves between the query and the key window —, left with the output array at its final contents. -/
def reg0 : Pipeline.RegionSeg (pcfgs (F := F)) adm (dats m) () defs₀ 𝒱₀ Lh lvh 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lh lvh 0 fun _ _ => rfl
  pre c := iprop(StableHlo.held (c : Thread nD τ) (Pipeline.ucRefs τ sig) (V₁ m c) ∗ Rw c)
  post c := iprop(StableHlo.held (c : Thread nD τ) tailRefs (V₃ m c) ∗ (Args m c ∗ Rw c))
  X c := BI.emp
  Y c := BI.emp
  Z c := Zb m c
  hentry c := by exact hentry0 m c
  hin c := by exact hin0 m c
  hout c := by exact hout0 m c
  hexit c := by exact hexit0 m c

/-! ## The two operations after the region: the zero constant, the sum of the output array -/

def seg3 : Pipeline.HostSeg (Name := ℕ) (U := UR sig nD τ) (pcfgs (F := F)) defs₀ 𝒱₀ Lh lvh :=
  Pipeline.HostSeg.ofOps _ _ _ _ _ tailRefs hostOps1 (by exact tail_sub)
    (by intro _ h; (repeat (cases h with | head => rfl | tail _ h => ?_)); exact nomatch h) (V₃ m) (fun c => iprop(Args m c ∗ Rw c))

/-- @main as the list of the four. -/
abbrev segs : List (Pipeline.Seg (pcfgs (F := F)) adm (dats m) () defs₀ 𝒱₀ Lh lvh) :=
  [.host (seg0 m), .host (seg1 m), .region (reg0 m), .host (seg3 m)]

/-- The last thread state: the two arguments as the host operations left them. -/
abbrev Tₙ (c : Dev nD) : sProp 𝕄 := Args m c

set_option backward.isDefEq.respectTransparency.types false in
/-- At the compiled mesh, for any float values, from any memory with zero counters: every weakly fair execution of
    @main on the TensorCores terminates, nothing faulting, and every final state has both arguments as the host
    operations left them. -/
theorem run_main : θ_run defs (onTc (τ := τ) (main (F := F))) (s₀ m ρ) (fun r => ∀ c : Dev nD,
      r.2.mem ((c : Thread nD τ).loc main_arg0) = Vr m c main_arg0 ∧ r.2.mem ((c : Thread nD τ).loc main_arg1) = Vr m c main_arg1) :=
  Pipeline.θ_run_regions_kit (pcfgs (F := F)) adm (dats m) () cellOf_inj EP defs₀ 𝒱₀ Lh lvh m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by exact hu₀0)
    (T₀ := fun c => iprop(StableHlo.held (c : Thread nD τ) (Pipeline.ucRefs τ sig) (V₀ m c) ∗ Rw c)) (Tₙ := Tₙ m)
    (hch := ⟨fun _ => .rfl, fun _ => .rfl, fun _ => .rfl, fun _ => .rfl, fun c => by
      show iprop(StableHlo.held _ _ _ ∗ (Args m c ∗ Rw c)) ⊢ _
      iintro ⟨-, Ha, HR⟩
      isplitl [Ha]; · iexact Ha
      iexact HR⟩)
    (hinit := by exact hinit0 m ρ)
    (QY := fun c s => s.mem ((c : Thread nD τ).loc main_arg0) = Vr m c main_arg0 ∧ s.mem ((c : Thread nD τ).loc main_arg1) = Vr m c main_arg1)
    (hfin := fun c s' => by exact hfin0 m c s')
    (hQ := fun _ h => h)

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Vr_arg0 m c), (h c).2.trans (Vr_arg1 m c)⟩) (run_main m ρ)

end Cert.KernelIdeal.Hand

end
-- ==== Proof.KIValue.lean ====
import proofs.«116435_j54296976556236_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers of the operations after the region, listed, at any contents. -/
theorem held_tail_any (c : Dev nD) (W : Valuation τ sig (Elt F)) :
    (StableHlo.held (c : Thread nD τ) tailRefs W : sProp 𝕄)
      = iprop(((((c : Thread nD τ).1, (main_v6 : DevRef τ sig)) ↦{fullShare} W main_v6)) ∗ ((((c : Thread nD τ).1, (main_cst : DevRef τ sig)) ↦{fullShare} W main_cst))
          ∗ ((((c : Thread nD τ).1, (main_v7 : DevRef τ sig)) ↦{fullShare} W main_v7))) := by
  have h1 : (main_v6 : DevRef τ sig) ≠ main_cst := StableHlo.devRef_ne_of_ne (by decide)
  have h2 : (main_v6 : DevRef τ sig) ≠ main_v7 := StableHlo.devRef_ne_of_ne (by decide)
  have h3 : (main_cst : DevRef τ sig) ≠ main_v7 := StableHlo.devRef_ne_of_ne (by decide)
  have hnd : [(main_v6 : DevRef τ sig), (main_cst : DevRef τ sig), (main_v7 : DevRef τ sig)].Nodup := by
    simp only [List.nodup_cons, List.mem_cons, List.mem_nil_iff, or_false, not_or, List.nodup_nil, List.not_mem_nil, not_false_eq_true, and_true]
    exact ⟨⟨h1, h2⟩, h3⟩
  unfold StableHlo.held tailRefs
  exact bigSep_eq_bigSepL_of_eq [(main_v6 : DevRef τ sig), (main_cst : DevRef τ sig), (main_v7 : DevRef τ sig)] rfl hnd _

/-- The sum the program returns, as the operations after the region compute it from the region's output array. -/
def tailSum (c : Dev nD) : Buf (Elt F) ((c : Thread nD τ).loc main_v7) :=
  StableHlo.after hostOps1 (V₃ m c) (main_v7 : DevRef τ sig)

/-- It is the host's sum of the output array onto zero. -/
theorem tailSum_eq (c : Dev nD) :
    tailSum m c = Host.reduceAdd (finalOut m c) (constant (F := F) S_ .f32 0x00000000#32) reducesTo_S8192x1_S_d0_1 h_S_ := by
  unfold tailSum
  show StableHlo.after hostOps1 (V₃ m c) (Proc.devRef .tc main_v7) = _
  after_results
  rw [V₃_v6]

/-- The last thread state: the buffers of the operations after the region as they leave them, and the two arguments. -/
abbrev TₙV (c : Dev nD) : sProp 𝕄 :=
  iprop(StableHlo.held (c : Thread nD τ) tailRefs (StableHlo.after hostOps1 (V₃ m c)) ∗ Args m c)

theorem hfinV (c : Dev nD) (s' : Phys nD τ sig (Elt F)) :
    iprop(TₙV m c ∗ SI s') ⊢ (|={Set.univ}=> iprop(⌜s'.mem.mem ((c : Thread nD τ).loc main_v7) = tailSum m c
        ∧ s'.mem.mem ((c : Thread nD τ).loc main_arg0) = Vr m c main_arg0 ∧ s'.mem.mem ((c : Thread nD τ).loc main_arg1) = Vr m c main_arg1⌝ ∗ SI s') : sProp 𝕄) := by
  dsimp only [TₙV]
  rw [held_tail_any]
  iintro ⟨⟨⟨-, -, H7⟩, H0, H1⟩, HSI⟩
  icombine HSI H7 gives %h7
  icombine HSI H0 gives %h0
  icombine HSI H1 gives %h1
  imodintro
  isplitr; · ipureintro; exact ⟨Buf.eq_of_forall_mem_univ h7, Buf.eq_of_forall_mem_univ h0, Buf.eq_of_forall_mem_univ h1⟩
  iexact HSI

set_option backward.isDefEq.respectTransparency.types false in
/-- The run with its result: every weakly fair execution terminates, nothing faulting, the result buffer at the host's
    sum of the region's final output array and both arguments as the host operations left them. -/
theorem run_value : θ_run defs (onTc (τ := τ) (main (F := F))) (s₀ m ρ) (fun r => ∀ c : Dev nD,
      r.2.mem ((c : Thread nD τ).loc main_v7) = tailSum m c
      ∧ r.2.mem ((c : Thread nD τ).loc main_arg0) = Vr m c main_arg0 ∧ r.2.mem ((c : Thread nD τ).loc main_arg1) = Vr m c main_arg1) :=
  Pipeline.θ_run_regions_kit (pcfgs (F := F)) adm (dats m) () cellOf_inj EP defs₀ 𝒱₀ Lh lvh m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by exact hu₀0)
    (T₀ := fun c => iprop(StableHlo.held (c : Thread nD τ) (Pipeline.ucRefs τ sig) (V₀ m c) ∗ Rw c)) (Tₙ := TₙV m)
    (hch := ⟨fun _ => .rfl, fun _ => .rfl, fun _ => .rfl, fun _ => .rfl, fun c => by
      show iprop(StableHlo.held _ _ _ ∗ (Args m c ∗ Rw c)) ⊢ _
      iintro ⟨Hh, Ha, HR⟩
      isplitl [Hh Ha]
      · isplitl [Hh]; · iexact Hh
        iexact Ha
      iexact HR⟩)
    (hinit := by exact hinit0 m ρ)
    (QY := fun c s => s.mem ((c : Thread nD τ).loc main_v7) = tailSum m c
      ∧ s.mem ((c : Thread nD τ).loc main_arg0) = Vr m c main_arg0 ∧ s.mem ((c : Thread nD τ).loc main_arg1) = Vr m c main_arg1)
    (hfin := fun c s' => by exact hfinV m c s')
    (hQ := fun _ h => h)

end Cert.KernelIdeal.Hand

end
-- ==== Proof.KIFinal.lean ====
import proofs.«116435_j54296976556236_2_alg».proof.Proof.KIValue
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## From the written-back blocks to the output array

The output array has 8192 rows in one column. Row `i` lies in the block of rows `1024 · (i / 1024) …`, which the point
`8 · (i / 1024) + 7` — the last tile of that row of tiles — writes back. -/

/-- The last point of the row of tiles `q`. -/
def lastPt (q : ℕ) (hq : q < 8) : Fin cfg0.N := ⟨8 * q + 7, by have : cfg0.N = 64 := N_0; omega⟩

/-- What the output array ends holding: row `i` is entry `i % 1024` of what the last point of its row of tiles wrote. -/
def Gout (c : Dev nD) : S8192x1.Idx → Elt F .f32 := fun i =>
  outAt m c (lastPt ((i 0).val / 1024) (by have h : (i 0).val < 8192 := (i 0).isLt; omega)) (ix2 ⟨(i 0).val % 1024, Nat.mod_lt _ (by norm_num)⟩ 0)

/-- The output window's block index at a point: the row of tiles, and the one column. -/
theorem idx_out : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- WHAT A WRITING POINT WRITES BACK is its block of `Gout`. -/
theorem flushed_out (c : Dev nD) (t : Fin cfg0.N) (hf : (cfg0.win 4).flush t = true) :
    (dats m 0 c).flushed 4 t = ((cfg0.win 4).blk t).view.read (Elt F) (Gout m c) := by
  have h7 : t.val % 8 = 7 := (flush0_4 t).mp hf
  have hN : t.val < 64 := lt_of_lt_of_eq t.isLt (show cfg0.N = 64 from N_0)
  obtain ⟨e0, e1⟩ := idx_out t
  show (cfg0.win 4).cut (grid0.coords t) ((dats m 0 c).after 4 t) = _
  rw [after4]
  funext j
  show outAt m c t j = Gout m c (((cfg0.win 4).blk t).view.emb j)
  have hj0 : (j 0).val < 1024 := (j 0).isLt
  have hj1 : (j 1).val < 1 := (j 1).isLt
  have hemb0 : ((((cfg0.win 4).blk t).view.emb j) 0).val = t.val / 8 * 1024 + (j 0).val := by
    show win0_4.index t (0 : Fin 2) * 1024 + 1 * (j 0).val = _
    rw [e0]; omega
  unfold Gout
  have hq : ((((cfg0.win 4).blk t).view.emb j) 0).val / 1024 = t.val / 8 := by rw [hemb0]; omega
  have hr : ((((cfg0.win 4).blk t).view.emb j) 0).val % 1024 = (j 0).val := by rw [hemb0]; omega
  have hpt : lastPt (((((cfg0.win 4).blk t).view.emb j) 0).val / 1024) (by rw [hq]; omega) = t := by
    apply Fin.ext; show 8 * (((((cfg0.win 4).blk t).view.emb j) 0).val / 1024) + 7 = t.val; rw [hq]; omega
  have hj : j = ix2 ⟨((((cfg0.win 4).blk t).view.emb j) 0).val % 1024, Nat.mod_lt _ (by norm_num)⟩ 0 := by
    funext a
    match a with
    | ⟨0, _⟩ => apply Fin.ext; show (j 0).val = ((((cfg0.win 4).blk t).view.emb j) 0).val % 1024; exact hr.symm
    | ⟨1, _⟩ => apply Fin.ext; show (j 1).val = 0; omega
  rw [hpt]
  exact congrArg (outAt m c t) hj

/-- An index of the array is in point `t`'s block iff its row is in the block's range. -/
theorem mem_blk_out (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v6).slice (win0_4.rect t)).set ↔ _
  rw [View.set_slice_whole, Rect.mem_set_unit]
  exact Iff.rfl

/-- Every row is in the block some writing point writes back. -/
theorem cover_out (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨lastPt ((i 0).val / 1024) (by omega), (flush0_4 _).mpr (by show (8 * ((i 0).val / 1024) + 7) % 8 = 7; omega), ?_⟩
  rw [mem_blk_out]
  obtain ⟨e0, e1⟩ := idx_out (lastPt ((i 0).val / 1024) (by omega))
  have ev : (lastPt ((i 0).val / 1024) (by omega) : Fin cfg0.N).val = 8 * ((i 0).val / 1024) + 7 := rfl
  intro a
  match a with
  | ⟨0, _⟩ =>
    show win0_4.index _ (0 : Fin 2) * 1024 ≤ (i 0).val ∧ (i 0).val < win0_4.index _ (0 : Fin 2) * 1024 + 1024
    rw [e0, ev]; omega
  | ⟨1, _⟩ =>
    show win0_4.index _ (1 : Fin 2) * 1 ≤ (i 1).val ∧ (i 1).val < win0_4.index _ (1 : Fin 2) * 1 + 1
    rw [e1]; omega

/-- THE OUTPUT ARRAY after the region. -/
theorem finalOut_eq (c : Dev nD) : finalOut m c = Gout m c :=
  (dats m 0 c).arrAt_eq_of_cover 4 (Gout m c) (fun t hf => flushed_out m c t hf) (cover_out)

end Cert.KernelIdeal.Hand

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KIPay.lean ====
import proofs.«116435_j54296976556236_2_alg».proof.Proof.KIStep
import proofs.«116435_j54296976556236_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The body's values at an index, on the extended reals

`q` and `k` are the query and key blocks (1024 rows of 256), `la` the query labels (a column), `lb` the key labels (a
row). `s (a, b) = 2 · Σ_d q (a, d) · k (b, d)`. -/

/-- Two, as the body's literal. -/
abbrev two : EReal := Ideal.ofBits .f32 0x40000000#32

/-- The similarity tile. -/
def sTile (q k : Vec Ideal S1024x256 .bf16) (a b : Fin 1024) : EReal := (∑ d : Fin 256, q (ix2 a d) * k (ix2 b d)) * two

/-- Where the contraction of a tile's matrix product reads its operands: the left one at (row, `k`), the right one at
    (`k`, column). -/
theorem lhs_tile_0 (i : S1024x1024.Idx) (c : dot_S1024x256_S256x1024_S1024x1024_1_0_0_1_n_n.contr.Idx) : (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_tile_1 (i : S1024x1024.Idx) (c : dot_S1024x256_S256x1024_S1024x1024_1_0_0_1_n_n.contr.Idx) : (dot_S1024x256_S256x1024_S1024x1024_1_0_0_1_n_n.lhsIdx i c 1).val = (c ⟨0, by decide⟩).val :=
  dot_S1024x256_S256x1024_S1024x1024_1_0_0_1_n_n.lhsIdx_val_of_single rfl i c
theorem rhs_tile_0 (i : S1024x1024.Idx) (c : dot_S1024x256_S256x1024_S1024x1024_1_0_0_1_n_n.contr.Idx) : (dot_S1024x256_S256x1024_S1024x1024_1_0_0_1_n_n.rhsIdx i c 0).val = (c ⟨0, by decide⟩).val :=
  dot_S1024x256_S256x1024_S1024x1024_1_0_0_1_n_n.rhsIdx_val_of_single rfl i c
theorem rhs_tile_1 (i : S1024x1024.Idx) (c : dot_S1024x256_S256x1024_S1024x1024_1_0_0_1_n_n.contr.Idx) : (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

theorem pay11_apply (q k : Vec Ideal S1024x256 .bf16) (a b : Fin 1024) :
    k0_pay11 (F := Ideal) q k (ix2 a b) = sTile q k a b := by
  unfold k0_pay11 sTile
  simp only [shapeCast_self]
  rw [mulf_apply, broadcast_apply]
  refine congrArg (· * _) ?_
  refine (Ideal.matmul_constant_zero_apply dot_S1024x256_S256x1024_S1024x1024_1_0_0_1_n_n none q _ (ix2 a b)).trans ?_
  rw [← Equiv.sum_comp (contrEquiv1 dot_S1024x256_S256x1024_S1024x1024_1_0_0_1_n_n 256 rfl rfl).symm]
  refine Finset.sum_congr rfl fun d _ => ?_
  have hk := contrEquiv1_symm_val dot_S1024x256_S256x1024_S1024x1024_1_0_0_1_n_n 256 rfl rfl d
  have el : dot_S1024x256_S256x1024_S1024x1024_1_0_0_1_n_n.lhsIdx (ix2 a b) ((contrEquiv1 dot_S1024x256_S256x1024_S1024x1024_1_0_0_1_n_n 256 rfl rfl).symm d) = ix2 a d := funext fun ax => Fin.ext (by
    match ax with
    | ⟨0, _⟩ => exact lhs_tile_0 _ _
    | ⟨1, _⟩ => exact (lhs_tile_1 _ _).trans hk)
  rw [el]
  refine congrArg (q (ix2 a d) * ·) ?_
  refine (transpose_apply [1, 0] k transposes_S1024x256_p1_0_S256x1024 _ (ix2 b d) (fun ax => ?_))
  match ax with
  | ⟨0, _⟩ => show d.val = _; exact ((rhs_tile_0 (ix2 a b) _).trans hk).symm
  | ⟨1, _⟩ => show b.val = _; exact (rhs_tile_1 (ix2 a b) _).symm

theorem pay13_apply (q k : Vec Ideal S1024x256 .bf16) (a b : Fin 1024) :
    k0_pay13 (F := Ideal) q k (ix2 a b) = Ideal.exp (sTile q k a b) := by
  unfold k0_pay13
  show FloatOps.exp (k0_pay11 (F := Ideal) q k (ix2 a b)) = _
  rw [pay11_apply]; rfl

/-- The equal-label mask: the query row's label against the key row's. -/
theorem pay12_apply (la : Vec Ideal S1024x1 .i32) (lb : Vec Ideal S1x1024 .i32) (a b : Fin 1024) :
    k0_pay12 (F := Ideal) la lb (ix2 a b) = IntOp.cmpi .eq (la (ix2 a (0 : Fin 1))) (lb (ix2 (0 : Fin 1) b)) := by
  unfold k0_pay12
  simp only [shapeCast_self]
  show IntOp.cmpi .eq (broadcastTo S1024x1024 la broadcasts_S1024x1_S1024x1024 (ix2 a b)) (broadcastTo S1024x1024 lb broadcasts_S1x1024_S1024x1024 (ix2 a b)) = _
  rw [broadcastTo_a1_ab_apply la broadcasts_S1024x1_S1024x1024 a b, broadcastTo_1b_ab_apply lb broadcasts_S1x1024_S1024x1024 a b]

/-- The diagonal mask of a tile: row against column. -/
theorem pay3_apply (a b : Fin 1024) :
    k0_pay3 (ix2 a b) = IntOp.cmpi .eq (BitVec.ofNat 32 a.val) (BitVec.ofNat 32 b.val) := by
  unfold k0_pay3
  show IntOp.cmpi .eq (iota .tc S1024x1024 32 [0] iota_S1024x1024_d0_w32 (ix2 a b)) (iota .tc S1024x1024 32 [1] iota_S1024x1024_d1_w32 (ix2 a b)) = _
  rw [iota_single_apply, iota_single_apply]

end Cert.KernelIdeal.Hand

end
-- ==== Proof.KIPay2.lean ====
import proofs.«116435_j54296976556236_2_alg».proof.Proof.KIPay

set_option maxRecDepth 16384

noncomputable section

namespace Cert.KernelIdeal.Hand

open Cert.KernelIdeal Cert.KernelIdeal.Gen
open Idealize.ShloMosaic Idealize.ShloMosaic.ValueIdx

/-- Zero and one, as the body's literals. -/
abbrev zeroW : EReal := Ideal.ofBits .f32 0x00000000#32
abbrev oneW : EReal := Ideal.ofBits .f32 0x3F800000#32

/-- A sum along the lanes of a 1024 × 1024 tile, kept as a column: entry `a` is the sum of row `a`. -/
theorem laneSum_apply (src : FVec Ideal S1024x1024 .f32) (a : Fin 1024) (u : Fin 1) :
    shapeCast S1024x1 (multiReduction .add [1] S1024 src 0x00000000#32 reduces_S1024x1024_S1024 (.inl rfl) rfl) shapeCasts_S1024_S1024x1 (ix2 a u)
      = ∑ b : Fin 1024, src (ix2 a b) := by
  rw [shapeCast_a_a1_apply]
  refine (Ideal.multiReduction_add_single src 0x00000000#32 reduces_S1024x1024_S1024 (.inl rfl) rfl (ix1 a)).trans ?_
  exact Finset.sum_congr rfl fun b _ => congrArg src (funext fun ax => Fin.ext (by match ax with | ⟨0, _⟩ => rfl | ⟨1, _⟩ => rfl))

/-- The row sums of `exp s` gain this tile's. -/
theorem pay14_apply (q k : Vec Ideal S1024x256 .bf16) (r : Vec Ideal S1024x1 .f32) (a : Fin 1024) (u : Fin 1) :
    k0_pay14 (F := Ideal) q k r (ix2 a u) = r (ix2 a u) + ∑ b : Fin 1024, Ideal.exp (sTile q k a b) := by
  unfold k0_pay14
  simp only [shapeCast_self]
  rw [addf_apply, laneSum_apply]
  exact congrArg (r (ix2 a u) + ·) (Finset.sum_congr rfl fun b _ => pay13_apply q k a b)

/-- The row sums of `s` over equal labels gain this tile's. -/
theorem pay15_apply (q k : Vec Ideal S1024x256 .bf16) (la : Vec Ideal S1024x1 .i32) (lb : Vec Ideal S1x1024 .i32)
    (p : Vec Ideal S1024x1 .f32) (a : Fin 1024) (u : Fin 1) :
    k0_pay1 (F := Ideal) (k0_pay15 (F := Ideal) q k la lb p) (ix2 a u)
      = p (ix2 a u) + ∑ b : Fin 1024, Scalar.select (IntOp.cmpi .eq (la (ix2 a (0 : Fin 1))) (lb (ix2 (0 : Fin 1) b))) (sTile q k a b) zeroW := by
  unfold k0_pay1 k0_pay15
  simp only [shapeCast_self]
  rw [addf_apply, laneSum_apply]
  refine congrArg (p (ix2 a u) + ·) (Finset.sum_congr rfl fun b _ => ?_)
  rw [select_apply, pay12_apply, pay11_apply, broadcast_apply]
  rfl

/-- The row counts of equal labels gain this tile's. -/
theorem pay2_apply (la : Vec Ideal S1024x1 .i32) (lb : Vec Ideal S1x1024 .i32) (n : Vec Ideal S1024x1 .f32) (a : Fin 1024) (u : Fin 1) :
    k0_pay2 (F := Ideal) (k0_pay12 (F := Ideal) la lb) n (ix2 a u)
      = n (ix2 a u) + ∑ b : Fin 1024, (FloatOps.sitofp (F := Ideal) .f32 ((IntOp.cmpi .eq (la (ix2 a (0 : Fin 1))) (lb (ix2 (0 : Fin 1) b))).setWidth 32) : EReal) := by
  unfold k0_pay2
  simp only [shapeCast_self]
  rw [addf_apply, laneSum_apply]
  refine congrArg (n (ix2 a u) + ·) (Finset.sum_congr rfl fun b _ => ?_)
  rw [sitofp_apply, extui_apply, pay12_apply]

/-- On the diagonal tile the row sums of `exp s` lose the diagonal entry's share. -/
theorem pay4_apply (q k : Vec Ideal S1024x256 .bf16) (r : Vec Ideal S1024x1 .f32) (a : Fin 1024) (u : Fin 1) :
    k0_pay4 (F := Ideal) (k0_pay13 (F := Ideal) q k) r (ix2 a u)
      = r (ix2 a u) - ∑ b : Fin 1024, Scalar.select (IntOp.cmpi .eq (BitVec.ofNat 32 a.val) (BitVec.ofNat 32 b.val)) (Ideal.exp (sTile q k a b)) zeroW := by
  unfold k0_pay4
  simp only [shapeCast_self]
  rw [subf_apply, laneSum_apply]
  refine congrArg (r (ix2 a u) - ·) (Finset.sum_congr rfl fun b _ => ?_)
  rw [select_apply, pay3_apply, pay13_apply, broadcast_apply]
  rfl

/-- … the row sums of `s` over equal labels lose the diagonal entry, … -/
theorem pay5_apply (q k : Vec Ideal S1024x256 .bf16) (p : Vec Ideal S1024x1 .f32) (a : Fin 1024) (u : Fin 1) :
    k0_pay5 (F := Ideal) (k0_pay11 (F := Ideal) q k) p (ix2 a u)
      = p (ix2 a u) - ∑ b : Fin 1024, Scalar.select (IntOp.cmpi .eq (BitVec.ofNat 32 a.val) (BitVec.ofNat 32 b.val)) (sTile q k a b) zeroW := by
  unfold k0_pay5
  simp only [shapeCast_self]
  rw [subf_apply, laneSum_apply]
  refine congrArg (p (ix2 a u) - ·) (Finset.sum_congr rfl fun b _ => ?_)
  rw [select_apply, pay3_apply, pay11_apply, broadcast_apply]
  rfl

/-- … and the row counts lose one. -/
theorem pay6_apply (n : Vec Ideal S1024x1 .f32) (a : Fin 1024) (u : Fin 1) :
    k0_pay6 (F := Ideal) n (ix2 a u) = n (ix2 a u) - oneW := by
  unfold k0_pay6
  simp only [shapeCast_self]
  rw [subf_apply, broadcast_apply]
  rfl

/-- The columns start a row of tiles at zero. -/
theorem pay8_apply (a : Fin 1024) (u : Fin 1) : k0_pay8 (F := Ideal) (ix2 a u) = zeroW := by
  unfold k0_pay8; simp only [shapeCast_self]; rfl
theorem pay9_apply (a : Fin 1024) (u : Fin 1) : k0_pay9 (F := Ideal) (ix2 a u) = zeroW := by
  unfold k0_pay9; simp only [shapeCast_self]; rfl
theorem pay10_apply (a : Fin 1024) (u : Fin 1) : k0_pay10 (F := Ideal) (ix2 a u) = zeroW := by
  unfold k0_pay10; simp only [shapeCast_self]; rfl

/-- The loss of a row from its three finished columns. -/
def rowLoss (n p r : EReal) : EReal :=
  Scalar.select (FloatOps.cmpf (F := Ideal) (φ := .f32) .ogt n zeroW) (Ideal.div (zeroW - (p - n * Ideal.log r)) (max n oneW)) zeroW

theorem pay7_apply (n p r : Vec Ideal S1024x1 .f32) (i : S1024x1.Idx) :
    k0_pay7 (F := Ideal) n p r i = rowLoss (n i) (p i) (r i) := by
  unfold k0_pay7 rowLoss
  rfl

end Cert.KernelIdeal.Hand

end
-- ==== Proof.KIBlocks.lean ====
import proofs.«116435_j54296976556236_2_alg».proof.Proof.KIFinal
import proofs.«116435_j54296976556236_2_alg».proof.Proof.KIPay2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## Which rows a point sees

Point `t` is tile `t % 8` of the row of tiles `t / 8`: its query block is rows `1024 · (t / 8) …` of the normalized
embedding, its key block rows `1024 · (t % 8) …`; likewise the labels. -/

theorem idx_in : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8)

theorem tN (t : Fin cfg0.N) : t.val < 64 := lt_of_lt_of_eq t.isLt (show cfg0.N = 64 from N_0)

/-- The query block: row `a` is row `1024 · (t / 8) + a` of the normalized embedding. -/
theorem iblk0_apply (c : Dev nD) (t : Fin cfg0.N) (a : Fin 1024) (d : Fin 256) :
    iblk m c 0 t (ix2 a d) = Vr m c main_v3 (ix2 (⟨1024 * (t.val / 8) + a.val, by have := tN t; have := a.isLt; omega⟩ : Fin 8192) d) := by
  obtain ⟨e0, e1, -⟩ := idx_in t
  show Vr m c main_v3 (((cfg0.win 0).blk t).view.emb (ix2 a d)) = _
  refine congrArg _ (funext fun ax => Fin.ext ?_)
  match ax with
  | ⟨0, _⟩ => show win0_0.index t (0 : Fin 2) * 1024 + 1 * a.val = 1024 * (t.val / 8) + a.val; rw [e0]; omega
  | ⟨1, _⟩ => show win0_0.index t (1 : Fin 2) * 256 + 1 * d.val = d.val; rw [e1]; omega

/-- The key block: row `b` is row `1024 · (t % 8) + b`. -/
theorem iblk1_apply (c : Dev nD) (t : Fin cfg0.N) (b : Fin 1024) (d : Fin 256) :
    iblk m c 1 t (ix2 b d) = Vr m c main_v3 (ix2 (⟨1024 * (t.val % 8) + b.val, by have := b.isLt; omega⟩ : Fin 8192) d) := by
  obtain ⟨-, -, e0, e1, -⟩ := idx_in t
  show Vr m c main_v3 (((cfg0.win 1).blk t).view.emb (ix2 b d)) = _
  refine congrArg _ (funext fun ax => Fin.ext ?_)
  match ax with
  | ⟨0, _⟩ => show win0_1.index t (0 : Fin 2) * 1024 + 1 * b.val = 1024 * (t.val % 8) + b.val; rw [e0]; omega
  | ⟨1, _⟩ => show win0_1.index t (1 : Fin 2) * 256 + 1 * d.val = d.val; rw [e1]; omega

/-- The query labels: entry `a` of the column is the label of row `1024 · (t / 8) + a`. -/
theorem iblk2_apply (c : Dev nD) (t : Fin cfg0.N) (a : Fin 1024) (u : Fin 1) :
    iblk m c 2 t (ix2 a u) = Vr m c main_v4 (ix2 (⟨1024 * (t.val / 8) + a.val, by have := tN t; have := a.isLt; omega⟩ : Fin 8192) u) := by
  obtain ⟨-, -, -, -, e0, e1, -⟩ := idx_in t
  show Vr m c main_v4 (((cfg0.win 2).blk t).view.emb (ix2 a u)) = _
  refine congrArg _ (funext fun ax => Fin.ext ?_)
  match ax with
  | ⟨0, _⟩ => show win0_2.index t (0 : Fin 2) * 1024 + 1 * a.val = 1024 * (t.val / 8) + a.val; rw [e0]; omega
  | ⟨1, _⟩ => show win0_2.index t (1 : Fin 2) * 1 + 1 * u.val = u.val; rw [e1]; omega

/-- The key labels: entry `b` of the row is the label of row `1024 · (t % 8) + b`. -/
theorem iblk3_apply (c : Dev nD) (t : Fin cfg0.N) (u : Fin 1) (b : Fin 1024) :
    iblk m c 3 t (ix2 u b) = Vr m c main_v5 (ix2 u (⟨1024 * (t.val % 8) + b.val, by have := b.isLt; omega⟩ : Fin 8192)) := by
  obtain ⟨-, -, -, -, -, -, e0, e1⟩ := idx_in t
  show Vr m c main_v5 (((cfg0.win 3).blk t).view.emb (ix2 u b)) = _
  refine congrArg _ (funext fun ax => Fin.ext ?_)
  match ax with
  | ⟨0, _⟩ => show win0_3.index t (0 : Fin 2) * 1 + 1 * u.val = u.val; rw [e0]; omega
  | ⟨1, _⟩ => show win0_3.index t (1 : Fin 2) * 1024 + 1 * b.val = 1024 * (t.val % 8) + b.val; rw [e1]; omega

/-- The two label arrays the region reads are the label argument, as a column and as a row. -/
theorem Vr_v4_apply (c : Dev nD) (i : Fin 8192) (u : Fin 1) :
    Vr m c main_v4 (ix2 i u) = m ((c : Thread nD τ).loc main_arg1) (ix1 i) := by
  show StableHlo.after hostOps0_1 (Vn m c) (Proc.devRef .tc main_v4) (ix2 i u) = _
  after_results
  show shapeCast S8192x1 (m ((c : Thread nD τ).loc main_arg1)) shapeCasts_S8192_S8192x1 (ix2 i u) = _
  exact shapeCast_a_a1_apply _ _ i u

theorem Vr_v5_apply (c : Dev nD) (u : Fin 1) (i : Fin 8192) :
    Vr m c main_v5 (ix2 u i) = m ((c : Thread nD τ).loc main_arg1) (ix1 i) := by
  show StableHlo.after hostOps0_1 (Vn m c) (Proc.devRef .tc main_v5) (ix2 u i) = _
  after_results
  show shapeCast S1x8192 (m ((c : Thread nD τ).loc main_arg1)) shapeCasts_S8192_S1x8192 (ix2 u i) = _
  exact shapeCast_a_1a_apply _ _ u i

end Cert.KernelIdeal.Hand

end
-- ==== Proof.LibTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.KIColR.lean ====
import proofs.«116435_j54296976556236_2_alg».proof.Proof.KIBlocks
import proofs.«116435_j54296976556236_2_alg».proof.Proof.LibTileFold

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The arrays by global row number -/

/-- The normalized embedding, row `i` (zero past the 8192 rows). -/
def uN (c : Dev nD) (i : ℕ) (d : Fin 256) : EReal := if h : i < 8192 then Vr m c main_v3 (ix2 (⟨i, h⟩ : Fin 8192) d) else 0
/-- The label of row `i`. -/
def lN (c : Dev nD) (i : ℕ) : BitVec 32 := if h : i < 8192 then m ((c : Thread nD τ).loc main_arg1) (ix1 (⟨i, h⟩ : Fin 8192)) else 0
/-- The similarity of rows `i` and `j`: twice their inner product. -/
def sN (c : Dev nD) (i j : ℕ) : EReal := (∑ d : Fin 256, uN m c i d * uN m c j d) * two

/-- A tile's similarity entry is the similarity of the two global rows. -/
theorem sTile_blocks (c : Dev nD) (t : Fin cfg0.N) (a b : Fin 1024) :
    sTile (iblk m c 0 t) (iblk m c 1 t) a b = sN m c (1024 * (t.val / 8) + a.val) (1024 * (t.val % 8) + b.val) := by
  unfold sTile sN
  refine congrArg (· * two) (Finset.sum_congr rfl fun d _ => ?_)
  rw [iblk0_apply, iblk1_apply]
  unfold uN
  rw [dif_pos (by have := tN t; have := a.isLt; omega), dif_pos (by have := b.isLt; omega)]

theorem hDiag : ∀ t : Fin cfg0.N, condDiag (grid0.coords t) ↔ t.val / 8 = t.val % 8 :=
  (by decide +kernel : ∀ t : Fin grid0.N, condDiag (grid0.coords t) ↔ t.val / 8 = t.val % 8)

/-! ## The row sums of `exp s` -/

/-- The step at an index: restart or keep, gain the tile's row sum, lose the diagonal entry's share on the diagonal tile. -/
theorem nextR_apply (i : grid0.Coords) (q k : Vec Ideal S1024x256 .bf16) (r : Vec Ideal S1024x1 .f32) (a : Fin 1024) (u : Fin 1) :
    nextR i q k r (ix2 a u) = ((if condReset i then zeroW else r (ix2 a u)) + ∑ b : Fin 1024, Ideal.exp (sTile q k a b))
      + (if condDiag i then -(∑ b : Fin 1024, Scalar.select (IntOp.cmpi .eq (BitVec.ofNat 32 a.val) (BitVec.ofNat 32 b.val)) (Ideal.exp (sTile q k a b)) zeroW) else 0) := by
  unfold nextR
  by_cases hD : condDiag i <;> by_cases hR : condReset i
  · rw [if_pos hD, if_pos hR, if_pos hR, if_pos hD, pay4_apply, pay14_apply, pay8_apply, sub_eq_add_neg]
  · rw [if_pos hD, if_neg hR, if_neg hR, if_pos hD, pay4_apply, pay14_apply, sub_eq_add_neg]
  · rw [if_neg hD, if_pos hR, if_pos hR, if_neg hD, pay14_apply, pay8_apply, add_zero]
  · rw [if_neg hD, if_neg hR, if_neg hR, if_neg hD, pay14_apply, add_zero]

/-- A tile's contribution to row `1024 q + a`: the sum of `exp s` over the tile's 1024 columns; and the diagonal entry's share. -/
def TR (c : Dev nD) (a : Fin 1024) (q k : ℕ) : EReal := ∑ b : Fin 1024, Ideal.exp (sN m c (1024 * q + a.val) (1024 * k + b.val))
def DR (c : Dev nD) (a : Fin 1024) (q : ℕ) : EReal :=
  ∑ b : Fin 1024, Scalar.select (IntOp.cmpi .eq (BitVec.ofNat 32 a.val) (BitVec.ofNat 32 b.val)) (Ideal.exp (sN m c (1024 * q + a.val) (1024 * q + b.val))) zeroW

/-- The column entry `a` after position `t`. -/
def accR (c : Dev nD) (a : Fin 1024) (t : ℕ) : EReal := if h : t < cfg0.N then (scrAt m c t h).1 (ix2 a (0 : Fin 1)) else 0

theorem accR_step (c : Dev nD) (a : Fin 1024) (t : ℕ) (ht : t < 64) :
    accR m c a t = ((if t % 8 = 0 then zeroW else accR m c a (t - 1)) + TR m c a (t / 8) (t % 8))
      + (if t / 8 = t % 8 then -(DR m c a (t / 8)) else 0) := by
  have hN : t < cfg0.N := lt_of_lt_of_eq ht (show 64 = cfg0.N from N_0.symm)
  have hT : ∀ tf : Fin cfg0.N, tf.val = t → (∑ b : Fin 1024, Ideal.exp (sTile (iblk m c 0 tf) (iblk m c 1 tf) a b)) = TR m c a (t / 8) (t % 8) := by
    intro tf htf; unfold TR
    exact Finset.sum_congr rfl fun b _ => by rw [sTile_blocks, htf]
  have hDg : ∀ tf : Fin cfg0.N, tf.val = t → t / 8 = t % 8 →
      (∑ b : Fin 1024, Scalar.select (IntOp.cmpi .eq (BitVec.ofNat 32 a.val) (BitVec.ofNat 32 b.val)) (Ideal.exp (sTile (iblk m c 0 tf) (iblk m c 1 tf) a b)) zeroW) = DR m c a (t / 8) := by
    intro tf htf hd; unfold DR
    exact Finset.sum_congr rfl fun b _ => by rw [sTile_blocks, htf, ← hd]
  unfold accR
  rw [dif_pos hN]
  cases t with
  | zero =>
    show nextR (grid0.coords ⟨0, hN⟩) (iblk m c 0 ⟨0, hN⟩) (iblk m c 1 ⟨0, hN⟩) (k0_pay8 (F := Ideal)) (ix2 a (0 : Fin 1)) = _
    rw [nextR_apply, if_pos ((hReset ⟨0, hN⟩).mpr (show (0 : ℕ) % 8 = 0 from rfl)), hT ⟨0, hN⟩ rfl]
    have hd : condDiag (grid0.coords ⟨0, hN⟩) := (hDiag ⟨0, hN⟩).mpr (show (0 : ℕ) / 8 = 0 % 8 from rfl)
    rw [if_pos hd, hDg ⟨0, hN⟩ rfl rfl]
    simp only [Nat.zero_mod, Nat.zero_div, if_true]
  | succ n =>
    show nextR (grid0.coords ⟨n + 1, hN⟩) (iblk m c 0 ⟨n + 1, hN⟩) (iblk m c 1 ⟨n + 1, hN⟩) (scrAt m c n (Nat.lt_of_succ_lt hN)).1 (ix2 a (0 : Fin 1)) = _
    rw [nextR_apply, hT ⟨n + 1, hN⟩ rfl]
    have hprev : (n + 1 - 1) = n := rfl
    rw [hprev, dif_pos (Nat.lt_of_succ_lt hN)]
    congr 1
    · congr 1
      exact if_congr (hReset ⟨n + 1, hN⟩) rfl rfl
    · by_cases hd : (n + 1) / 8 = (n + 1) % 8
      · rw [if_pos ((hDiag ⟨n + 1, hN⟩).mpr hd), if_pos hd, hDg ⟨n + 1, hN⟩ rfl hd]
      · rw [if_neg (fun h => hd ((hDiag ⟨n + 1, hN⟩).mp h)), if_neg hd]

/-- The column at every position: the tiles' sums so far, less the diagonal entry's share once its tile is passed. -/
theorem accR_closed (c : Dev nD) (a : Fin 1024) (t : ℕ) (ht : t < 64) :
    accR m c a t = (zeroW + ∑ k ∈ Finset.range (t % 8 + 1), TR m c a (t / 8) k) + (if t / 8 ≤ t % 8 then -(DR m c a (t / 8)) else 0) :=
  Cert.LibTileFold.fold_tiles (n := 8) (by norm_num) 64 zeroW (TR m c a) (fun q => -(DR m c a q)) (accR m c a)
    (fun t ht hz => by rw [accR_step m c a t ht, if_pos hz, hz])
    (fun t ht hz => by rw [accR_step m c a t ht, if_neg hz]) t ht

end Cert.KernelIdeal.Hand

end
-- ==== Proof.KIColPN.lean ====
import proofs.«116435_j54296976556236_2_alg».proof.Proof.KIColR

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- A point's label blocks hold the labels of its global rows. -/
theorem lab2_blocks (c : Dev nD) (t : Fin cfg0.N) (a : Fin 1024) :
    iblk m c 2 t (ix2 a (0 : Fin 1)) = lN m c (1024 * (t.val / 8) + a.val) := by
  rw [iblk2_apply, Vr_v4_apply]; unfold lN
  rw [dif_pos (by have := tN t; have := a.isLt; omega)]
theorem lab3_blocks (c : Dev nD) (t : Fin cfg0.N) (b : Fin 1024) :
    iblk m c 3 t (ix2 (0 : Fin 1) b) = lN m c (1024 * (t.val % 8) + b.val) := by
  rw [iblk3_apply, Vr_v5_apply]; unfold lN
  rw [dif_pos (by have := b.isLt; omega)]

/-! ## The row sums of `s` over equal labels -/

theorem nextP_apply (i : grid0.Coords) (q k : Vec Ideal S1024x256 .bf16) (la : Vec Ideal S1024x1 .i32) (lb : Vec Ideal S1x1024 .i32)
    (p : Vec Ideal S1024x1 .f32) (a : Fin 1024) (u : Fin 1) :
    nextP i q k la lb p (ix2 a u) = ((if condReset i then zeroW else p (ix2 a u))
        + ∑ b : Fin 1024, Scalar.select (IntOp.cmpi .eq (la (ix2 a (0 : Fin 1))) (lb (ix2 (0 : Fin 1) b))) (sTile q k a b) zeroW)
      + (if condDiag i then -(∑ b : Fin 1024, Scalar.select (IntOp.cmpi .eq (BitVec.ofNat 32 a.val) (BitVec.ofNat 32 b.val)) (sTile q k a b) zeroW) else 0) := by
  unfold nextP
  by_cases hD : condDiag i <;> by_cases hR : condReset i
  · rw [if_pos hD, if_pos hR, if_pos hR, if_pos hD, pay5_apply, pay15_apply, pay9_apply, sub_eq_add_neg]
  · rw [if_pos hD, if_neg hR, if_neg hR, if_pos hD, pay5_apply, pay15_apply, sub_eq_add_neg]
  · rw [if_neg hD, if_pos hR, if_pos hR, if_neg hD, pay15_apply, pay9_apply, add_zero]
  · rw [if_neg hD, if_neg hR, if_neg hR, if_neg hD, pay15_apply, add_zero]

def TP (c : Dev nD) (a : Fin 1024) (q k : ℕ) : EReal :=
  ∑ b : Fin 1024, Scalar.select (IntOp.cmpi .eq (lN m c (1024 * q + a.val)) (lN m c (1024 * k + b.val))) (sN m c (1024 * q + a.val) (1024 * k + b.val)) zeroW
def DP (c : Dev nD) (a : Fin 1024) (q : ℕ) : EReal := ∑ b : Fin 1024, Scalar.select (IntOp.cmpi .eq (BitVec.ofNat 32 a.val) (BitVec.ofNat 32 b.val)) (sN m c (1024 * q + a.val) (1024 * q + b.val)) zeroW

/-- The column entry `a` after position `t`. -/
def accP (c : Dev nD) (a : Fin 1024) (t : ℕ) : EReal := if h : t < cfg0.N then (scrAt m c t h).2.1 (ix2 a (0 : Fin 1)) else 0

theorem accP_step (c : Dev nD) (a : Fin 1024) (t : ℕ) (ht : t < 64) :
    accP m c a t = ((if t % 8 = 0 then zeroW else accP m c a (t - 1)) + TP m c a (t / 8) (t % 8))
      + (if t / 8 = t % 8 then -(DP m c a (t / 8)) else 0) := by
  have hN : t < cfg0.N := lt_of_lt_of_eq ht (show 64 = cfg0.N from N_0.symm)
  have hT : ∀ tf : Fin cfg0.N, tf.val = t → (∑ b : Fin 1024, Scalar.select (IntOp.cmpi .eq (iblk m c 2 tf (ix2 a (0 : Fin 1))) (iblk m c 3 tf (ix2 (0 : Fin 1) b))) (sTile (iblk m c 0 tf) (iblk m c 1 tf) a b) zeroW) = TP m c a (t / 8) (t % 8) := by
    intro tf htf; unfold TP
    exact Finset.sum_congr rfl fun b _ => by rw [sTile_blocks, lab2_blocks, lab3_blocks, htf]
  have hDg : ∀ tf : Fin cfg0.N, tf.val = t → t / 8 = t % 8 → (∑ b : Fin 1024, Scalar.select (IntOp.cmpi .eq (BitVec.ofNat 32 a.val) (BitVec.ofNat 32 b.val)) (sTile (iblk m c 0 tf) (iblk m c 1 tf) a b) zeroW) = DP m c a (t / 8) := by
    intro tf htf hd; unfold DP
    exact Finset.sum_congr rfl fun b _ => by rw [sTile_blocks, htf, ← hd]
  unfold accP
  rw [dif_pos hN]
  cases t with
  | zero =>
    show nextP (grid0.coords ⟨0, hN⟩) (iblk m c 0 ⟨0, hN⟩) (iblk m c 1 ⟨0, hN⟩) (iblk m c 2 ⟨0, hN⟩) (iblk m c 3 ⟨0, hN⟩) (k0_pay9 (F := Ideal)) (ix2 a (0 : Fin 1)) = _
    rw [nextP_apply, if_pos ((hReset ⟨0, hN⟩).mpr (show (0 : ℕ) % 8 = 0 from rfl)), hT ⟨0, hN⟩ rfl]
    have hd : condDiag (grid0.coords ⟨0, hN⟩) := (hDiag ⟨0, hN⟩).mpr (show (0 : ℕ) / 8 = 0 % 8 from rfl)
    rw [if_pos hd, hDg ⟨0, hN⟩ rfl rfl]
    simp only [Nat.zero_mod, Nat.zero_div, if_true]
  | succ n =>
    show nextP (grid0.coords ⟨n + 1, hN⟩) (iblk m c 0 ⟨n + 1, hN⟩) (iblk m c 1 ⟨n + 1, hN⟩) (iblk m c 2 ⟨n + 1, hN⟩) (iblk m c 3 ⟨n + 1, hN⟩) (scrAt m c n (Nat.lt_of_succ_lt hN)).2.1 (ix2 a (0 : Fin 1)) = _
    rw [nextP_apply, hT ⟨n + 1, hN⟩ rfl]
    have hprev : (n + 1 - 1) = n := rfl
    rw [hprev, dif_pos (Nat.lt_of_succ_lt hN)]
    congr 1
    · congr 1
      exact if_congr (hReset ⟨n + 1, hN⟩) rfl rfl
    · by_cases hd : (n + 1) / 8 = (n + 1) % 8
      · rw [if_pos ((hDiag ⟨n + 1, hN⟩).mpr hd), if_pos hd, hDg ⟨n + 1, hN⟩ rfl hd]
      · rw [if_neg (fun h => hd ((hDiag ⟨n + 1, hN⟩).mp h)), if_neg hd]

theorem accP_closed (c : Dev nD) (a : Fin 1024) (t : ℕ) (ht : t < 64) :
    accP m c a t = (zeroW + ∑ k ∈ Finset.range (t % 8 + 1), TP m c a (t / 8) k) + (if t / 8 ≤ t % 8 then -(DP m c a (t / 8)) else 0) :=
  Cert.LibTileFold.fold_tiles (n := 8) (by norm_num) 64 zeroW (TP m c a) (fun q => -(DP m c a q)) (accP m c a)
    (fun t ht hz => by rw [accP_step m c a t ht, if_pos hz, hz])
    (fun t ht hz => by rw [accP_step m c a t ht, if_neg hz]) t ht

/-! ## The row counts of equal labels -/

theorem nextN_apply (i : grid0.Coords) (la : Vec Ideal S1024x1 .i32) (lb : Vec Ideal S1x1024 .i32)
    (n : Vec Ideal S1024x1 .f32) (a : Fin 1024) (u : Fin 1) :
    nextN i la lb n (ix2 a u) = ((if condReset i then zeroW else n (ix2 a u))
        + ∑ b : Fin 1024, (FloatOps.sitofp (F := Ideal) .f32 ((IntOp.cmpi .eq (la (ix2 a (0 : Fin 1))) (lb (ix2 (0 : Fin 1) b))).setWidth 32) : EReal))
      + (if condDiag i then -oneW else 0) := by
  unfold nextN
  by_cases hD : condDiag i <;> by_cases hR : condReset i
  · rw [if_pos hD, if_pos hR, if_pos hR, if_pos hD, pay6_apply, pay2_apply, pay10_apply, sub_eq_add_neg]
  · rw [if_pos hD, if_neg hR, if_neg hR, if_pos hD, pay6_apply, pay2_apply, sub_eq_add_neg]
  · rw [if_neg hD, if_pos hR, if_pos hR, if_neg hD, pay2_apply, pay10_apply, add_zero]
  · rw [if_neg hD, if_neg hR, if_neg hR, if_neg hD, pay2_apply, add_zero]

def TN (c : Dev nD) (a : Fin 1024) (q k : ℕ) : EReal :=
  ∑ b : Fin 1024, (FloatOps.sitofp (F := Ideal) .f32 ((IntOp.cmpi .eq (lN m c (1024 * q + a.val)) (lN m c (1024 * k + b.val))).setWidth 32) : EReal)
def DN (_m : (ℓ : Loc nD τ sig) → Buf (Elt Ideal) ℓ) (c : Dev nD) (a : Fin 1024) (q : ℕ) : EReal := oneW

/-- The column entry `a` after position `t`. -/
def accN (c : Dev nD) (a : Fin 1024) (t : ℕ) : EReal := if h : t < cfg0.N then (scrAt m c t h).2.2 (ix2 a (0 : Fin 1)) else 0

theorem accN_step (c : Dev nD) (a : Fin 1024) (t : ℕ) (ht : t < 64) :
    accN m c a t = ((if t % 8 = 0 then zeroW else accN m c a (t - 1)) + TN m c a (t / 8) (t % 8))
      + (if t / 8 = t % 8 then -(DN m c a (t / 8)) else 0) := by
  have hN : t < cfg0.N := lt_of_lt_of_eq ht (show 64 = cfg0.N from N_0.symm)
  have hT : ∀ tf : Fin cfg0.N, tf.val = t → (∑ b : Fin 1024, (FloatOps.sitofp (F := Ideal) .f32 ((IntOp.cmpi .eq (iblk m c 2 tf (ix2 a (0 : Fin 1))) (iblk m c 3 tf (ix2 (0 : Fin 1) b))).setWidth 32) : EReal)) = TN m c a (t / 8) (t % 8) := by
    intro tf htf; unfold TN
    exact Finset.sum_congr rfl fun b _ => by rw [lab2_blocks, lab3_blocks, htf]
  have hDg : ∀ tf : Fin cfg0.N, tf.val = t → t / 8 = t % 8 → (oneW) = DN m c a (t / 8) := by
    intro tf htf hd; unfold DN
    rfl
  unfold accN
  rw [dif_pos hN]
  cases t with
  | zero =>
    show nextN (grid0.coords ⟨0, hN⟩) (iblk m c 2 ⟨0, hN⟩) (iblk m c 3 ⟨0, hN⟩) (k0_pay10 (F := Ideal)) (ix2 a (0 : Fin 1)) = _
    rw [nextN_apply, if_pos ((hReset ⟨0, hN⟩).mpr (show (0 : ℕ) % 8 = 0 from rfl)), hT ⟨0, hN⟩ rfl]
    have hd : condDiag (grid0.coords ⟨0, hN⟩) := (hDiag ⟨0, hN⟩).mpr (show (0 : ℕ) / 8 = 0 % 8 from rfl)
    rw [if_pos hd, hDg ⟨0, hN⟩ rfl rfl]
    simp only [Nat.zero_mod, Nat.zero_div, if_true]
  | succ n =>
    show nextN (grid0.coords ⟨n + 1, hN⟩) (iblk m c 2 ⟨n + 1, hN⟩) (iblk m c 3 ⟨n + 1, hN⟩) (scrAt m c n (Nat.lt_of_succ_lt hN)).2.2 (ix2 a (0 : Fin 1)) = _
    rw [nextN_apply, hT ⟨n + 1, hN⟩ rfl]
    have hprev : (n + 1 - 1) = n := rfl
    rw [hprev, dif_pos (Nat.lt_of_succ_lt hN)]
    congr 1
    · congr 1
      exact if_congr (hReset ⟨n + 1, hN⟩) rfl rfl
    · by_cases hd : (n + 1) / 8 = (n + 1) % 8
      · rw [if_pos ((hDiag ⟨n + 1, hN⟩).mpr hd), if_pos hd, hDg ⟨n + 1, hN⟩ rfl hd]
      · rw [if_neg (fun h => hd ((hDiag ⟨n + 1, hN⟩).mp h)), if_neg hd]

theorem accN_closed (c : Dev nD) (a : Fin 1024) (t : ℕ) (ht : t < 64) :
    accN m c a t = (zeroW + ∑ k ∈ Finset.range (t % 8 + 1), TN m c a (t / 8) k) + (if t / 8 ≤ t % 8 then -(DN m c a (t / 8)) else 0) :=
  Cert.LibTileFold.fold_tiles (n := 8) (by norm_num) 64 zeroW (TN m c a) (fun q => -(DN m c a q)) (accN m c a)
    (fun t ht hz => by rw [accN_step m c a t ht, if_pos hz, hz])
    (fun t ht hz => by rw [accN_step m c a t ht, if_neg hz]) t ht

end Cert.KernelIdeal.Hand

end
-- ==== Proof.Spec.lean ====
import Idealize.ShloMosaic.PureOps.Ideal
import Idealize.ShloMosaic.PureOps.Ideal.Laws
import Idealize.ShloMosaic.Lib.ValueIdx

/-!
# The per-row loss, by global row number

`u i d` is entry `d` of row `i` of the normalized embedding (8192 rows of 256), `l i` the label of row `i`. The similarity
of two rows is twice their inner product. For row `i`: `R` is the sum of `exp s` over the other rows, `P` the sum of `s`
over the other rows with the same label, `n` their number; the row's loss is `−(P − n · log R) / max n 1` where `n > 0` and
`0` elsewhere. The three sums are written as the one-pass kernel forms them: over ALL rows, then the row's own term taken back.
-/

noncomputable section

namespace Cert.Spec

open Idealize.ShloMosaic

/-- Zero, one and two as the programs' 32-bit float words. -/
abbrev zeroW : EReal := Ideal.ofBits .f32 0x00000000#32
abbrev oneW : EReal := Ideal.ofBits .f32 0x3F800000#32
abbrev twoW : EReal := Ideal.ofBits .f32 0x40000000#32

/-- The similarity of rows `i` and `j`. -/
def sim (u : Fin 8192 → Fin 256 → EReal) (i j : Fin 8192) : EReal := (∑ d : Fin 256, u i d * u j d) * twoW

/-- Whether two rows carry the same label, as the one-bit comparison. -/
def same (l : Fin 8192 → BitVec 32) (i j : Fin 8192) : BitVec 1 := IntOp.cmpi .eq (l i) (l j)

/-- The sum of `exp s` over all rows, less the row's own term. -/
def rowsumK (u : Fin 8192 → Fin 256 → EReal) (i : Fin 8192) : EReal :=
  (zeroW + ∑ j : Fin 8192, Ideal.exp (sim u i j)) + -(Ideal.exp (sim u i i))

/-- The sum of `s` over the rows with the row's label, less the row's own term. -/
def possumK (u : Fin 8192 → Fin 256 → EReal) (l : Fin 8192 → BitVec 32) (i : Fin 8192) : EReal :=
  (zeroW + ∑ j : Fin 8192, Scalar.select (same l i j) (sim u i j) zeroW) + -(sim u i i)

/-- The number of rows with the row's label, less one (the row itself). -/
def countK (l : Fin 8192 → BitVec 32) (i : Fin 8192) : EReal :=
  (zeroW + ∑ j : Fin 8192, (FloatOps.sitofp (F := Ideal) .f32 ((same l i j).setWidth 32) : EReal)) + -oneW

/-- The loss of a row from its count `n`, its sum `p` of similarities over equal labels and its sum `r` of exponentials. -/
def rowLoss (n p r : EReal) : EReal :=
  Scalar.select (FloatOps.cmpf (F := Ideal) (φ := .f32) .ogt n zeroW) (Ideal.div (zeroW - (p - n * Ideal.log r)) (max n oneW)) zeroW

/-- The loss of row `i`, as the one-pass kernel forms it. -/
def rowKer (u : Fin 8192 → Fin 256 → EReal) (l : Fin 8192 → BitVec 32) (i : Fin 8192) : EReal :=
  rowLoss (countK l i) (possumK u l i) (rowsumK u i)

end Cert.Spec

end
-- ==== Proof.RefRows.lean ====
/-
  The reference's result in closed form, at the ideal instance.

  Read through the stage definitions' index lemmas, each anchor's value `val_main_v37 x0 x1 (ix1 i)` is `rowRef` of the
  normalized embedding `val_main_v2 x0` and the labels: sums over coordinates, the extended reals' arithmetic and
  conditions on label equality and on the diagonal, with the 32-bit count of positives read as the cardinality of a set.
  The result is the zero word plus the sum of the anchors' values. Nothing is simplified: the literals stay words and no
  term is cancelled.
-/
import proofs.«116435_j54296976556236_2_alg».proof.Proof.RefRead

noncomputable section

open scoped BigOperators

namespace Cert.ReferenceIdeal.Rows

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Words -/

/-- On one-bit words `select` is the `if` on whatever proposition the bit decides. -/
theorem select_eq_ite {α : Type} (c : BitVec 1) (p : Prop) [Decidable p] (h : c = 1#1 ↔ p) (a b : α) :
    Scalar.select c a b = if p then a else b := by
  unfold Scalar.select
  exact if_congr h rfl rfl

/-- The equality comparison's bit is `1` exactly when the words are equal. -/
theorem cmpi_eq_eq_one_iff {w : Nat} (x y : BitVec w) : IntOp.cmpi .eq x y = 1#1 ↔ x = y := by
  by_cases h : x = y
  · subst h
    exact ⟨fun _ => rfl, fun _ => by show BitVec.ofBool (x == x) = 1#1; rw [beq_self_eq_true]; rfl⟩
  · refine ⟨fun e => ?_, fun e => absurd e h⟩
    have : BitVec.ofBool (x == y) = 1#1 := e
    rw [beq_eq_false_iff_ne.mpr h] at this
    exact absurd this (by decide)

/-- The `and` of two one-bit words is `1` exactly when both are. -/
theorem andi_eq_one_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- The complement of a one-bit word is `1` exactly when the word is not. -/
theorem not_eq_one_iff (x : BitVec 1) : ~~~x = 1#1 ↔ ¬x = 1#1 := by
  rcases BitVec.eq_zero_or_eq_one x with rfl | rfl <;> decide

/-- Two coordinates below 8192 are equal exactly when their 32-bit words are. -/
theorem ofNat32_inj (a b : Fin 8192) : BitVec.ofNat 32 a.val = BitVec.ofNat 32 b.val ↔ a = b := by
  constructor
  · intro h
    have e := congrArg BitVec.toNat h
    rw [BitVec.toNat_ofNat, BitVec.toNat_ofNat] at e
    have ha := a.isLt
    have hb := b.isLt
    rw [Nat.mod_eq_of_lt (by omega), Nat.mod_eq_of_lt (by omega)] at e
    exact Fin.ext e
  · rintro rfl; rfl

/-! ## The stages read at coordinates -/

/-- The similarity of rows `a` and `b` of `u`: their inner product over the 256 features, divided by the temperature word. -/
def sim (u : S8192x256.Idx → EReal) (a b : Fin 8192) : EReal :=
  Ideal.div (∑ d : Fin 256, u (ix2 a d) * u (ix2 b d)) (Ideal.ofBits .f32 0x3F000000#32)

theorem v6_apply (x0 : (⟨S8192x256, .f32⟩ : BufTy).Contents (Elt Ideal)) (a b : Fin 8192) :
    val_main_v6 (F := Ideal) x0 (ix2 a b) = sim (val_main_v2 (F := Ideal) x0) a b := by
  rw [val_main_v6_apply, val_main_v4_apply, val_main_v5_apply, val_main_cst_apply]
  simp only [Ideal.hostDivf_def, Ideal.ofBits_def]
  unfold sim
  refine congrArg (Ideal.div · _) (Finset.sum_congr rfl fun d _ => ?_)
  rw [val_main_v3_apply]
  have e1 : lidx_main_v4 (ix2 a b) d = ix2 a d :=
    funext fun c => Fin.ext (by match c with | ⟨0, _⟩ => rfl | ⟨1, _⟩ => rfl)
  have e2 : idx_main_v3 (ridx_main_v4 (ix2 a b) d) = ix2 b d :=
    funext fun c => Fin.ext (by match c with | ⟨0, _⟩ => rfl | ⟨1, _⟩ => rfl)
  rw [e1, e2]

/-- The diagonal mask's bit at (a, b) is `1` exactly on the diagonal. -/
theorem v11_eq_one_iff (a b : Fin 8192) : val_main_v11 (F := Ideal) (ix2 a b) = 1#1 ↔ a = b := by
  rw [val_main_v11_apply, val_main_v10_apply, val_main_v7_apply, val_main_v8_apply, val_main_v9_apply, val_main_c_apply,
    cmpi_eq_eq_one_iff]
  show BitVec.ofNat 32 a.val + 0#32 = BitVec.ofNat 32 b.val ↔ a = b
  rw [BitVec.add_zero]
  exact ofNat32_inj a b

/-- The 32-bit sum, from `0`, of one-bit words zero-extended to 32 bits is the word of the number of them that are `1`. -/
theorem fold_addi_setWidth_card {ι : Type} [DecidableEq ι] (s : Finset ι) (c : ι → BitVec 1) :
    s.fold IntOp.addi 0#32 (fun p => (c p).setWidth 32) = BitVec.ofNat 32 (s.filter fun p => c p = 1#1).card := by
  induction s using Finset.induction_on with
  | empty => rfl
  | insert a s ha ih =>
    rw [Finset.fold_insert ha, ih, Finset.filter_insert]
    rcases BitVec.eq_zero_or_eq_one (c a) with h | h
    · rw [h, if_neg (by decide)]
      show (0#1 : BitVec 1).setWidth 32 + BitVec.ofNat 32 _ = _
      exact BitVec.zero_add _
    · rw [h, if_pos rfl, Finset.card_insert_of_notMem (fun hm => ha (Finset.mem_filter.1 hm).1)]
      show (1#1 : BitVec 1).setWidth 32 + BitVec.ofNat 32 _ = BitVec.ofNat 32 (_ + 1)
      rw [Nat.add_comm, BitVec.ofNat_add]
      rfl

/-- Row `a`'s sum of exponentiated similarities off the diagonal, from the zero word. -/
def expRowSum (u : S8192x256.Idx → EReal) (a : Fin 8192) : EReal :=
  Ideal.ofBits .f32 0x00000000#32
    + ∑ j : Fin 8192, if a = j then Ideal.ofBits .f32 0x00000000#32 else Ideal.exp (sim u a j)

theorem v14_apply (x0 : (⟨S8192x256, .f32⟩ : BufTy).Contents (Elt Ideal)) (a : Fin 8192) :
    val_main_v14 (F := Ideal) x0 (ix1 a) = expRowSum (val_main_v2 (F := Ideal) x0) a := by
  rw [val_main_v14_apply, val_main_cst_1_apply]
  simp only [Ideal.ofBits_def]
  unfold expRowSum
  refine congrArg (_ + ·) (Finset.sum_congr rfl fun j _ => ?_)
  have e : idx_main_v14 (ix1 a) j = ix2 a j :=
    funext fun c => Fin.ext (by match c with | ⟨0, _⟩ => rfl | ⟨1, _⟩ => rfl)
  rw [e, val_main_v13_apply, val_main_call1_v1_apply, val_main_call1_v0_apply, val_main_cst_0_apply, val_main_v12_apply,
    v6_apply]
  simp only [Ideal.hostUnary_exp_def, Ideal.ofBits_def]
  exact select_eq_ite _ _ (v11_eq_one_iff a j) _ _

/-- The log-probability at (a, b): the similarity less the logarithm of row `a`'s sum. -/
def logprob (u : S8192x256.Idx → EReal) (a b : Fin 8192) : EReal :=
  sim u a b - Ideal.log (expRowSum u a)

theorem v18_apply (x0 : (⟨S8192x256, .f32⟩ : BufTy).Contents (Elt Ideal)) (a b : Fin 8192) :
    val_main_v18 (F := Ideal) x0 (ix2 a b) = logprob (val_main_v2 (F := Ideal) x0) a b := by
  rw [val_main_v18_apply, v6_apply, val_main_v17_apply, val_main_v16_apply, val_main_v15_apply]
  have e : idx_main_v16 (idx_main_v17 (ix2 a b)) = ix1 a :=
    funext fun c => Fin.ext (by match c with | ⟨0, _⟩ => rfl)
  rw [e, v14_apply]
  simp only [Ideal.subf_def, Ideal.hostUnary_log_def]
  rfl

/-- The positive-pair mask's bit at (a, b) is `1` exactly when the labels agree off the diagonal. -/
theorem v25_eq_one_iff (x1 : (⟨S8192, .i32⟩ : BufTy).Contents (Elt Ideal)) (a b : Fin 8192) :
    val_main_v25 (F := Ideal) x1 (ix2 a b) = 1#1 ↔ (x1 (ix1 a) = x1 (ix1 b) ∧ a ≠ b) := by
  rw [val_main_v25_apply, val_main_v23_apply, val_main_v21_apply, val_main_v19_apply, val_main_v22_apply, val_main_v20_apply,
    val_main_v24_apply, andi_eq_one_iff, cmpi_eq_eq_one_iff, not_eq_one_iff, v11_eq_one_iff]
  have e1 : idx_main_v19 (idx_main_v21 (ix2 a b)) = ix1 a :=
    funext fun c => Fin.ext (by match c with | ⟨0, _⟩ => rfl)
  have e2 : idx_main_v20 (idx_main_v22 (ix2 a b)) = ix1 b :=
    funext fun c => Fin.ext (by match c with | ⟨0, _⟩ => rfl)
  rw [e1, e2]

/-- Row `a`'s positives: the other rows with `a`'s label. -/
def posSet (l : S8192.Idx → BitVec 32) (a : Fin 8192) : Finset (Fin 8192) :=
  Finset.univ.filter fun j => l (ix1 a) = l (ix1 j) ∧ a ≠ j

theorem posSet_card_le (l : S8192.Idx → BitVec 32) (a : Fin 8192) : (posSet l a).card ≤ 8192 := by
  have := Finset.card_filter_le (Finset.univ : Finset (Fin 8192)) (fun j => l (ix1 a) = l (ix1 j) ∧ a ≠ j)
  rw [Finset.card_univ, Fintype.card_fin] at this
  exact this

/-- The 32-bit count of row `a`'s positives is the word of their number. -/
theorem v27_apply (x1 : (⟨S8192, .i32⟩ : BufTy).Contents (Elt Ideal)) (a : Fin 8192) :
    val_main_v27 (F := Ideal) x1 (ix1 a) = BitVec.ofNat 32 (posSet x1 a).card := by
  unfold val_main_v27
  rw [Host.reduce_eq_fold_single IntOp.addi _ _ reducesTo_S8192x8192_S8192_d1 (by decide) h_S_ (ix1 a), val_main_c_2_apply]
  have e : (val_main_v26 (F := Ideal) x1 ∘ (Shape.Reduces.lift (s := S8192x8192) (a := 1) (t := S8192) (by decide) (ix1 a)))
      = fun k : Fin 8192 => (val_main_v25 (F := Ideal) x1 (ix2 a k)).setWidth 32 :=
    funext fun k => congrArg (fun p => (val_main_v25 (F := Ideal) x1 p).setWidth 32)
      (funext fun c => Fin.ext (by match c with | ⟨0, _⟩ => rfl | ⟨1, _⟩ => rfl))
  refine (congrArg (Finset.fold IntOp.addi 0#32 · (Finset.univ : Finset (Fin 8192))) e).trans ?_
  rw [fold_addi_setWidth_card]
  unfold posSet
  exact congrArg (fun s : Finset (Fin 8192) => BitVec.ofNat 32 s.card)
    (Finset.filter_congr fun k _ => v25_eq_one_iff x1 a k)

/-! ## The count as a number -/

/-- A number up to 8192, written as a 32-bit word and read back as a signed integer, is itself. -/
theorem toInt_ofNat32 {n : ℕ} (hn : n ≤ 8192) : (BitVec.ofNat 32 n).toInt = (n : ℤ) := by
  rw [BitVec.toInt_eq_toNat_cond, BitVec.toNat_ofNat, Nat.mod_eq_of_lt (by omega), if_pos (by omega)]

theorem ofBool_eq_one_iff (b : Bool) : BitVec.ofBool b = 1#1 ↔ b = true := by cases b <;> decide

/-- The signed comparison of such a word with zero is the comparison of the number with zero. -/
theorem cmpi_sgt_zero_eq_one_iff {n : ℕ} (hn : n ≤ 8192) :
    IntOp.cmpi .sgt (BitVec.ofNat 32 n) 0#32 = 1#1 ↔ 0 < n := by
  show BitVec.ofBool ((0#32).slt (BitVec.ofNat 32 n)) = 1#1 ↔ 0 < n
  rw [ofBool_eq_one_iff]
  simp only [BitVec.slt, decide_eq_true_eq]
  have h0 : (0#32 : BitVec 32).toInt = 0 := by decide
  rw [toInt_ofNat32 hn, h0]
  omega

/-- The signed maximum of such a word and one is the maximum of the number and one. -/
theorem toInt_maxsi_one {n : ℕ} (hn : n ≤ 8192) :
    (IntOp.maxsi (BitVec.ofNat 32 n) 1#32).toInt = ((max n 1 : ℕ) : ℤ) := by
  have h1 : (1#32 : BitVec 32).toInt = 1 := by decide
  unfold IntOp.maxsi
  simp only [BitVec.slt, decide_eq_true_eq]
  rw [h1, toInt_ofNat32 hn]
  split_ifs with h
  · rw [toInt_ofNat32 hn]; omega
  · rw [h1]; omega

/-! ## One anchor's value, and the total -/

/-- Anchor `i`'s value in closed form over the normalized embedding `u` and the labels `l`: with `n` the number of
    positives of `i`, zero when there are none, and otherwise minus the sum over the positives `j` of the log-probability
    at (i, j), divided by `max n 1`. The literals are kept as words. -/
def rowRef (u : S8192x256.Idx → EReal) (l : S8192.Idx → BitVec 32) (i : Fin 8192) : EReal :=
  if 0 < (posSet l i).card then
    Ideal.div
      (-(Ideal.ofBits .f32 0x00000000#32
          + ∑ j : Fin 8192, if (l (ix1 i) = l (ix1 j) ∧ i ≠ j) then logprob u i j else Ideal.ofBits .f32 0x00000000#32))
      (((max (posSet l i).card 1 : ℕ) : ℝ) : EReal)
  else Ideal.ofBits .f32 0x00000000#32

theorem row_eq (x0 : (⟨S8192x256, .f32⟩ : BufTy).Contents (Elt Ideal)) (x1 : (⟨S8192, .i32⟩ : BufTy).Contents (Elt Ideal))
    (i : Fin 8192) :
    val_main_v37 (F := Ideal) x0 x1 (ix1 i) = rowRef (val_main_v2 (F := Ideal) x0) x1 i := by
  rw [val_main_v37_apply, val_main_v31_apply, val_main_v30_apply, val_main_c_5_apply, val_main_v36_apply, val_main_v32_apply,
    val_main_v35_apply, val_main_v34_apply, val_main_v33_apply, val_main_c_6_apply, val_main_call3_v1_apply,
    val_main_call3_v0_apply, val_main_cst_7_apply, v27_apply, val_main_v29_apply, val_main_cst_4_apply]
  have hsum : ∑ k : Fin 8192, val_main_v28 (F := Ideal) x0 x1 (idx_main_v29 (ix1 i) k)
      = ∑ j : Fin 8192, if (x1 (ix1 i) = x1 (ix1 j) ∧ i ≠ j) then logprob (val_main_v2 (F := Ideal) x0) i j
          else Ideal.ofBits .f32 0x00000000#32 :=
    Finset.sum_congr rfl fun j _ => by
      have e : idx_main_v29 (ix1 i) j = ix2 i j :=
        funext fun c => Fin.ext (by match c with | ⟨0, _⟩ => rfl | ⟨1, _⟩ => rfl)
      rw [e, val_main_v28_apply, v18_apply, val_main_call2_v1_apply, val_main_call2_v0_apply, val_main_cst_3_apply]
      simp only [Ideal.ofBits_def]
      exact select_eq_ite _ _ (v25_eq_one_iff x1 i j) _ _
  rw [hsum]
  simp only [Ideal.ofBits_def, Ideal.hostDivf_def, Ideal.hostNegf_def, Ideal.negf_def]
  unfold rowRef
  rw [select_eq_ite _ _ (cmpi_sgt_zero_eq_one_iff (posSet_card_le x1 i))]
  have hd : (FloatOps.sitofp (F := Ideal) .f32 (IntOp.maxsi (BitVec.ofNat 32 (posSet x1 i).card) 1#32) : EReal)
      = (((max (posSet x1 i).card 1 : ℕ) : ℝ) : EReal) := by
    show (((IntOp.maxsi (BitVec.ofNat 32 (posSet x1 i).card) 1#32).toInt : ℝ) : EReal) = _
    rw [toInt_maxsi_one (posSet_card_le x1 i), Int.cast_natCast]
  rw [hd]

/-- A rank-1 index of extent 8192 is its one coordinate. -/
def idxEquiv1 : S8192.Idx ≃ Fin 8192 where
  toFun j := j 0
  invFun a := ix1 a
  left_inv j := (eq_ix1 j).symm
  right_inv a := rfl

theorem total_eq (x0 : (⟨S8192x256, .f32⟩ : BufTy).Contents (Elt Ideal)) (x1 : (⟨S8192, .i32⟩ : BufTy).Contents (Elt Ideal)) :
    val_main_v38 (F := Ideal) x0 x1 ix0
      = Ideal.ofBits .f32 0x00000000#32 + ∑ i : Fin 8192, rowRef (val_main_v2 (F := Ideal) x0) x1 i := by
  rw [val_main_v38_apply, val_main_cst_8_apply]
  simp only [Ideal.ofBits_def]
  refine congrArg (_ + ·) ?_
  refine (Equiv.sum_comp idxEquiv1.symm (val_main_v37 (F := Ideal) x0 x1)).symm.trans ?_
  exact Finset.sum_congr rfl fun i _ => row_eq x0 x1 i

/-- `rowRef` with every auxiliary definition opened: sums over `Fin 8192` and `Fin 256`, the extended reals' arithmetic,
    the ideal division, exponential and logarithm, and conditions on label equality and on `i = j`. -/
theorem rowRef_explicit (u : S8192x256.Idx → EReal) (l : S8192.Idx → BitVec 32) (i : Fin 8192) :
    rowRef u l i
      = if 0 < (Finset.univ.filter fun j : Fin 8192 => l (ix1 i) = l (ix1 j) ∧ i ≠ j).card then
          Ideal.div
            (-(Ideal.ofBits .f32 0x00000000#32
                + ∑ j : Fin 8192, if (l (ix1 i) = l (ix1 j) ∧ i ≠ j) then
                    Ideal.div (∑ d : Fin 256, u (ix2 i d) * u (ix2 j d)) (Ideal.ofBits .f32 0x3F000000#32)
                      - Ideal.log (Ideal.ofBits .f32 0x00000000#32
                          + ∑ k : Fin 8192, if i = k then Ideal.ofBits .f32 0x00000000#32
                              else Ideal.exp (Ideal.div (∑ d : Fin 256, u (ix2 i d) * u (ix2 k d)) (Ideal.ofBits .f32 0x3F000000#32)))
                  else Ideal.ofBits .f32 0x00000000#32))
            (((max (Finset.univ.filter fun j : Fin 8192 => l (ix1 i) = l (ix1 j) ∧ i ≠ j).card 1 : ℕ) : ℝ) : EReal)
        else Ideal.ofBits .f32 0x00000000#32 := rfl

/-! ## The normalized embedding read at coordinates -/

/-- Row `a` of the normalized embedding: the row of the argument divided by the square root of its sum of squares
    (from the zero word). -/
theorem v2_apply (x0 : (⟨S8192x256, .f32⟩ : BufTy).Contents (Elt Ideal)) (a : Fin 8192) (d : Fin 256) :
    val_main_v2 (F := Ideal) x0 (ix2 a d)
      = Ideal.div (x0 (ix2 a d))
          (Ideal.sqrt (Ideal.ofBits .f32 0x00000000#32 + ∑ k : Fin 256, x0 (ix2 a k) * x0 (ix2 a k))) := by
  rw [val_main_v2_apply, val_main_v1_apply, val_main_v0_apply, val_main_call0_v2_apply]
  have e : idx_main_call0_v2 (idx_main_v1 (ix2 a d)) = ix1 a :=
    funext fun c => Fin.ext (by match c with | ⟨0, _⟩ => rfl)
  rw [e, val_main_call0_v1_apply, val_main_call0_cst_apply]
  simp only [Ideal.hostDivf_def, Ideal.hostUnary_sqrt_def, Ideal.ofBits_def]
  refine congrArg (fun t => Ideal.div (x0 (ix2 a d)) (Ideal.sqrt (_ + t))) (Finset.sum_congr rfl fun k _ => ?_)
  have e2 : idx_main_call0_v1 (ix1 a) k = ix2 a k :=
    funext fun c => Fin.ext (by match c with | ⟨0, _⟩ => rfl | ⟨1, _⟩ => rfl)
  rw [e2, val_main_call0_v0_apply]
  rfl

end Cert.ReferenceIdeal.Rows

end
-- ==== Proof.KIRows.lean ====
import proofs.«116435_j54296976556236_2_alg».proof.Proof.KIColPN
import proofs.«116435_j54296976556236_2_alg».proof.Proof.Spec
import proofs.«116435_j54296976556236_2_alg».proof.Proof.RefRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The normalized embedding and the labels the region reads, by global row. -/
def uS (c : Dev nD) : Fin 8192 → Fin 256 → EReal := fun i d => Vr m c main_v3 (ix2 i d)
def lS (c : Dev nD) : Fin 8192 → BitVec 32 := fun i => m ((c : Thread nD τ).loc main_arg1) (ix1 i)

theorem sN_eq (c : Dev nD) (i j : Fin 8192) : sN m c i.val j.val = Cert.Spec.sim (uS m c) i j := by
  unfold sN Cert.Spec.sim uN uS
  simp only [dif_pos i.isLt, dif_pos j.isLt]
theorem lN_eq (c : Dev nD) (i : Fin 8192) : lN m c i.val = lS m c i := by
  unfold lN lS; rw [dif_pos i.isLt]

/-- A sum over 8 tiles of 1024 columns is the sum over the 8192 columns. -/
theorem sum_tiles_fin (f : ℕ → EReal) :
    ∑ k ∈ Finset.range 8, ∑ b : Fin 1024, f (1024 * k + b.val) = ∑ j : Fin 8192, f j.val := by
  have h1 : ∀ k, ∑ b : Fin 1024, f (1024 * k + b.val) = ∑ b ∈ Finset.range 1024, f (1024 * k + b) :=
    fun k => Fin.sum_univ_eq_sum_range (fun b => f (1024 * k + b)) 1024
  simp only [h1]
  rw [Cert.LibTileFold.sum_tiles 8 1024 f]
  exact (Fin.sum_univ_eq_sum_range f 8192).symm

/-- A row of a tile summed under the tile's diagonal mask is its diagonal entry. -/
theorem diag_sum (a : Fin 1024) (g : Fin 1024 → EReal) :
    ∑ b : Fin 1024, Scalar.select (IntOp.cmpi .eq (BitVec.ofNat 32 a.val) (BitVec.ofNat 32 b.val)) (g b) zeroW = g a := by
  rw [Finset.sum_eq_single a]
  · unfold Scalar.select
    exact if_pos ((Cert.ReferenceIdeal.Rows.cmpi_eq_eq_one_iff _ _).mpr rfl)
  · intro b _ hb
    unfold Scalar.select
    refine (if_neg fun h => ?_).trans Ideal.ofBits_zero_f32
    have e := (Cert.ReferenceIdeal.Rows.cmpi_eq_eq_one_iff _ _).mp h
    have e' := (Cert.ReferenceIdeal.Rows.ofNat32_inj ⟨a.val, by have := a.isLt; omega⟩ ⟨b.val, by have := b.isLt; omega⟩).mp e
    exact hb (Fin.ext (Fin.mk.inj e').symm)
  · intro h; exact absurd (Finset.mem_univ a) h

theorem add_add_neg_congr {z A A' D D' : EReal} (hA : A = A') (hD : D = D') : (z + A) + -D = (z + A') + -D' := by rw [hA, hD]

/-- The global row of entry `a` of the row of tiles `q`. -/
def gRow (q : ℕ) (hq : q < 8) (a : Fin 1024) : Fin 8192 := ⟨1024 * q + a.val, by have := a.isLt; omega⟩

set_option maxHeartbeats 1000000 in
theorem rowsum_end (c : Dev nD) (q : ℕ) (hq : q < 8) (a : Fin 1024) :
    accR m c a (8 * q + 7) = Cert.Spec.rowsumK (uS m c) (gRow q hq a) := by
  have h1 : (8 * q + 7) / 8 = q := by omega
  have h2 : (8 * q + 7) % 8 = 7 := by omega
  have hc := accR_closed m c a (8 * q + 7) (by omega)
  rw [h1, h2, if_pos (show q ≤ 7 by omega)] at hc
  refine hc.trans ?_
  unfold Cert.Spec.rowsumK
  refine add_add_neg_congr ?_ ?_
  · unfold TR
    rw [sum_tiles_fin (fun j => Ideal.exp (sN m c (1024 * q + a.val) j))]
    exact Finset.sum_congr rfl fun j _ => congrArg Ideal.exp (sN_eq m c (gRow q hq a) j)
  · unfold DR
    rw [diag_sum a (fun b => Ideal.exp (sN m c (1024 * q + a.val) (1024 * q + b.val)))]
    exact congrArg Ideal.exp (sN_eq m c (gRow q hq a) (gRow q hq a))

set_option maxHeartbeats 1000000 in
theorem possum_end (c : Dev nD) (q : ℕ) (hq : q < 8) (a : Fin 1024) :
    accP m c a (8 * q + 7) = Cert.Spec.possumK (uS m c) (lS m c) (gRow q hq a) := by
  have h1 : (8 * q + 7) / 8 = q := by omega
  have h2 : (8 * q + 7) % 8 = 7 := by omega
  have hc := accP_closed m c a (8 * q + 7) (by omega)
  rw [h1, h2, if_pos (show q ≤ 7 by omega)] at hc
  refine hc.trans ?_
  unfold Cert.Spec.possumK
  refine add_add_neg_congr ?_ ?_
  · unfold TP
    rw [sum_tiles_fin (fun j => Scalar.select (IntOp.cmpi .eq (lN m c (1024 * q + a.val)) (lN m c j)) (sN m c (1024 * q + a.val) j) zeroW)]
    refine Finset.sum_congr rfl fun j _ => ?_
    unfold Cert.Spec.same
    rw [← sN_eq m c (gRow q hq a) j, ← lN_eq m c (gRow q hq a), ← lN_eq m c j]
    rfl
  · unfold DP
    rw [diag_sum a (fun b => sN m c (1024 * q + a.val) (1024 * q + b.val))]
    exact sN_eq m c (gRow q hq a) (gRow q hq a)

set_option maxHeartbeats 1000000 in
theorem count_end (c : Dev nD) (q : ℕ) (hq : q < 8) (a : Fin 1024) :
    accN m c a (8 * q + 7) = Cert.Spec.countK (lS m c) (gRow q hq a) := by
  have h1 : (8 * q + 7) / 8 = q := by omega
  have h2 : (8 * q + 7) % 8 = 7 := by omega
  have hc := accN_closed m c a (8 * q + 7) (by omega)
  rw [h1, h2, if_pos (show q ≤ 7 by omega)] at hc
  refine hc.trans ?_
  unfold Cert.Spec.countK
  refine add_add_neg_congr ?_ rfl
  unfold TN
  rw [sum_tiles_fin (fun j => (FloatOps.sitofp (F := Ideal) .f32 ((IntOp.cmpi .eq (lN m c (1024 * q + a.val)) (lN m c j)).setWidth 32) : EReal))]
  refine Finset.sum_congr rfl fun j _ => ?_
  unfold Cert.Spec.same
  rw [← lN_eq m c (gRow q hq a), ← lN_eq m c j]
  rfl

/-- What the last point of a row of tiles writes: the loss of each of its rows. -/
theorem outAt_last (c : Dev nD) (q : ℕ) (hq : q < 8) (a : Fin 1024) :
    outAt m c (lastPt q hq) (ix2 a (0 : Fin 1)) = Cert.Spec.rowKer (uS m c) (lS m c) (gRow q hq a) := by
  have hN : 8 * q + 7 < cfg0.N := (lastPt q hq).isLt
  unfold outAt
  rw [pay7_apply]
  have eR : (scrAt m c (lastPt q hq).val (lastPt q hq).isLt).1 (ix2 a (0 : Fin 1)) = accR m c a (8 * q + 7) := by
    unfold accR; rw [dif_pos hN]; rfl
  have eP : (scrAt m c (lastPt q hq).val (lastPt q hq).isLt).2.1 (ix2 a (0 : Fin 1)) = accP m c a (8 * q + 7) := by
    unfold accP; rw [dif_pos hN]; rfl
  have eN : (scrAt m c (lastPt q hq).val (lastPt q hq).isLt).2.2 (ix2 a (0 : Fin 1)) = accN m c a (8 * q + 7) := by
    unfold accN; rw [dif_pos hN]; rfl
  rw [eR, eP, eN, rowsum_end m c q hq a, possum_end m c q hq a, count_end m c q hq a]
  rfl

/-- THE OUTPUT ARRAY, row by row. -/
theorem Gout_apply (c : Dev nD) (i : Fin 8192) (u : Fin 1) :
    Gout m c (ix2 i u) = Cert.Spec.rowKer (uS m c) (lS m c) i := by
  have hi := i.isLt
  have hu : u = 0 := Subsingleton.elim _ _
  subst hu
  unfold Gout
  have hq : i.val / 1024 < 8 := by omega
  have e := outAt_last m c (i.val / 1024) hq ⟨i.val % 1024, Nat.mod_lt _ (by norm_num)⟩
  have hg : gRow (i.val / 1024) hq ⟨i.val % 1024, Nat.mod_lt _ (by norm_num)⟩ = i := by
    apply Fin.ext; show 1024 * (i.val / 1024) + i.val % 1024 = i.val; omega
  rw [hg] at e
  exact e

end Cert.KernelIdeal.Hand

end
-- ==== Proof.KITotal.lean ====
import proofs.«116435_j54296976556236_2_alg».proof.Proof.KIRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The 8192 rows of the one-column output array. -/
def idxEquiv2 : Fin 8192 ≃ S8192x1.Idx where
  toFun i := ix2 i (0 : Fin 1)
  invFun r := ⟨(r 0).val, (r 0).isLt⟩
  left_inv i := Fin.ext rfl
  right_inv r := funext fun ax => Fin.ext (by
    match ax with
    | ⟨0, _⟩ => rfl
    | ⟨1, _⟩ => show (0 : ℕ) = (r 1).val; have h : (r 1).val < 1 := (r 1).isLt; omega)

/-- THE KERNEL'S RESULT: zero plus the sum over the 8192 rows of each row's loss. -/
theorem kernel_total (c : Dev nD) (ix : S_.Idx) :
    tailSum m c ix = Cert.Spec.zeroW + ∑ i : Fin 8192, Cert.Spec.rowKer (uS m c) (lS m c) i := by
  rw [tailSum_eq, finalOut_eq]
  simp only [Host.reduceAdd, Ideal.hostReduceAdd_def]
  rw [Ideal.hostReduceAdd_total reducesTo_S8192x1_S_d0_1 (fun b => b.elim0)]
  refine congr (congrArg _ rfl) ?_
  rw [← Equiv.sum_comp (idxEquiv2)]
  exact Finset.sum_congr rfl fun i _ => Gout_apply m c i 0

/-- The normalized embedding the region reads is the reference's: the rows divided by their norms (the change of
    format is the identity on the extended reals). -/
theorem uS_eq (c : Dev nD) :
    uS m c = fun a d => Cert.ReferenceIdeal.Read.val_main_v2 (F := Ideal) (m ((c : Thread nD τ).loc main_arg0)) (ix2 a d) := by
  funext a d
  unfold uS
  show StableHlo.after hostOps0_1 (Vn m c) (Proc.devRef .tc main_v3) (ix2 a d) = _
  after_results
  simp only [StableHlo.TRef.toBuf, StableHlo.TRef.ofBuf, cast_eq]
  rfl

end Cert.KernelIdeal.Hand

end
-- ==== Proof.RefLink.lean ====
/-
  The reference's run linked to its stage definitions.

  What the 60 host operations leave in the result buffer (the fold `after ops` over the launch contents) is the last stage
  definition `val_main_v38` at the two arguments' launch contents. The fold over a concatenation is the composition of the
  folds, so the list is cut into four consecutive slices; for each slice and each buffer read after it, one lemma states
  the buffer's contents after the slice as the slice's operations applied to an arbitrary incoming valuation. The four are
  then chained and the composed term is the stage definitions' by unfolding.
-/
import proofs.«116435_j54296976556236_2_alg».proof.Proof.RefRead

noncomputable section

namespace Cert.ReferenceIdeal.Link

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev s1 : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    unary main_v0 main_v1 (broadcastInDim S8192x256 ![0, 1] bcast_S8192x1_S8192x256_0_1 : (⟨S8192x1, .f32⟩ : BufTy).Contents (Elt F) → (⟨S8192x256, .f32⟩ : BufTy).Contents (Elt F)),
    binary main_arg0 main_v1 main_v2 (Host.divf : (⟨S8192x256, .f32⟩ : BufTy).Contents (Elt F) → (⟨S8192x256, .f32⟩ : BufTy).Contents (Elt F) → (⟨S8192x256, .f32⟩ : BufTy).Contents (Elt F)),
    unary main_v2 main_v3 ((transpose S256x8192 [1, 0] · transposes_S8192x256_S256x8192_1_0) : (⟨S8192x256, .f32⟩ : BufTy).Contents (Elt F) → (⟨S256x8192, .f32⟩ : BufTy).Contents (Elt F)),
    binary main_v2 main_v3 main_v4 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3F000000#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)) ]

abbrev s2 : List (HloOp τ sig (Elt F)) :=
  [ nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    unary main_v6 main_v12 (Host.exp : (⟨S8192x8192, .f32⟩ : BufTy).Contents (Elt F) → (⟨S8192x8192, .f32⟩ : BufTy).Contents (Elt F)),
    nullary main_cst_0 (constant S_ .f32 0x00000000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_call1_v1) (TRef.of (T := ⟨S8192x8192, .f32⟩) main_v12) (TRef.of (T := ⟨S8192x8192, .f32⟩) main_v13) select,
    nullary main_cst_1 (constant S_ .f32 0x00000000#32),
    binary main_v13 main_cst_1 main_v14 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v14 main_v15 (Host.log : (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v6 main_v17 main_v18 (subf : (⟨S8192x8192, .f32⟩ : BufTy).Contents (Elt F) → (⟨S8192x8192, .f32⟩ : BufTy).Contents (Elt F) → (⟨S8192x8192, .f32⟩ : BufTy).Contents (Elt F)) ]

abbrev s3 : List (HloOp τ sig (Elt F)) :=
  [ unary main_arg1 main_v19 (broadcastInDim S8192x1 ![0] bcast_S8192_S8192x1_0 : (⟨S8192, .i32⟩ : BufTy).Contents (Elt F) → (⟨S8192x1, .i32⟩ : BufTy).Contents (Elt F)),
    unary main_arg1 main_v20 (broadcastInDim S1x8192 ![1] bcast_S8192_S1x8192_1 : (⟨S8192, .i32⟩ : BufTy).Contents (Elt F) → (⟨S1x8192, .i32⟩ : BufTy).Contents (Elt F)),
    unary main_v19 main_v21 (broadcastInDim S8192x8192 ![0, 1] bcast_S8192x1_S8192x8192_0_1 : (⟨S8192x1, .i32⟩ : BufTy).Contents (Elt F) → (⟨S8192x8192, .i32⟩ : BufTy).Contents (Elt F)),
    unary main_v20 main_v22 (broadcastInDim S8192x8192 ![0, 1] bcast_S1x8192_S8192x8192_0_1 : (⟨S1x8192, .i32⟩ : BufTy).Contents (Elt F) → (⟨S8192x8192, .i32⟩ : BufTy).Contents (Elt F)),
    binary main_v21 main_v22 main_v23 (cmpi .eq : (⟨S8192x8192, .i32⟩ : BufTy).Contents (Elt F) → (⟨S8192x8192, .i32⟩ : BufTy).Contents (Elt F) → (⟨S8192x8192, .i1⟩ : BufTy).Contents (Elt F)),
    unary main_v11 main_v24 (noti : (⟨S8192x8192, .i1⟩ : BufTy).Contents (Elt F) → (⟨S8192x8192, .i1⟩ : BufTy).Contents (Elt F)),
    binary main_v23 main_v24 main_v25 (andi : (⟨S8192x8192, .i1⟩ : BufTy).Contents (Elt F) → (⟨S8192x8192, .i1⟩ : BufTy).Contents (Elt F) → (⟨S8192x8192, .i1⟩ : BufTy).Contents (Elt F)),
    unary main_v25 main_v26 ((extui 32 · natLt_1_32) : (⟨S8192x8192, .i1⟩ : BufTy).Contents (Elt F) → (⟨S8192x8192, .i32⟩ : BufTy).Contents (Elt F)),
    nullary main_c_2 (constantI S_ 32 0#32),
    binary main_v26 main_c_2 main_v27 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v25) (TRef.of (T := ⟨S8192x8192, .f32⟩) main_v18) (TRef.of (T := ⟨S8192x8192, .f32⟩) main_call2_v1) (TRef.of (T := ⟨S8192x8192, .f32⟩) main_v28) select,
    nullary main_cst_4 (constant S_ .f32 0x00000000#32),
    binary main_v28 main_cst_4 main_v29 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

abbrev s4 : List (HloOp τ sig (Elt F)) :=
  [ nullary main_c_5 (constantI S_ 32 0#32),
    unary main_c_5 main_v30 (broadcastInDim S8192 ![] bcast_S_S8192 : (⟨S_, .i32⟩ : BufTy).Contents (Elt F) → (⟨S8192, .i32⟩ : BufTy).Contents (Elt F)),
    binary main_v27 main_v30 main_v31 (cmpi .sgt : (⟨S8192, .i32⟩ : BufTy).Contents (Elt F) → (⟨S8192, .i32⟩ : BufTy).Contents (Elt F) → (⟨S8192, .i1⟩ : BufTy).Contents (Elt F)),
    unary main_v29 main_v32 (Host.negf : (⟨S8192, .f32⟩ : BufTy).Contents (Elt F) → (⟨S8192, .f32⟩ : BufTy).Contents (Elt F)),
    nullary main_c_6 (constantI S_ 32 1#32),
    unary main_c_6 main_v33 (broadcastInDim S8192 ![] bcast_S_S8192 : (⟨S_, .i32⟩ : BufTy).Contents (Elt F) → (⟨S8192, .i32⟩ : BufTy).Contents (Elt F)),
    binary main_v27 main_v33 main_v34 (maxsi : (⟨S8192, .i32⟩ : BufTy).Contents (Elt F) → (⟨S8192, .i32⟩ : BufTy).Contents (Elt F) → (⟨S8192, .i32⟩ : BufTy).Contents (Elt F)),
    unary main_v34 main_v35 (sitofp .f32 : (⟨S8192, .i32⟩ : BufTy).Contents (Elt F) → (⟨S8192, .f32⟩ : BufTy).Contents (Elt F)),
    binary main_v32 main_v35 main_v36 (Host.divf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v31) (TRef.of (T := ⟨S8192, .f32⟩) main_v36) (TRef.of (T := ⟨S8192, .f32⟩) main_call3_v1) (TRef.of (T := ⟨S8192, .f32⟩) main_v37) select,
    nullary main_cst_8 (constant S_ .f32 0x00000000#32),
    binary main_v37 main_cst_8 main_v38 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The 60 operations are the four slices in order. -/
theorem ops_eq : (Cert.ReferenceIdeal.Value.ops (F := F)) = s1 ++ (s2 ++ (s3 ++ s4)) := rfl

/-! ### Operations 1–12: the similarity matrix from the embedding -/

theorem s1_v6 (W : Valuation τ sig (Elt F)) :
    after (s1 (F := F)) W (Proc.devRef .tc main_v6) = val_main_v6 (F := F) (W (Proc.devRef .tc main_arg0)) := by
  after_results_simp
  simp only [StableHlo.TRef.toBuf, StableHlo.TRef.ofBuf, cast_eq]
  rfl

theorem s1_arg1 (W : Valuation τ sig (Elt F)) :
    after (s1 (F := F)) W (Proc.devRef .tc main_arg1) = W (Proc.devRef .tc main_arg1) := by
  after_results_simp

/-! ### Operations 13–29: the diagonal mask and the log-probability from the similarity -/

/-- The log-probability as a function of the similarity matrix. -/
def logprobOf (v6 : (⟨S8192x8192, .f32⟩ : BufTy).Contents (Elt F)) : (⟨S8192x8192, .f32⟩ : BufTy).Contents (Elt F) :=
  subf v6
    (broadcastInDim S8192x8192 ![0, 1] bcast_S8192x1_S8192x8192_0_1
      (broadcastInDim S8192x1 ![0] bcast_S8192_S8192x1_0
        (Host.log (Host.reduceAdd (select (val_main_v11 (F := F)) (val_main_call1_v1 (F := F)) (Host.exp v6))
          (val_main_cst_1 (F := F)) reducesTo_S8192x8192_S8192_d1 h_S_))))

theorem logprobOf_v6 (x0 : (⟨S8192x256, .f32⟩ : BufTy).Contents (Elt F)) :
    logprobOf (F := F) (val_main_v6 (F := F) x0) = val_main_v18 (F := F) x0 := rfl

theorem s2_v18 (W : Valuation τ sig (Elt F)) :
    after (s2 (F := F)) W (Proc.devRef .tc main_v18) = logprobOf (F := F) (W (Proc.devRef .tc main_v6)) := by
  after_results_simp
  simp only [StableHlo.TRef.toBuf, StableHlo.TRef.ofBuf, cast_eq]
  rfl

theorem s2_v11 (W : Valuation τ sig (Elt F)) :
    after (s2 (F := F)) W (Proc.devRef .tc main_v11) = val_main_v11 (F := F) := by
  after_results_simp
  rfl

theorem s2_arg1 (W : Valuation τ sig (Elt F)) :
    after (s2 (F := F)) W (Proc.devRef .tc main_arg1) = W (Proc.devRef .tc main_arg1) := by
  after_results_simp

/-! ### Operations 30–45: the positive-pair mask, its count and the masked row sums -/

/-- The positive-pair mask as a function of the labels and the diagonal mask. -/
def posOf (x1 : (⟨S8192, .i32⟩ : BufTy).Contents (Elt F)) (v11 : (⟨S8192x8192, .i1⟩ : BufTy).Contents (Elt F)) :
    (⟨S8192x8192, .i1⟩ : BufTy).Contents (Elt F) :=
  andi (cmpi .eq (broadcastInDim S8192x8192 ![0, 1] bcast_S8192x1_S8192x8192_0_1 (broadcastInDim S8192x1 ![0] bcast_S8192_S8192x1_0 x1))
      (broadcastInDim S8192x8192 ![0, 1] bcast_S1x8192_S8192x8192_0_1 (broadcastInDim S1x8192 ![1] bcast_S8192_S1x8192_1 x1)))
    (noti v11)

theorem posOf_v11 (x1 : (⟨S8192, .i32⟩ : BufTy).Contents (Elt F)) :
    posOf (F := F) x1 (val_main_v11 (F := F)) = val_main_v25 (F := F) x1 := rfl

theorem s3_v27 (W : Valuation τ sig (Elt F)) :
    after (s3 (F := F)) W (Proc.devRef .tc main_v27)
      = Host.reduce IntOp.addi (extui 32 (posOf (F := F) (W (Proc.devRef .tc main_arg1)) (W (Proc.devRef .tc main_v11))) natLt_1_32)
          (val_main_c_2 (F := F)) reducesTo_S8192x8192_S8192_d1 h_S_ := by
  after_results_simp
  rfl

theorem s3_v29 (W : Valuation τ sig (Elt F)) :
    after (s3 (F := F)) W (Proc.devRef .tc main_v29)
      = Host.reduceAdd (select (posOf (F := F) (W (Proc.devRef .tc main_arg1)) (W (Proc.devRef .tc main_v11)))
            (W (Proc.devRef .tc main_v18)) (val_main_call2_v1 (F := F)))
          (val_main_cst_4 (F := F)) reducesTo_S8192x8192_S8192_d1 h_S_ := by
  after_results_simp
  simp only [StableHlo.TRef.toBuf, StableHlo.TRef.ofBuf, cast_eq]
  rfl

/-! ### Operations 46–60: the per-anchor value and the total -/

theorem s4_v38 (W : Valuation τ sig (Elt F)) :
    after (s4 (F := F)) W (Proc.devRef .tc main_v38)
      = Host.reduceAdd
          (select (cmpi .sgt (W (Proc.devRef .tc main_v27)) (val_main_v30 (F := F)))
            (Host.divf (Host.negf (W (Proc.devRef .tc main_v29))) (sitofp .f32 (maxsi (W (Proc.devRef .tc main_v27)) (val_main_v33 (F := F)))))
            (val_main_call3_v1 (F := F)))
          (val_main_cst_8 (F := F)) reducesTo_S8192_S_d0 h_S_ := by
  after_results_simp
  simp only [StableHlo.TRef.toBuf, StableHlo.TRef.ofBuf, cast_eq]
  rfl

/-! ### The four slices chained -/

/-- What the 60 operations leave in the result buffer is the last stage definition at the two arguments' launch contents. -/
theorem result_eq (m : (ℓ : Loc nD τ sig) → Buf (Elt F) ℓ) (c : Dev nD) :
    after (Cert.ReferenceIdeal.Value.ops (F := F)) (launchContents m c) (Proc.devRef .tc main_v38)
      = val_main_v38 (F := F) (m ((c.tc : Thread nD τ).loc main_arg0)) (m ((c.tc : Thread nD τ).loc main_arg1)) := by
  rw [ops_eq, after_append, after_append, after_append, s4_v38, s3_v27, s3_v29, s2_v18, s2_v11, s2_arg1, s1_v6, s1_arg1,
    logprobOf_v6, posOf_v11]
  rfl

end Cert.ReferenceIdeal.Link

end
-- ==== Proof.Bridge.lean ====
/-
  The reference's per-anchor value is the one-pass form's.

  `Rows.rowRef` sums over the other rows directly; `Spec.rowKer` sums over all rows and takes the row's own term back, and
  counts in floats. On the extended reals addition is commutative and associative and finite sums split over it with no
  finiteness, so the two agree as soon as the one cancelled term, the row's similarity with itself, is a real: then its
  exponential is a real too, a real cancels against its negation inside a sum, the float count of equal labels less one is
  the number of other rows with the label, and a constant summed over a set is its size times the constant at the
  infinities as well. Division by the word of one half is multiplication by the word of two. The last section shows the
  diagonal similarity real for an argument with real entries and rows of positive sum of squares.
-/
import proofs.«116435_j54296976556236_2_alg».proof.Proof.RefRows
import proofs.«116435_j54296976556236_2_alg».proof.Proof.Spec
import proofs.«116435_j54296976556236_2_alg».proof.Proof.LibTileFold

noncomputable section

open scoped BigOperators

namespace Cert.Bridge

open Idealize.ShloMosaic Idealize.ShloMosaic.ValueIdx Cert.ReferenceIdeal

/-! ## The words -/

theorem halfW_eq : Ideal.ofBits .f32 0x3F000000#32 = (((1 / 2 : ℝ)) : EReal) := by
  simp [Ideal.ofBits, Ideal.ieee, -EReal.coe_mul]; norm_num

theorem twoW_eq : Ideal.ofBits .f32 0x40000000#32 = ((2 : ℝ) : EReal) := by
  simp [Ideal.ofBits, Ideal.ieee, -EReal.coe_mul]; norm_num

theorem oneW_eq : Ideal.ofBits .f32 0x3F800000#32 = ((1 : ℝ) : EReal) := by
  simp [Ideal.ofBits, Ideal.ieee, -EReal.coe_mul]; norm_num

theorem zeroW_eq : Ideal.ofBits .f32 0x00000000#32 = (0 : EReal) := Ideal.ofBits_zero_f32

/-- Dividing by the word of one half is multiplying by the word of two, at the infinities too. -/
theorem div_halfW (x : EReal) : Ideal.div x (Ideal.ofBits .f32 0x3F000000#32) = x * Ideal.ofBits .f32 0x40000000#32 := by
  rw [halfW_eq, Ideal.div_coe (by norm_num), twoW_eq]
  congr 2
  norm_num

/-- The two similarities agree. -/
theorem sim_eq (u : S8192x256.Idx → EReal) (a b : Fin 8192) :
    Rows.sim u a b = Spec.sim (fun a d => u (ix2 a d)) a b := by
  unfold Rows.sim Spec.sim
  exact div_halfW _

/-! ## Sums on the extended reals -/

/-- A sum that skips one index by writing zero there is the sum over the other indices. -/
theorem sum_ite_eq_zero {ι : Type} [DecidableEq ι] (s : Finset ι) (i : ι) (f : ι → EReal) :
    ∑ j ∈ s, (if i = j then 0 else f j) = ∑ j ∈ s.erase i, f j := by
  rw [← Finset.filter_ne s i, Finset.sum_filter]
  refine Finset.sum_congr rfl fun j _ => ?_
  by_cases h : i = j
  · rw [if_pos h, if_neg (not_not.mpr h)]
  · rw [if_neg h, if_pos h]

/-- The sum of the 0/1 indicators of a condition is the number of indices where it holds. -/
theorem sum_indicator_card {ι : Type} [DecidableEq ι] (s : Finset ι) (p : ι → Prop) [DecidablePred p] :
    ∑ j ∈ s, (if p j then ((1 : ℝ) : EReal) else 0) = (((s.filter p).card : ℝ) : EReal) := by
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1), Nat.cast_succ,
        EReal.coe_add, add_comm]
    · rw [if_neg h, if_neg h, zero_add]

/-- A constant summed over a set is the number of its elements times the constant, at the infinities too. -/
theorem sum_const_eq_mul {ι : Type} (s : Finset ι) (x : EReal) :
    ∑ _j ∈ s, x = ((s.card : ℝ) : EReal) * x := by
  rw [Finset.sum_const, EReal.nsmul_eq_mul]
  rfl

/-! ## The kernel's three sums as sums over the other rows -/

section SpecSide

variable (uu : Fin 8192 → Fin 256 → EReal) (ll : Fin 8192 → BitVec 32) (i : Fin 8192)

/-- The rows carrying row `i`'s label (row `i` among them). -/
def sameSet : Finset (Fin 8192) := Finset.univ.filter fun j => ll i = ll j

theorem mem_sameSet_self : i ∈ sameSet ll i := Finset.mem_filter.2 ⟨Finset.mem_univ _, rfl⟩

theorem same_eq_one_iff (j : Fin 8192) : Spec.same ll i j = 1#1 ↔ ll i = ll j := Rows.cmpi_eq_eq_one_iff _ _

/-- With the diagonal exponential finite, taking it back leaves the sum over the other rows. -/
theorem rowsumK_eq (hfin : ∃ r : ℝ, Spec.sim uu i i = (r : EReal)) :
    Spec.rowsumK uu i = 0 + ∑ j ∈ Finset.univ.erase i, Ideal.exp (Spec.sim uu i j) := by
  obtain ⟨r, hr⟩ := hfin
  unfold Spec.rowsumK
  rw [show Spec.zeroW = (0 : EReal) from zeroW_eq, add_assoc,
    Cert.LibTileFold.sum_add_neg_eq_sum_erase Finset.univ (fun j => Ideal.exp (Spec.sim uu i j)) (Finset.mem_univ i)
      (Real.exp r) (by rw [hr, Ideal.exp_coe])]

/-- With the diagonal similarity finite, taking it back leaves the sum over the other rows with the label. -/
theorem possumK_eq (hfin : ∃ r : ℝ, Spec.sim uu i i = (r : EReal)) :
    Spec.possumK uu ll i = ∑ j ∈ (sameSet ll i).erase i, Spec.sim uu i j := by
  obtain ⟨r, hr⟩ := hfin
  unfold Spec.possumK
  rw [show Spec.zeroW = (0 : EReal) from zeroW_eq, zero_add]
  have h1 : ∑ j : Fin 8192, Scalar.select (Spec.same ll i j) (Spec.sim uu i j) 0 = ∑ j ∈ sameSet ll i, Spec.sim uu i j := by
    unfold sameSet
    rw [Finset.sum_filter]
    exact Finset.sum_congr rfl fun j _ => Rows.select_eq_ite _ _ (same_eq_one_iff ll i j) _ _
  rw [h1, Cert.LibTileFold.sum_add_neg_eq_sum_erase (sameSet ll i) (fun j => Spec.sim uu i j) (mem_sameSet_self ll i) r hr]

/-- The count less one is the number of other rows with the label. -/
theorem countK_eq : Spec.countK ll i = ((((sameSet ll i).erase i).card : ℝ) : EReal) := by
  unfold Spec.countK
  rw [show Spec.zeroW = (0 : EReal) from zeroW_eq, zero_add, show Spec.oneW = ((1 : ℝ) : EReal) from oneW_eq]
  have h1 : ∑ j : Fin 8192, (FloatOps.sitofp (F := Ideal) .f32 ((Spec.same ll i j).setWidth 32) : EReal)
      = (((sameSet ll i).card : ℝ) : EReal) := by
    unfold sameSet
    rw [← sum_indicator_card]
    refine Finset.sum_congr rfl fun j _ => ?_
    show ((((Spec.same ll i j).setWidth 32).toInt : ℝ) : EReal) = _
    by_cases h : ll i = ll j
    · have e1 : ((1#1 : BitVec 1).setWidth 32).toInt = 1 := by decide
      rw [(same_eq_one_iff ll i j).2 h, if_pos h, e1, Int.cast_one]
    · have e0 : ((0#1 : BitVec 1).setWidth 32).toInt = 0 := by decide
      rw [eq_zero_of_ne_one (mt (same_eq_one_iff ll i j).1 h), if_neg h, e0, Int.cast_zero, EReal.coe_zero]
  rw [h1, ← Finset.card_erase_add_one (mem_sameSet_self ll i), Nat.cast_succ, EReal.coe_add, add_assoc, ← EReal.coe_neg,
    ← EReal.coe_add (1 : ℝ) (-1), add_neg_cancel, EReal.coe_zero, add_zero]

end SpecSide

/-! ## The scalar steps -/

theorem cmpf_ogt_natCast (c : ℕ) :
    FloatOps.cmpf (F := Ideal) (φ := .f32) .ogt (((c : ℝ)) : EReal) Spec.zeroW = 1#1 ↔ 0 < c := by
  show BitVec.ofBool (decide (Spec.zeroW < ((c : ℝ) : EReal))) = 1#1 ↔ 0 < c
  rw [Rows.ofBool_eq_one_iff, decide_eq_true_eq, show Spec.zeroW = (0 : EReal) from zeroW_eq, ← EReal.coe_zero,
    EReal.coe_lt_coe_iff, Nat.cast_pos]

theorem max_natCast_oneW (c : ℕ) : max (((c : ℝ)) : EReal) Spec.oneW = (((max c 1 : ℕ) : ℝ) : EReal) := by
  rw [show Spec.oneW = ((1 : ℝ) : EReal) from oneW_eq, Nat.cast_max, Nat.cast_one]
  exact (EReal.coe_strictMono.monotone.map_max).symm

/-- The numerator: minus the sum over a set of `f j - L` is zero less (the sum of `f` less the set's size times `L`). -/
theorem numer_eq (s : Finset (Fin 8192)) (f : Fin 8192 → EReal) (L : EReal) :
    -(Ideal.ofBits .f32 0x00000000#32 + ∑ j ∈ s, (f j - L)) = Spec.zeroW - (∑ j ∈ s, f j - ((s.card : ℝ) : EReal) * L) := by
  rw [zeroW_eq, zero_add, show Spec.zeroW = (0 : EReal) from zeroW_eq, sub_eq_add_neg (0 : EReal), zero_add]
  congr 1
  rw [sub_eq_add_neg, ← mul_neg, ← sum_const_eq_mul, ← Finset.sum_add_distrib]
  exact Finset.sum_congr rfl fun j _ => sub_eq_add_neg _ _

/-! ## The reference's row value is the kernel's -/

theorem posSet_eq (l : S8192.Idx → BitVec 32) (i : Fin 8192) :
    Rows.posSet l i = (sameSet (fun a => l (ix1 a)) i).erase i := by
  unfold Rows.posSet sameSet
  ext j
  simp only [Finset.mem_filter, Finset.mem_univ, true_and, Finset.mem_erase]
  constructor
  · rintro ⟨h1, h2⟩; exact ⟨fun e => h2 e.symm, h1⟩
  · rintro ⟨h1, h2⟩; exact ⟨h2, fun e => h1 e.symm⟩

theorem expRowSum_eq (u : S8192x256.Idx → EReal) (i : Fin 8192)
    (hfin : ∃ r : ℝ, Spec.sim (fun a d => u (ix2 a d)) i i = (r : EReal)) :
    Rows.expRowSum u i = Spec.rowsumK (fun a d => u (ix2 a d)) i := by
  rw [rowsumK_eq _ i hfin, ← sum_ite_eq_zero]
  unfold Rows.expRowSum
  rw [zeroW_eq]
  refine congrArg (_ + ·) (Finset.sum_congr rfl fun j _ => ?_)
  rw [sim_eq]

theorem rowRef_eq_rowKer (u : S8192x256.Idx → EReal) (l : S8192.Idx → BitVec 32) (i : Fin 8192)
    (hfin : ∃ r : ℝ, Spec.sim (fun a d => u (ix2 a d)) i i = (r : EReal)) :
    Rows.rowRef u l i = Spec.rowKer (fun a d => u (ix2 a d)) (fun a => l (ix1 a)) i := by
  have hin : ∑ j : Fin 8192, (if (l (ix1 i) = l (ix1 j) ∧ i ≠ j) then Rows.logprob u i j else Ideal.ofBits .f32 0x00000000#32)
      = ∑ j ∈ Rows.posSet l i, (Spec.sim (fun a d => u (ix2 a d)) i j - Ideal.log (Rows.expRowSum u i)) := by
    unfold Rows.posSet
    rw [Finset.sum_filter, zeroW_eq]
    refine Finset.sum_congr rfl fun j _ => ?_
    unfold Rows.logprob
    rw [sim_eq]
  unfold Rows.rowRef Spec.rowKer Spec.rowLoss
  rw [hin, numer_eq, countK_eq, possumK_eq _ _ i hfin, ← expRowSum_eq u i hfin, ← posSet_eq,
    Rows.select_eq_ite _ _ (cmpf_ogt_natCast _), max_natCast_oneW]

/-! ## The diagonal similarity is finite on finite inputs with nonzero rows -/

/-- A finite sum of reals is a real. -/
theorem exists_real_sum {ι : Type} [DecidableEq ι] (s : Finset ι) (f : ι → EReal)
    (h : ∀ j ∈ s, ∃ r : ℝ, f j = (r : EReal)) : ∃ r : ℝ, ∑ j ∈ s, f j = (r : EReal) := by
  induction s using Finset.induction_on with
  | empty => exact ⟨0, by rw [Finset.sum_empty, EReal.coe_zero]⟩
  | insert a s ha ih =>
    obtain ⟨r1, h1⟩ := h a (Finset.mem_insert_self a s)
    obtain ⟨r2, h2⟩ := ih fun j hj => h j (Finset.mem_insert_of_mem hj)
    exact ⟨r1 + r2, by rw [Finset.sum_insert ha, h1, h2, EReal.coe_add]⟩

/-- For an argument whose entries are all real and whose rows each have a positive sum of squares, every entry of the
    normalized embedding is real (a real divided by a positive real), so each row's similarity with itself is real. -/
theorem sim_diag_real (x0 : S8192x256.Idx → EReal) (hx : ∀ j, ∃ r : ℝ, x0 j = (r : EReal))
    (hpos : ∀ a : Fin 8192, (0 : EReal) < Ideal.ofBits .f32 0x00000000#32 + ∑ k : Fin 256, x0 (ix2 a k) * x0 (ix2 a k))
    (i : Fin 8192) :
    ∃ r : ℝ, Spec.sim (fun a d => Read.val_main_v2 (F := Ideal) x0 (ix2 a d)) i i = (r : EReal) := by
  obtain ⟨n, hn⟩ : ∃ n : ℝ, Ideal.ofBits .f32 0x00000000#32 + ∑ k : Fin 256, x0 (ix2 i k) * x0 (ix2 i k) = (n : EReal) := by
    obtain ⟨r, hr⟩ := exists_real_sum Finset.univ (fun k => x0 (ix2 i k) * x0 (ix2 i k)) (fun k _ => by
      obtain ⟨r, hr⟩ := hx (ix2 i k)
      exact ⟨r * r, by rw [hr, EReal.coe_mul]⟩)
    exact ⟨r, by rw [zeroW_eq, zero_add, hr]⟩
  have hn0 : 0 < n := by
    have h := hpos i
    rw [hn] at h
    exact EReal.coe_pos.mp h
  have hu : ∀ d : Fin 256, ∃ r : ℝ, Read.val_main_v2 (F := Ideal) x0 (ix2 i d) = (r : EReal) := fun d => by
    obtain ⟨r, hr⟩ := hx (ix2 i d)
    rw [Rows.v2_apply, hn, Ideal.sqrt_coe, if_neg (not_lt.mpr hn0.le), Ideal.div_coe (Real.sqrt_ne_zero'.mpr hn0), hr,
      ← EReal.coe_mul]
    exact ⟨_, rfl⟩
  show ∃ r : ℝ, (∑ d : Fin 256, Read.val_main_v2 (F := Ideal) x0 (ix2 i d) * Read.val_main_v2 (F := Ideal) x0 (ix2 i d))
      * Spec.twoW = (r : EReal)
  obtain ⟨s, hs⟩ := exists_real_sum Finset.univ
    (fun d => Read.val_main_v2 (F := Ideal) x0 (ix2 i d) * Read.val_main_v2 (F := Ideal) x0 (ix2 i d)) (fun d _ => by
      obtain ⟨r, hr⟩ := hu d
      exact ⟨r * r, by rw [hr, EReal.coe_mul]⟩)
  exact ⟨s * 2, by rw [hs, show Spec.twoW = ((2 : ℝ) : EReal) from twoW_eq, EReal.coe_mul]⟩

end Cert.Bridge

end
-- ==== Proof.PreDecode.lean ====
import proofs.«116435_j54296976556236_2_alg».proof.Defs
import proofs.«116435_j54296976556236_2_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.PreDecode

open Idealize.ShloMosaic Idealize.ShloMosaic.ValueIdx Cert.Pre_finite_inputs

instance : Subsingleton Cert.Pre_finite_inputs.S_.Idx := ⟨fun a b => funext fun d => d.elim0⟩

/-- A comparison bit that is one says the comparison holds. -/
theorem cmp_olt_eq_one {a b : EReal} (h : Ideal.cmp .olt a b = 1#1) : a < b := by
  unfold Ideal.cmp at h
  by_contra hn
  simp [hn] at h
theorem cmp_ogt_eq_one {a b : EReal} (h : Ideal.cmp .ogt a b = 1#1) : b < a := by
  unfold Ideal.cmp at h
  by_contra hn
  simp [hn] at h

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The infinity word. -/
theorem ofBits_inf : Ideal.ofBits .f32 0x7F800000#32 = (⊤ : EReal) := by simp [Ideal.ofBits, Ideal.ieee]

/-- The sum of squares of a row, from zero, as the host's sum forms it. -/
theorem rowSq_apply [Cert.Pre_finite_inputs.Facts] (x0 : FVec Ideal S8192x256 .f32) (a : Fin 8192) :
    Host.reduceAdd (mulf x0 x0) (constant (F := Ideal) S_ .f32 0x00000000#32) Facts.reducesTo_S8192x256_S8192_d1 Facts.h_S_ (ix1 a)
      = Ideal.ofBits .f32 0x00000000#32 + ∑ k : Fin 256, x0 (ix2 a k) * x0 (ix2 a k) := by
  simp only [Host.reduceAdd, Ideal.hostReduceAdd_def]
  rw [Ideal.hostReduceAdd_single Facts.reducesTo_S8192x256_S8192_d1 (by decide)]
  refine congr (congrArg _ rfl) (Finset.sum_congr rfl fun k _ => ?_)
  exact congrArg (fun i => x0 i * x0 i) (funext fun ax => Fin.ext (by match ax with | ⟨0, _⟩ => rfl | ⟨1, _⟩ => rfl))

/-- What the precondition says of the embedding at the ideal instance: every entry is a real number, and every row's
    sum of squares (from zero, as the programs form it) is positive. -/
theorem decode [Cert.Pre_finite_inputs.Facts] (x0 : FVec Ideal S8192x256 .f32) (x1 : IVec S8192 32)
    (h : Cert.Pre_finite_inputs.fn (F := Ideal) x0 x1 = fun _ => 1#1) :
    (∀ j : S8192x256.Idx, ∃ r : ℝ, x0 j = (r : EReal))
    ∧ (∀ a : Fin 8192, (0 : EReal) < Ideal.ofBits .f32 0x00000000#32 + ∑ k : Fin 256, x0 (ix2 a k) * x0 (ix2 a k)) := by
  have h0 := congrFun h ix0
  dsimp only [Cert.Pre_finite_inputs.fn] at h0
  obtain ⟨hA, hB⟩ := IntOp.andi_eq_one.mp h0
  constructor
  · intro j
    have hj := Host.reduce_andi_all _ _ _ _ _ hA j
    have hj' : Ideal.cmp .olt (max (x0 j) (-(x0 j))) (Ideal.ofBits .f32 0x7F800000#32) = 1#1 := hj
    have hlt := cmp_olt_eq_one hj'
    rw [ofBits_inf] at hlt
    exact real_of_abs_lt_top _ hlt
  · intro a
    have ha := Host.reduce_andi_all _ _ _ _ _ hB (ix1 a)
    have ha' : Ideal.cmp .ogt (Host.reduceAdd (mulf x0 x0) (constant (F := Ideal) S_ .f32 0x00000000#32) Facts.reducesTo_S8192x256_S8192_d1 Facts.h_S_ (ix1 a))
        (Ideal.ofBits .f32 0x00000000#32) = 1#1 := ha
    have hlt := cmp_ogt_eq_one ha'
    rw [rowSq_apply, Ideal.ofBits_zero_f32] at hlt
    rw [Ideal.ofBits_zero_f32]
    exact hlt

end Cert.PreDecode

end
-- ==== Proof.Algebraic.lean ====
import proofs.«116435_j54296976556236_2_alg».proof.Defs
import proofs.«116435_j54296976556236_2_alg».proof.Proof.KITotal
import proofs.«116435_j54296976556236_2_alg».proof.Proof.RefLink
import proofs.«116435_j54296976556236_2_alg».proof.Proof.Bridge
import proofs.«116435_j54296976556236_2_alg».proof.Proof.PreDecode

noncomputable section

namespace Cert.Proof

open Idealize.ShloMosaic Idealize.ShloMosaic.TcCoe Idealize.ShloMosaic.ValueIdx Idealize.SL.Sem

/-- The two results agree: the kernel's is zero plus the sum of `Spec.rowKer` over the 8192 rows, the reference's zero plus
    the sum of `rowRef`; the two per-row values agree where the row's self-similarity is a real, which the precondition
    gives (every entry a real, every row's sum of squares positive). -/
theorem value_eq (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KernelIdeal.Hand.tailSum m c
      = Cert.ReferenceIdeal.Read.val_main_v38 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  haveI : Cert.Pre_finite_inputs.Facts := Cert.Pre_finite_inputs.Gen.facts
  obtain ⟨hx, hpos⟩ := Cert.PreDecode.decode _ _ (hpre c)
  funext ix
  have hix : ix = ix0 := funext fun d => (d : Fin 0).elim0
  subst hix
  rw [Cert.KernelIdeal.Hand.kernel_total, Cert.ReferenceIdeal.Rows.total_eq, Cert.KernelIdeal.Hand.uS_eq]
  refine congrArg (Cert.Spec.zeroW + ·) (Finset.sum_congr rfl fun i _ => ?_)
  exact (Cert.Bridge.rowRef_eq_rowKer _ _ i (Cert.Bridge.sim_diag_real _ hx hpos i)).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.tailSum m c, ?_, ?_⟩
  · exact (θ_run _ _ _).mono (fun _ h c => ⟨(h c).1, (h c).2.1.trans (Cert.KernelIdeal.Hand.Vr_arg0 m c),
      (h c).2.2.trans (Cert.KernelIdeal.Hand.Vr_arg1 m c)⟩) (Cert.KernelIdeal.Hand.run_value (F := Ideal) m g)
  · refine (θ_run _ _ _).mono (fun _ h c => ⟨?_, (h c).2.1, (h c).2.2⟩) (Cert.ReferenceIdeal.Value.run_after (F := Ideal) m' g')
    rw [(h c).1, Cert.ReferenceIdeal.Link.result_eq m' c, (hagree c).1, (hagree c).2]
    exact (value_eq m hpre c).symm

end Cert.Proof

end
-- ==== Proof.lean ====
/- The proof of `Cert.Claim`: three frames, the (empty) idealization ledger, and the equality of the idealized kernel
   and the idealized reference on the extended reals.

   The kernel computes a supervised contrastive loss in one pass over 8 × 8 tiles of the 8192 × 8192 similarity matrix
   `s = 2 · u uᵀ` (`u` the rows of the embedding divided by their norms): per row it carries the sum of `exp s`, the sum of
   `s` over equal labels and the count of equal labels, subtracts the diagonal entry's share on the diagonal tile, and on
   the last tile of a row of tiles writes `(n · log R − P) / max n 1` where `n > 0`. Two of its windows read one array
   (the query rows and the key rows of `u`), so the frame of each kernel program is proved here from the launch theorem
   for a list of segments: the array is split in halves between the two windows at entry (`Proof/KIFrame.lean`,
   `Proof/KFrame.lean`), the body runs symbolically in each of the eight sign assignments of its three conditions
   (`Proof/KIRun*.lean`), and the three carried columns are followed from point to point (`Proof/KIData.lean`).
   The reference's frame is its run with the result dropped (`Proof/RefRun.lean`).

   The equality. Under the precondition every entry of the embedding is a real and every row's sum of squares is positive
   (`Proof/PreDecode.lean`), so every row's self-similarity is a real (`Proof/Bridge.lean`). The kernel's result is zero plus
   the sum over the 8192 rows of `Spec.rowKer` (`Proof/Spec.lean`): each carried column, followed across a row of 8 tiles, is
   the sum of its 8 tile terms less the diagonal entry's share (`Proof/LibTileFold.lean`, `Proof/KIColR.lean`,
   `Proof/KIColPN.lean`), 8 tiles of 1024 columns being the 8192 columns (`Proof/KIRows.lean`, `Proof/KITotal.lean`). The
   reference's result is zero plus the sum of `rowRef` (`Proof/RefLink.lean`, `Proof/RefRows.lean`). The two per-row values
   agree (`Proof/Bridge.lean`): dividing by one half is doubling; a sum that skips the diagonal is the whole sum less the
   diagonal term, that term being a real; subtracting `log R` inside the sum over the `n` positives is subtracting
   `n · log R` outside it; and the integer count of positives read as a float is the kernel's float count less one. -/
import proofs.«116435_j54296976556236_2_alg».proof.Defs
import proofs.«116435_j54296976556236_2_alg».proof.Proof.Gen.Kernel
import proofs.«116435_j54296976556236_2_alg».proof.Proof.Gen.Kernel.Skeleton
import proofs.«116435_j54296976556236_2_alg».proof.Proof.Gen.Kernel.Launch
import proofs.«116435_j54296976556236_2_alg».proof.Proof.Gen.Kernel.Points
import proofs.«116435_j54296976556236_2_alg».proof.Proof.Gen.KernelIdeal
import proofs.«116435_j54296976556236_2_alg».proof.Proof.Gen.KernelIdeal.Skeleton
import proofs.«116435_j54296976556236_2_alg».proof.Proof.Gen.KernelIdeal.Launch
import proofs.«116435_j54296976556236_2_alg».proof.Proof.Gen.KernelIdeal.Points
import proofs.«116435_j54296976556236_2_alg».proof.Proof.Gen.ReferenceIdeal
import proofs.«116435_j54296976556236_2_alg».proof.Proof.Gen.Pre_finite_inputs
import proofs.«116435_j54296976556236_2_alg».proof.Proof.RefRun
import proofs.«116435_j54296976556236_2_alg».proof.Proof.KFrame
import proofs.«116435_j54296976556236_2_alg».proof.Proof.KIFrame
import proofs.«116435_j54296976556236_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Value.run (F := Ideal) m ρ

/-- The ideal pass rewrote nothing: the idealized kernel is the kernel's own text read at the ideal instance. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
